-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x64x64 : Shape := ⟨4, ![4, 512, 64, 64]⟩
abbrev S_ : Shape := ⟨0, ![]⟩

class Facts : Prop where
  bcast_S_S4x512x64x64 : S_.BroadcastsInDim S4x512x64x64 (![] : Fin 0 → Fin S4x512x64x64.rank)
  reducesTo_S4x512x64x64_S_d0_1_2_3 : S4x512x64x64.ReducesTo [0, 1, 2, 3] S_
  h_S_ : 0 < S_.numel

variable [Facts]

def fn_part1 {F : FTy → Type} [FloatOps F] (main_v13 : IVec S_ 1) (main_v16 : IVec S4x512x64x64 1) : IVec S_ 1 :=
  let main_c_5 : IVec S_ 1 := constantI S_ 1 1#1
  let main_v17 : IVec S_ 1 := (fun x v => Host.reduce IntOp.andi x v reducesTo_S4x512x64x64_S_d0_1_2_3 h_S_) main_v16 main_c_5
  let main_v18 : IVec S_ 1 := andi main_v13 main_v17
  main_v18

def fn {F : FTy → Type} [FloatOps F] (main_arg0 : FVec F S4x512x64x64 .f32) (main_arg1 : FVec F S4x512x64x64 .f32) (main_arg2 : FVec F S4x512x64x64 .f32) (main_arg3 : FVec F S4x512x64x64 .f32) : IVec S_ 1 :=
  let main_v0 : FVec F S4x512x64x64 .f32 := Host.absf main_arg0
  let main_cst : FVec F S_ .f32 := constant S_ .f32 0x7F800000#32
  let main_v1 : FVec F S4x512x64x64 .f32 := broadcastInDim S4x512x64x64 ![] bcast_S_S4x512x64x64 main_cst
  let main_v2 : IVec S4x512x64x64 1 := cmpf .olt main_v0 main_v1
  let main_c : IVec S_ 1 := constantI S_ 1 1#1
  let main_v3 : IVec S_ 1 := (fun x v => Host.reduce IntOp.andi x v reducesTo_S4x512x64x64_S_d0_1_2_3 h_S_) main_v2 main_c
  let main_v4 : FVec F S4x512x64x64 .f32 := Host.absf main_arg1
  let main_cst_0 : FVec F S_ .f32 := constant S_ .f32 0x7F800000#32
  let main_v5 : FVec F S4x512x64x64 .f32 := broadcastInDim S4x512x64x64 ![] bcast_S_S4x512x64x64 main_cst_0
  let main_v6 : IVec S4x512x64x64 1 := cmpf .olt main_v4 main_v5
  let main_c_1 : IVec S_ 1 := constantI S_ 1 1#1
  let main_v7 : IVec S_ 1 := (fun x v => Host.reduce IntOp.andi x v reducesTo_S4x512x64x64_S_d0_1_2_3 h_S_) main_v6 main_c_1
  let main_v8 : IVec S_ 1 := andi main_v3 main_v7
  let main_v9 : FVec F S4x512x64x64 .f32 := Host.absf main_arg2
  let main_cst_2 : FVec F S_ .f32 := constant S_ .f32 0x7F800000#32
  let main_v10 : FVec F S4x512x64x64 .f32 := broadcastInDim S4x512x64x64 ![] bcast_S_S4x512x64x64 main_cst_2
  let main_v11 : IVec S4x512x64x64 1 := cmpf .olt main_v9 main_v10
  let main_c_3 : IVec S_ 1 := constantI S_ 1 1#1
  let main_v12 : IVec S_ 1 := (fun x v => Host.reduce IntOp.andi x v reducesTo_S4x512x64x64_S_d0_1_2_3 h_S_) main_v11 main_c_3
  let main_v13 : IVec S_ 1 := andi main_v8 main_v12
  let main_v14 : FVec F S4x512x64x64 .f32 := Host.absf main_arg3
  let main_cst_4 : FVec F S_ .f32 := constant S_ .f32 0x7F800000#32
  let main_v15 : FVec F S4x512x64x64 .f32 := broadcastInDim S4x512x64x64 ![] bcast_S_S4x512x64x64 main_cst_4
  let main_v16 : IVec S4x512x64x64 1 := cmpf .olt main_v14 main_v15
  fn_part1 (F := F) main_v13 main_v16
-- ==== Kernel.lean ====
abbrev S4x512x64x64 : Shape := ⟨4, ![4, 512, 64, 64]⟩
abbrev S4x512x4096 : Shape := ⟨3, ![4, 512, 4096]⟩
abbrev S_ : Shape := ⟨0, ![]⟩
abbrev S4x512 : Shape := ⟨2, ![4, 512]⟩
abbrev S4x512x1x1 : Shape := ⟨4, ![4, 512, 1, 1]⟩
abbrev S4x512x1 : Shape := ⟨3, ![4, 512, 1]⟩
abbrev S1x512x512 : Shape := ⟨3, ![1, 512, 512]⟩
abbrev S1x512x1 : Shape := ⟨3, ![1, 512, 1]⟩
abbrev S1x512x4096 : Shape := ⟨3, ![1, 512, 4096]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 118
  | .vmem => 18
  | .smem => 0
  | _ => 0

abbrev bufTy : (tb : Table) → Fin (tcTables nBuf tb) → BufTy
  | .hbm, ⟨0, _⟩ => ⟨S4x512x64x64, .f32⟩
  | .hbm, ⟨1, _⟩ => ⟨S4x512x64x64, .f32⟩
  | .hbm, ⟨2, _⟩ => ⟨S4x512x64x64, .f32⟩
  | .hbm, ⟨3, _⟩ => ⟨S4x512x64x64, .f32⟩
  | .hbm, ⟨4, _⟩ => ⟨S4x512x4096, .f32⟩
  | .hbm, ⟨5, _⟩ => ⟨S_, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S_, .i32⟩
  | .hbm, ⟨11, _⟩ => ⟨S_, .f32⟩
  | .hbm, ⟨12, _⟩ => ⟨S4x512, .f32⟩
  | .hbm, ⟨13, _⟩ => ⟨S4x512x1x1, .f32⟩
  | .hbm, ⟨14, _⟩ => ⟨S_, .f32⟩
  | .hbm, ⟨15, _⟩ => ⟨S4x512x1x1, .f32⟩
  | .hbm, ⟨16, _⟩ => ⟨S4x512x1x1, .f32⟩
  | .hbm, ⟨17, _⟩ => ⟨S4x512x64x64, .f32⟩
  | .hbm, ⟨18, _⟩ => ⟨S4x512x64x64, .f32⟩
  | .hbm, ⟨19, _⟩ => ⟨S4x512x64x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512, .f32⟩
  | .hbm, ⟨26, _⟩ => ⟨S4x512, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S_, .f32⟩
  | .hbm, ⟨34, _⟩ => ⟨S4x512, .f32⟩
  | .hbm, ⟨35, _⟩ => ⟨S4x512, .f32⟩
  | .hbm, ⟨36, _⟩ => ⟨S4x512, .f32⟩
  | .hbm, ⟨37, _⟩ => ⟨S4x512x1, .f32⟩
  | .hbm, ⟨38, _⟩ => ⟨S4x512x1, .f32⟩
  | .hbm, ⟨39, _⟩ => ⟨S4x512x4096, .f32⟩
  | .hbm, ⟨40, _⟩ => ⟨S_, .f32⟩
  | .hbm, ⟨41, _⟩ => ⟨S4x512, .f32⟩
  | .hbm, ⟨42, _⟩ => ⟨S_, .f32⟩
  | .hbm, ⟨43, _⟩ => ⟨S4x512, .f32⟩
  | .hbm, ⟨44, _⟩ => ⟨S4x512, .f32⟩
  | .hbm, ⟨45, _⟩ => ⟨S_, .i32⟩
  | .hbm, ⟨46, _⟩ => ⟨S_, .f32⟩
  | .hbm, ⟨47, _⟩ => ⟨S4x512, .f32⟩
  | .hbm, ⟨48, _⟩ => ⟨S4x512x1x1, .f32⟩
  | .hbm, ⟨49, _⟩ => ⟨S_, .f32⟩
  | .hbm, ⟨50, _⟩ => ⟨S4x512x1x1, .f32⟩
  | .hbm, ⟨51, _⟩ => ⟨S4x512x1x1, .f32⟩
  | .hbm, ⟨52, _⟩ => ⟨S4x512x64x64, .f32⟩
  | .hbm, ⟨53, _⟩ => ⟨S4x512x64x64, .f32⟩
  | .hbm, ⟨54, _⟩ => ⟨S4x512x64x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x512, .f32⟩
  | .hbm, ⟨60, _⟩ => ⟨S4x512, .f32⟩
  | .hbm, ⟨61, _⟩ => ⟨S4x512, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S4x512, .f32⟩
  | .hbm, ⟨67, _⟩ => ⟨S4x512, .f32⟩
  | .hbm, ⟨68, _⟩ => ⟨S_, .f32⟩
  | .hbm, ⟨69, _⟩ => ⟨S4x512, .f32⟩
  | .hbm, ⟨70, _⟩ => ⟨S4x512, .f32⟩
  | .hbm, ⟨71, _⟩ => ⟨S4x512, .f32⟩
  | .hbm, ⟨72, _⟩ => ⟨S4x512x1, .f32⟩
  | .hbm, ⟨73, _⟩ => ⟨S4x512x1, .f32⟩
  | .hbm, ⟨74, _⟩ => ⟨S_, .f32⟩
  | .hbm, ⟨75, _⟩ => ⟨S4x512, .f32⟩
  | .hbm, ⟨76, _⟩ => ⟨S_, .f32⟩
  | .hbm, ⟨77, _⟩ => ⟨S4x512, .f32⟩
  | .hbm, ⟨78, _⟩ => ⟨S4x512, .f32⟩
  | .hbm, ⟨79, _⟩ => ⟨S_, .i32⟩
  | .hbm, ⟨80, _⟩ => ⟨S_, .f32⟩
  | .hbm, ⟨81, _⟩ => ⟨S4x512, .f32⟩
  | .hbm, ⟨82, _⟩ => ⟨S4x512x1x1, .f32⟩
  | .hbm, ⟨83, _⟩ => ⟨S_, .f32⟩
  | .hbm, ⟨84, _⟩ => ⟨S4x512x1x1, .f32⟩
  | .hbm, ⟨85, _⟩ => ⟨S4x512x1x1, .f32⟩
  | .hbm, ⟨86, _⟩ => ⟨S4x512x64x64, .f32⟩
  | .hbm, ⟨87, _⟩ => ⟨S4x512x64x64, .f32⟩
  | .hbm, ⟨88, _⟩ => ⟨S4x512x64x64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S4x512, .f32⟩
  | .hbm, ⟨94, _⟩ => ⟨S4x512, .f32⟩
  | .hbm, ⟨95, _⟩ => ⟨S4x512, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S4x512, .f32⟩
  | .hbm, ⟨101, _⟩ => ⟨S4x512, .f32⟩
  | .hbm, ⟨102, _⟩ => ⟨S_, .f32⟩
  | .hbm, ⟨103, _⟩ => ⟨S4x512, .f32⟩
  | .hbm, ⟨104, _⟩ => ⟨S4x512, .f32⟩
  | .hbm, ⟨105, _⟩ => ⟨S4x512, .f32⟩
  | .hbm, ⟨106, _⟩ => ⟨S4x512x1, .f32⟩
  | .hbm, ⟨107, _⟩ => ⟨S4x512x1, .f32⟩
  | .hbm, ⟨108, _⟩ => ⟨S4x512x4096, .f32⟩
  | .hbm, ⟨109, _⟩ => ⟨S4x512x4096, .f32⟩
  | .hbm, ⟨110, _⟩ => ⟨S4x512x4096, .f32⟩
  | .hbm, ⟨111, _⟩ => ⟨S4x512x4096, .f32⟩
  | .hbm, ⟨112, _⟩ => ⟨S4x512x4096, .f32⟩
  | .hbm, ⟨113, _⟩ => ⟨S4x512x4096, .bf16⟩
  | .hbm, ⟨114, _⟩ => ⟨S4x512x4096, .f32⟩
  | .hbm, ⟨115, _⟩ => ⟨S4x512x4096, .bf16⟩
  | .hbm, ⟨116, _⟩ => ⟨S4x512x4096, .f32⟩
  | .hbm, ⟨117, _⟩ => ⟨S4x512x64x64, .f32⟩
  | .local _ .vmem, ⟨0, _⟩ => ⟨S1x512x512, .f32⟩
  | .local _ .vmem, ⟨1, _⟩ => ⟨S1x512x512, .f32⟩
  | .local _ .vmem, ⟨2, _⟩ => ⟨S1x512x1, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x512x4096, .bf16⟩
  | .local _ .vmem, ⟨7, _⟩ => ⟨S1x512x4096, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x512x512, .f32⟩
  | .local _ .vmem, ⟨11, _⟩ => ⟨S1x512x512, .f32⟩
  | .local _ .vmem, ⟨12, _⟩ => ⟨S1x512x1, .f32⟩
  | .local _ .vmem, ⟨13, _⟩ => ⟨S1x512x1, .f32⟩
  | .local _ .vmem, ⟨14, _⟩ => ⟨S1x512x1, .f32⟩
  | .local _ .vmem, ⟨15, _⟩ => ⟨S1x512x1, .f32⟩
  | .local _ .vmem, ⟨16, _⟩ => ⟨S1x512x512, .f32⟩
  | .local _ .vmem, ⟨17, _⟩ => ⟨S1x512x512, .f32⟩
  | _, _ => ⟨S4x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_cst_3 : Ref sig .tc := ⟨.hbm, 27, rfl⟩
abbrev main_call0_v12 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_cst_3 : Ref sig .tc := ⟨.hbm, 42, rfl⟩
abbrev main_v12 : Ref sig .tc := ⟨.hbm, 43, rfl⟩
abbrev main_v13 : Ref sig .tc := ⟨.hbm, 44, rfl⟩
abbrev main_c_4 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_cst_3 : Ref sig .tc := ⟨.hbm, 62, rfl⟩
abbrev main_call1_v12 : Ref sig .tc := ⟨.hbm, 63, rfl⟩
abbrev main_call1_cst_4 : Ref sig .tc := ⟨.hbm, 64, rfl⟩
abbrev main_call1_call0_v0 : Ref sig .tc := ⟨.hbm, 65, rfl⟩
abbrev main_call1_call0_v1 : Ref sig .tc := ⟨.hbm, 66, rfl⟩
abbrev main_v14 : Ref sig .tc := ⟨.hbm, 67, rfl⟩
abbrev main_cst_5 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst_6 : Ref sig .tc := ⟨.hbm, 74, rfl⟩
abbrev main_v20 : Ref sig .tc := ⟨.hbm, 75, rfl⟩
abbrev main_cst_7 : Ref sig .tc := ⟨.hbm, 76, rfl⟩
abbrev main_v21 : Ref sig .tc := ⟨.hbm, 77, rfl⟩
abbrev main_v22 : Ref sig .tc := ⟨.hbm, 78, rfl⟩
abbrev main_c_8 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst_3 : Ref sig .tc := ⟨.hbm, 96, rfl⟩
abbrev main_call2_v12 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v23 : Ref sig .tc := ⟨.hbm, 101, rfl⟩
abbrev main_cst_9 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v43 : BitVec 32 := Scalar.muli arg11 c512_i32
  v43
def k0_off1 (k0_t1 : Fin k0_t1_loop.trips) : Fin 3 → Nat :=
  let c0_26 : Index := 0#32
  let c0_27 : Index := 0#32
  let c0_i32 : BitVec 32 := 0#32
  let c1_i32 : BitVec 32 := 1#32
  let arg11 : BitVec 32 := Scf.iv c0_i32 c1_i32 k0_t1
  let c512_i32 : BitVec 32 := 512#32
  let v43 : BitVec 32 := Scalar.muli arg11 c512_i32
  let v44 : BitVec 32 := v43
  let v45 : Index := Scalar.indexCast v44
  ![0, 0, v45.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S4x512x64x64_S4x512x4096 : S4x512x64x64.ShapeCasts S4x512x4096
  reducesTo_S4x512x64x64_S4x512_d2_3 : S4x512x64x64.ReducesTo [2, 3] S4x512
  h_S_ : 0 < S_.numel
  bcast_S_S4x512 : S_.BroadcastsInDim S4x512 (![] : Fin 0 → Fin S4x512.rank)
  bcast_S4x512_S4x512x1x1_0_1 : S4x512.BroadcastsInDim S4x512x1x1 (![0, 1] : Fin 2 → Fin S4x512x1x1.rank)
  bcast_S_S4x512x1x1 : S_.BroadcastsInDim S4x512x1x1 (![] : Fin 0 → Fin S4x512x1x1.rank)
  bcast_S4x512x1x1_S4x512x64x64_0_1_2_3 : S4x512x1x1.BroadcastsInDim S4x512x64x64 (![0, 1, 2, 3] : Fin 4 → Fin S4x512x64x64.rank)
  bcast_S4x512_S4x512x1_0_1 : S4x512.BroadcastsInDim S4x512x1 (![0, 1] : Fin 2 → Fin S4x512x1.rank)
  bcast_S4x512x1_S4x512x4096_0_1_2 : S4x512x1.BroadcastsInDim S4x512x4096 (![0, 1, 2] : Fin 3 → Fin S4x512x4096.rank)
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x512 : S512x1.Broadcasts S512x512
  reduces_S512x512_S512 : S512x512.Reduces [0] S512
  shapeCasts_S512_S1x512 : S512.ShapeCasts S1x512
  broadcasts_S1x512_S512x512 : S1x512.Broadcasts S512x512
  shapeCasts_S512x512_S1x512x512 : S512x512.ShapeCasts S1x512x512
  shapeCasts_S4x512x4096_S4x512x64x64 : S4x512x4096.ShapeCasts S4x512x64x64
  dot_S512x512_S512x512_S512x512_0_0_1_1_n_n_wf : DotDims.WF S512x512 S512x512 S512x512 [0] [0] [1] [1] [] []
  dot_S512x512_S512x512_S512x512_1_0_0_1_n_n_wf : DotDims.WF S512x512 S512x512 S512x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x512.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x512x4096.size a
  hwx0_0 : ∀ i : grid0.Coords, EltTy.bits .f32 = 32 ∨ (Rect.block (s := S4x512x4096) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S4x512x1.size a
  hwx0_1 : ∀ i : grid0.Coords, EltTy.bits .f32 = 32 ∨ (Rect.block (s := S4x512x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x512x1.size a
  hwx0_2 : ∀ i : grid0.Coords, EltTy.bits .f32 = 32 ∨ (Rect.block (s := S4x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S4x512x4096.size a
  hwx0_3 : ∀ i : grid0.Coords, EltTy.bits .bf16 = 32 ∨ (Rect.block (s := S4x512x4096) S1x512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x4096.size a ≤ S4x512x4096.size a
  hwx0_4 : ∀ i : grid0.Coords, EltTy.bits .bf16 = 32 ∨ (Rect.block (s := S4x512x4096) S1x512x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S4x512x4096.size a
  hwx0_5 : ∀ i : grid0.Coords, EltTy.bits .f32 = 32 ∨ (Rect.block (s := S4x512x4096) S1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1.size a ≤ S4x512x1.size a
  hwx0_6 : ∀ i : grid0.Coords, EltTy.bits .f32 = 32 ∨ (Rect.block (s := S4x512x1) S1x512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1.size a ≤ S4x512x1.size a
  hwx0_7 : ∀ i : grid0.Coords, EltTy.bits .f32 = 32 ∨ (Rect.block (s := S4x512x1) S1x512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x512.size a ≤ S4x512x4096.size a
  hwx0_8 : ∀ i : grid0.Coords, EltTy.bits .f32 = 32 ∨ (Rect.block (s := S4x512x4096) S1x512x512.size (cc0_transform_8 i) (hinb0_8 i)).WholeWords (EltTy.packing .f32)

variable [Facts₀]

def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x512x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x512x64x64 : Shape := ⟨4, ![4, 512, 64, 64]⟩
abbrev S_ : Shape := ⟨0, ![]⟩
abbrev S4x512 : Shape := ⟨2, ![4, 512]⟩
abbrev S4x512x1x1 : Shape := ⟨4, ![4, 512, 1, 1]⟩
abbrev S4x512x4096 : Shape := ⟨3, ![4, 512, 4096]⟩
abbrev S4x4096x512 : Shape := ⟨3, ![4, 4096, 512]⟩
abbrev S4x4096x4096 : Shape := ⟨3, ![4, 4096, 4096]⟩
abbrev S4x4096 : Shape := ⟨2, ![4, 4096]⟩
abbrev S4x4096x1 : Shape := ⟨3, ![4, 4096, 1]⟩
abbrev S4x64x64x512 : Shape := ⟨4, ![4, 64, 64, 512]⟩

abbrev nBuf : Space → Nat
  | .hbm => 154
  | .vmem => 0
  | .smem => 0
  | _ => 0

abbrev hbmTy0_0 (i : Nat) : BufTy := match i % 128 with
  | 0 => ⟨S4x512x64x64, .f32⟩
  | 1 => ⟨S4x512x64x64, .f32⟩
  | 2 => ⟨S4x512x64x64, .f32⟩
  | 3 => ⟨S4x512x64x64, .f32⟩
  | 4 => ⟨S_, .f32⟩
  | 5 => ⟨S4x512, .f32⟩
  | 6 => ⟨S4x512x1x1, .f32⟩
  | 7 => ⟨S_, .f32⟩
  | 8 => ⟨S4x512x1x1, .f32⟩
  | 9 => ⟨S4x512x1x1, .f32⟩
  | 10 => ⟨S_, .i32⟩
  | 11 => ⟨S_, .f32⟩
  | 12 => ⟨S4x512, .f32⟩
  | 13 => ⟨S4x512x1x1, .f32⟩
  | 14 => ⟨S_, .f32⟩
  | 15 => ⟨S4x512x1x1, .f32⟩
  | 16 => ⟨S4x512x1x1, .f32⟩
  | 17 => ⟨S4x512x64x64, .f32⟩
  | 18 => ⟨S4x512x64x64, .f32⟩
  | 19 => ⟨S4x512x64x64, .f32⟩
  | 20 => ⟨S_, .f32⟩
  | 21 => ⟨S_, .f32⟩
  | 22 => ⟨S_, .f32⟩
  | 23 => ⟨S_, .f32⟩
  | 24 => ⟨S4x512, .f32⟩
  | 25 => ⟨S4x512x1x1, .f32⟩
  | 26 => ⟨S4x512x1x1, .f32⟩
  | 27 => ⟨S4x512x1x1, .f32⟩
  | 28 => ⟨S_, .f32⟩
  | 29 => ⟨S_, .i1⟩
  | 30 => ⟨S_, .f32⟩
  | 31 => ⟨S_, .f32⟩
  | 32 => ⟨S4x512x1x1, .f32⟩
  | 33 => ⟨S4x512x1x1, .f32⟩
  | 34 => ⟨S4x512x64x64, .f32⟩
  | 35 => ⟨S4x512x64x64, .f32⟩
  | 36 => ⟨S_, .f32⟩
  | 37 => ⟨S4x512x1x1, .f32⟩
  | 38 => ⟨S4x512x1x1, .f32⟩
  | 39 => ⟨S4x512x1x1, .f32⟩
  | 40 => ⟨S4x512x64x64, .f32⟩
  | 41 => ⟨S4x512x64x64, .f32⟩
  | 42 => ⟨S4x512x4096, .f32⟩
  | 43 => ⟨S4x4096x512, .f32⟩
  | 44 => ⟨S_, .f32⟩
  | 45 => ⟨S4x512, .f32⟩
  | 46 => ⟨S4x512x1x1, .f32⟩
  | 47 => ⟨S_, .f32⟩
  | 48 => ⟨S4x512x1x1, .f32⟩
  | 49 => ⟨S4x512x1x1, .f32⟩
  | 50 => ⟨S_, .i32⟩
  | 51 => ⟨S_, .f32⟩
  | 52 => ⟨S4x512, .f32⟩
  | 53 => ⟨S4x512x1x1, .f32⟩
  | 54 => ⟨S_, .f32⟩
  | 55 => ⟨S4x512x1x1, .f32⟩
  | 56 => ⟨S4x512x1x1, .f32⟩
  | 57 => ⟨S4x512x64x64, .f32⟩
  | 58 => ⟨S4x512x64x64, .f32⟩
  | 59 => ⟨S4x512x64x64, .f32⟩
  | 60 => ⟨S_, .f32⟩
  | 61 => ⟨S_, .f32⟩
  | 62 => ⟨S_, .f32⟩
  | 63 => ⟨S_, .f32⟩
  | 64 => ⟨S4x512, .f32⟩
  | 65 => ⟨S4x512x1x1, .f32⟩
  | 66 => ⟨S4x512x1x1, .f32⟩
  | 67 => ⟨S4x512x1x1, .f32⟩
  | 68 => ⟨S_, .f32⟩
  | 69 => ⟨S_, .i1⟩
  | 70 => ⟨S_, .f32⟩
  | 71 => ⟨S_, .f32⟩
  | 72 => ⟨S4x512x1x1, .f32⟩
  | 73 => ⟨S4x512x1x1, .f32⟩
  | 74 => ⟨S4x512x64x64, .f32⟩
  | 75 => ⟨S4x512x64x64, .f32⟩
  | 76 => ⟨S_, .f32⟩
  | 77 => ⟨S4x512x1x1, .f32⟩
  | 78 => ⟨S4x512x1x1, .f32⟩
  | 79 => ⟨S4x512x1x1, .f32⟩
  | 80 => ⟨S4x512x64x64, .f32⟩
  | 81 => ⟨S4x512x64x64, .f32⟩
  | 82 => ⟨S4x512x4096, .f32⟩
  | 83 => ⟨S4x512x4096, .f32⟩
  | 84 => ⟨S4x4096x512, .f32⟩
  | 85 => ⟨S4x4096x4096, .f32⟩
  | 86 => ⟨S_, .f32⟩
  | 87 => ⟨S4x4096, .f32⟩
  | 88 => ⟨S_, .f32⟩
  | 89 => ⟨S4x4096, .f32⟩
  | 90 => ⟨S4x4096, .f32⟩
  | 91 => ⟨S4x4096x1, .f32⟩
  | 92 => ⟨S4x4096x4096, .f32⟩
  | 93 => ⟨S4x4096x4096, .f32⟩
  | 94 => ⟨S4x4096x4096, .f32⟩
  | 95 => ⟨S_, .f32⟩
  | 96 => ⟨S4x4096, .f32⟩
  | 97 => ⟨S4x4096x1, .f32⟩
  | 98 => ⟨S4x4096x4096, .f32⟩
  | 99 => ⟨S4x4096x4096, .f32⟩
  | 100 => ⟨S4x4096x512, .f32⟩
  | 101 => ⟨S4x4096x512, .f32⟩
  | 102 => ⟨S4x4096x512, .f32⟩
  | 103 => ⟨S4x4096x512, .f32⟩
  | 104 => ⟨S4x4096x512, .f32⟩
  | 105 => ⟨S_, .f32⟩
  | 106 => ⟨S_, .f32⟩
  | 107 => ⟨S4x4096x512, .f32⟩
  | 108 => ⟨S4x4096x512, .f32⟩
  | 109 => ⟨S4x4096x512, .f32⟩
  | 110 => ⟨S4x64x64x512, .f32⟩
  | 111 => ⟨S4x512x64x64, .f32⟩
  | 112 => ⟨S4x64x64x512, .f32⟩
  | 113 => ⟨S4x512x64x64, .f32⟩
  | 114 => ⟨S_, .f32⟩
  | 115 => ⟨S4x512, .f32⟩
  | 116 => ⟨S4x512x1x1, .f32⟩
  | 117 => ⟨S_, .f32⟩
  | 118 => ⟨S4x512x1x1, .f32⟩
  | 119 => ⟨S4x512x1x1, .f32⟩
  | 120 => ⟨S_, .i32⟩
  | 121 => ⟨S_, .f32⟩
  | 122 => ⟨S4x512, .f32⟩
  | 123 => ⟨S4x512x1x1, .f32⟩
  | 124 => ⟨S_, .f32⟩
  | 125 => ⟨S4x512x1x1, .f32⟩
  | 126 => ⟨S4x512x1x1, .f32⟩
  | 127 => ⟨S4x512x64x64, .f32⟩
  | _ => ⟨S4x512x64x64, .f32⟩

abbrev hbmTy0_1 (i : Nat) : BufTy := match i % 128 with
  | 0 => ⟨S4x512x64x64, .f32⟩
  | 1 => ⟨S4x512x64x64, .f32⟩
  | 2 => ⟨S_, .f32⟩
  | 3 => ⟨S_, .f32⟩
  | 4 => ⟨S_, .f32⟩
  | 5 => ⟨S_, .f32⟩
  | 6 => ⟨S4x512, .f32⟩
  | 7 => ⟨S4x512x1x1, .f32⟩
  | 8 => ⟨S4x512x1x1, .f32⟩
  | 9 => ⟨S4x512x1x1, .f32⟩
  | 10 => ⟨S_, .f32⟩
  | 11 => ⟨S_, .i1⟩
  | 12 => ⟨S_, .f32⟩
  | 13 => ⟨S_, .f32⟩
  | 14 => ⟨S4x512x1x1, .f32⟩
  | 15 => ⟨S4x512x1x1, .f32⟩
  | 16 => ⟨S4x512x64x64, .f32⟩
  | 17 => ⟨S4x512x64x64, .f32⟩
  | 18 => ⟨S_, .f32⟩
  | 19 => ⟨S4x512x1x1, .f32⟩
  | 20 => ⟨S4x512x1x1, .f32⟩
  | 21 => ⟨S4x512x1x1, .f32⟩
  | 22 => ⟨S4x512x64x64, .f32⟩
  | 23 => ⟨S4x512x64x64, .f32⟩
  | 24 => ⟨S4x512x64x64, .f32⟩
  | 25 => ⟨S4x512x64x64, .f32⟩
  | _ => ⟨S4x512x64x64, .f32⟩

abbrev hbmTy (i : Nat) : BufTy := match i / 128 with
  | 0 => hbmTy0_0 i
  | 1 => hbmTy0_1 i
  | _ => ⟨S4x512x64x64, .f32⟩

abbrev bufTy : (tb : Table) → Fin (tcTables nBuf tb) → BufTy
  | .hbm, ⟨i, _⟩ => hbmTy i
  | _, _ => ⟨S4x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_v17 : Ref sig .tc := ⟨.hbm, 49, rfl⟩
abbrev main_c_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_cst_5 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_6 : Ref sig .tc := ⟨.hbm, 86, rfl⟩
abbrev main_v30 : Ref sig .tc := ⟨.hbm, 87, rfl⟩
abbrev main_cst_7 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_8 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_9 : Ref sig .tc := ⟨.hbm, 105, rfl⟩
abbrev main_call2_v0 : Ref sig .tc := ⟨.hbm, 106, rfl⟩
abbrev main_call2_v1 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_cst_10 : Ref sig .tc := ⟨.hbm, 114, rfl⟩
abbrev main_v52 : Ref sig .tc := ⟨.hbm, 115, rfl⟩
abbrev main_v53 : Ref sig .tc := ⟨.hbm, 116, rfl⟩
abbrev main_cst_11 : Ref sig .tc := ⟨.hbm, 117, rfl⟩
abbrev main_v54 : Ref sig .tc := ⟨.hbm, 118, rfl⟩
abbrev main_v55 : Ref sig .tc := ⟨.hbm, 119, rfl⟩
abbrev main_c_12 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_cst_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_cst_1 : Ref sig .tc := ⟨.hbm, 131, rfl⟩
abbrev main_call3_v8 : Ref sig .tc := ⟨.hbm, 132, rfl⟩
abbrev main_call3_cst_2 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_v12 : Ref sig .tc := ⟨.hbm, 137, rfl⟩
abbrev main_call3_cst_3 : Ref sig .tc := ⟨.hbm, 138, rfl⟩
abbrev main_call3_v13 : Ref sig .tc := ⟨.hbm, 139, rfl⟩
abbrev main_call3_cst_4 : Ref sig .tc := ⟨.hbm, 140, rfl⟩
abbrev main_call3_call0_v0 : Ref sig .tc := ⟨.hbm, 141, rfl⟩
abbrev main_call3_call0_v1 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_cst_13 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩

abbrev nD : Nat := 1
abbrev τ : Topo := Topo.v7x

variable {F : FTy → Type} [FloatOps F]

class Facts₀ : Prop where
  reducesTo_S4x512x64x64_S4x512_d2_3 : S4x512x64x64.ReducesTo [2, 3] S4x512
  h_S_ : 0 < S_.numel
  bcast_S4x512_S4x512x1x1_0_1 : S4x512.BroadcastsInDim S4x512x1x1 (![0, 1] : Fin 2 → Fin S4x512x1x1.rank)
  bcast_S_S4x512x1x1 : S_.BroadcastsInDim S4x512x1x1 (![] : Fin 0 → Fin S4x512x1x1.rank)
  bcast_S4x512x1x1_S4x512x64x64_0_1_2_3 : S4x512x1x1.BroadcastsInDim S4x512x64x64 (![0, 1, 2, 3] : Fin 4 → Fin S4x512x64x64.rank)
  shapeCasts_S4x512x64x64_S4x512x4096 : S4x512x64x64.ShapeCasts S4x512x4096
  transposes_S4x512x4096_S4x4096x512_0_2_1 : S4x512x4096.Transposes [0, 2, 1] S4x4096x512
  reducesTo_S4x4096x4096_S4x4096_d2 : S4x4096x4096.ReducesTo [2] S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S_S4x4096x512 : S_.BroadcastsInDim S4x4096x512 (![] : Fin 0 → Fin S4x4096x512.rank)
  shapeCasts_S4x4096x512_S4x64x64x512 : S4x4096x512.ShapeCasts S4x64x64x512
  transposes_S4x64x64x512_S4x512x64x64_0_3_1_2 : S4x64x64x512.Transposes [0, 3, 1, 2] S4x512x64x64
  dot_S4x4096x512_S4x512x4096_S4x4096x4096_2_1_1_2_0_0_wf : DotDims.WF S4x4096x512 S4x512x4096 S4x4096x4096 [2] [1] [1] [2] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S4x512x4096_S4x4096x4096_2_1_1_2_0_0 : DotDims S4x4096x512 S4x512x4096 S4x4096x4096 where
  lhsContracting := [2]
  rhsContracting := [1]
  lhsNonContracting := [1]
  rhsNonContracting := [2]
  lhsBatch := [0]
  rhsBatch := [0]
  wf := dot_S4x4096x512_S4x512x4096_S4x4096x4096_2_1_1_2_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.Spec.lean ====
/-
  What both programs compute, as one function of the four argument arrays, index by index, on the extended reals.

  Every argument is an array x (b, c, h, w) of shape [4, 512, 64, 64]. Per batch b and channel c, over the 4096
  spatial positions (h, w):  mean x b c  is the sum divided by 4096,  var x b c  the sum of squared deviations
  divided by 4096 - 0 (the biased variance, guarded by 4096 - 0 > 0),  istd x b c = rsqrt (var + 1e-5),  and
  nrm x (b, c, h, w) = (x - mean) * istd  the instance-normalised array.
  A flat position p < 4096 is the pair (p / 64, p % 64). With Q = nrm c_1x, K = nrm s_1x and V = s_x read at
  flat positions, for a query position q and key positions k:
    score b q k = ∑ c, Q b c q * K b c k,   mx b q = the maximum over k (from -∞),
    pexp b q k = exp (score - mx),          den b q = 0 + ∑ k, pexp b q k,       wgt = pexp / den,
    avg b q v = ∑ k, wgt b q k * V b v k,   avg2 b q v = ∑ k, wgt b q k * (V b v k * V b v k),
    dev b q v = sqrt (max 1e-6 (avg2 - avg * avg)),
  and the result is  out (b, v, h, w) = dev b (64 h + w) v * nrm c_x (b, v, h, w) + avg b (64 h + w) v.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The arguments' shape, the per-(batch, channel) shape, and the scalar shape. -/
abbrev SX : Shape := ⟨4, ![4, 512, 64, 64]⟩
abbrev SBC : Shape := ⟨2, ![4, 512]⟩

/-- The words of 0, 4096, 1e-5, 1e-6, -∞ and the quiet NaN, read at the exact instance. -/
def zeroW : EReal := Ideal.ofBits .f32 0x00000000#32
def nW : EReal := Ideal.ofBits .f32 0x45800000#32
def eps5 : EReal := Ideal.ofBits .f32 0x3727C5AC#32
def eps6 : EReal := Ideal.ofBits .f32 0x358637BD#32
def negInfW : EReal := Ideal.ofBits .f32 0xFF800000#32
def nanW : EReal := Ideal.ofBits .f32 0x7FC00000#32

/-- A flat position's row and column, and the flat position of a row and column. -/
def hh (p : Fin 4096) : Fin 64 := ⟨p.val / 64, by omega⟩
def ww (p : Fin 4096) : Fin 64 := ⟨p.val % 64, by omega⟩
def pos (h w : Fin 64) : Fin 4096 := ⟨64 * h.val + w.val, by omega⟩

theorem hh_pos (h w : Fin 64) : hh (pos h w) = h := Fin.ext (by simp only [hh, pos]; omega)
theorem ww_pos (h w : Fin 64) : ww (pos h w) = w := Fin.ext (by simp only [ww, pos]; omega)
theorem pos_hh_ww (p : Fin 4096) : pos (hh p) (ww p) = p := Fin.ext (by simp only [hh, ww, pos]; omega)

section
variable (hred : SX.ReducesTo [2, 3] SBC)

/-- The host's sum over the spatial positions of batch b, channel c: the initial zero plus the sum. -/
def ssum (x : SX.Idx → EReal) (b : Fin 4) (c : Fin 512) : EReal :=
  Ideal.hostReduceAdd hred x zeroW (ix2 b c)

/-- The spatial mean. -/
def mean (x : SX.Idx → EReal) (b : Fin 4) (c : Fin 512) : EReal := Ideal.div (ssum hred x b c) nW

/-- The squared deviation from the mean at one element. -/
def sqdev (x : SX.Idx → EReal) (i : SX.Idx) : EReal :=
  (x i - mean hred x (i 0) (i 1)) * (x i - mean hred x (i 0) (i 1))

/-- The count the variance divides by: 4096 minus the (zero) correction, as a float. -/
def cnt : EReal := nW - (((0#32 : BitVec 32).toInt : ℝ) : EReal)

/-- The biased spatial variance, with the guard that the count is positive. -/
def var (x : SX.Idx → EReal) (b : Fin 4) (c : Fin 512) : EReal :=
  Scalar.select (Ideal.cmp .ogt cnt zeroW) (Ideal.div (ssum hred (sqdev hred x) b c) cnt) nanW

/-- One over the standard deviation, with the 1e-5 guard. -/
def istd (x : SX.Idx → EReal) (b : Fin 4) (c : Fin 512) : EReal := Ideal.rsqrt (var hred x b c + eps5)

/-- The instance-normalised array. -/
def nrm (x : SX.Idx → EReal) (b : Fin 4) (c : Fin 512) (h w : Fin 64) : EReal :=
  (x (ix4 b c h w) - mean hred x b c) * istd hred x b c

/-- Queries, keys and values at flat positions. -/
def qry (c1x : SX.Idx → EReal) (b : Fin 4) (c : Fin 512) (p : Fin 4096) : EReal := nrm hred c1x b c (hh p) (ww p)
def key (s1x : SX.Idx → EReal) (b : Fin 4) (c : Fin 512) (p : Fin 4096) : EReal := nrm hred s1x b c (hh p) (ww p)
def val (sx : SX.Idx → EReal) (b : Fin 4) (v : Fin 512) (p : Fin 4096) : EReal := sx (ix4 b v (hh p) (ww p))

/-- The attention score of query position q against key position k. -/
def score (c1x s1x : SX.Idx → EReal) (b : Fin 4) (q k : Fin 4096) : EReal :=
  ∑ c : Fin 512, qry hred c1x b c q * key hred s1x b c k

/-- The row maximum, taken from -∞ and once more against -∞. -/
def mx (c1x s1x : SX.Idx → EReal) (b : Fin 4) (q : Fin 4096) : EReal :=
  max negInfW ((Finset.univ : Finset (Fin 4096)).fold max negInfW (fun k => score hred c1x s1x b q k))

def pexp (c1x s1x : SX.Idx → EReal) (b : Fin 4) (q k : Fin 4096) : EReal :=
  Ideal.exp (score hred c1x s1x b q k - mx hred c1x s1x b q)

def den (c1x s1x : SX.Idx → EReal) (b : Fin 4) (q : Fin 4096) : EReal :=
  zeroW + ∑ k : Fin 4096, pexp hred c1x s1x b q k

def wgt (c1x s1x : SX.Idx → EReal) (b : Fin 4) (q k : Fin 4096) : EReal :=
  Ideal.div (pexp hred c1x s1x b q k) (den hred c1x s1x b q)

/-- The softmax-weighted mean of the values, and of their squares. -/
def avg (sx c1x s1x : SX.Idx → EReal) (b : Fin 4) (q : Fin 4096) (v : Fin 512) : EReal :=
  ∑ k : Fin 4096, wgt hred c1x s1x b q k * val sx b v k

def avg2 (sx c1x s1x : SX.Idx → EReal) (b : Fin 4) (q : Fin 4096) (v : Fin 512) : EReal :=
  ∑ k : Fin 4096, wgt hred c1x s1x b q k * (val sx b v k * val sx b v k)

/-- The softmax-weighted standard deviation, with the 1e-6 floor on the variance. -/
def dev (sx c1x s1x : SX.Idx → EReal) (b : Fin 4) (q : Fin 4096) (v : Fin 512) : EReal :=
  Ideal.sqrt (max eps6 (avg2 hred sx c1x s1x b q v - avg hred sx c1x s1x b q v * avg hred sx c1x s1x b q v))

/-- The result: the normalised content scaled by the weighted deviation, shifted by the weighted mean. -/
def out (cx sx c1x s1x : SX.Idx → EReal) (b : Fin 4) (v : Fin 512) (h w : Fin 64) : EReal :=
  dev hred sx c1x s1x b (pos h w) v * nrm hred cx b v h w + avg hred sx c1x s1x b (pos h w) v

end

end Cert.Attn

end
-- ==== Proof.KerHost.lean ====
/-
  The host side of the kernel program, read index by index.

  Before its one region the program computes, from the four argument arrays x (b, c, h, w) of shape [4, 512, 64, 64],
  the eight arrays the region's input windows read: three arguments with the two spatial axes merged into 4096 flat
  positions (position p is row p / 64, column p % 64), the spatial mean and the reciprocal guarded standard deviation
  of two arguments as [4, 512, 1] columns, and the instance-normalised third argument over flat positions. After the
  region one reshape splits the flat positions again (row h, column w is position 64 h + w).

  Each statistic is computed by the same chain of operations on each argument: the sum over the spatial axes from the
  zero word divided by 4096; the sum of the squared deviations divided by the count 4096 - 0 under the guard that the
  count is positive; one over the square root of that plus 1e-5. The chain is stated once over an arbitrary array
  and read at a (batch, channel) index, where it is the specification's mean, variance and reciprocal deviation; the
  sums over the spatial axes are never opened. Each buffer's contents at the region's entry is then that chain's term
  at the argument array, and the eight statements follow by reading the term at an index.
-/
import proofs.«125215_j25984552141369_2_alg».proof.Proof.Gen.KernelIdeal.Frame.Runs
import proofs.«125215_j25984552141369_2_alg».proof.Proof.Spec
import Idealize.ShloMosaic.Lib.IdealHost
import Idealize.ShloMosaic.Lib.Pipeline.Value

noncomputable section

namespace Cert.KernelIdeal.HostVal

open Cert.KernelIdeal Cert.KernelIdeal.Gen Idealize.ShloMosaic Idealize.ShloMosaic.ValueIdx Idealize.ShloMosaic.TcCoe

/-! ## The host's chain of operations, over an arbitrary array -/

/-- The words the host broadcasts: zero, 4096, 1e-5 and the quiet NaN, as rank-0 arrays. -/
abbrev c0 : FVec Ideal S_ .f32 := constant S_ .f32 0x00000000#32
abbrev cN : FVec Ideal S_ .f32 := constant S_ .f32 0x45800000#32
abbrev cEps : FVec Ideal S_ .f32 := constant S_ .f32 0x3727C5AC#32
abbrev cNan : FVec Ideal S_ .f32 := constant S_ .f32 0x7FC00000#32

/-- The host's sum over the two spatial axes, from the zero word. -/
def sumT (X : FVec Ideal S4x512x64x64 .f32) : FVec Ideal S4x512 .f32 :=
  Host.reduceAdd X c0 Gen.reducesTo_S4x512x64x64_S4x512_d2_3 Gen.h_S_

/-- The spatial mean as the host's operations compute it: the sum divided by the broadcast 4096. -/
def meanT (X : FVec Ideal S4x512x64x64 .f32) : FVec Ideal S4x512 .f32 :=
  Host.divf (sumT X) (broadcastInDim S4x512 ![] Gen.bcast_S_S4x512 cN)

/-- The mean with two unit axes kept, broadcast back over the spatial axes. -/
def meanFull (X : FVec Ideal S4x512x64x64 .f32) : FVec Ideal S4x512x64x64 .f32 :=
  broadcastInDim S4x512x64x64 ![0, 1, 2, 3] Gen.bcast_S4x512x1x1_S4x512x64x64_0_1_2_3
    (Host.divf (broadcastInDim S4x512x1x1 ![0, 1] Gen.bcast_S4x512_S4x512x1x1_0_1 (sumT X))
      (broadcastInDim S4x512x1x1 ![] Gen.bcast_S_S4x512x1x1 cN))

/-- The squared deviations from the mean. -/
def sqdevT (X : FVec Ideal S4x512x64x64 .f32) : FVec Ideal S4x512x64x64 .f32 :=
  mulf (subf X (meanFull X)) (subf X (meanFull X))

/-- The count: 4096 minus the integer zero converted. -/
def cntT : FVec Ideal S_ .f32 := subf cN (sitofp .f32 (constantI S_ 32 0#32))

/-- The biased variance with its guard, as the host's operations compute it. -/
def varT (X : FVec Ideal S4x512x64x64 .f32) : FVec Ideal S4x512 .f32 :=
  select (broadcastInDim S4x512 ![] Gen.bcast_S_S4x512 (cmpf .ogt cntT c0))
    (Host.divf (sumT (sqdevT X)) (broadcastInDim S4x512 ![] Gen.bcast_S_S4x512 cntT))
    (broadcastInDim S4x512 ![] Gen.bcast_S_S4x512 (id cNan))

/-- One over the guarded standard deviation. -/
def istdT (X : FVec Ideal S4x512x64x64 .f32) : FVec Ideal S4x512 .f32 :=
  Host.rsqrt (addf (varT X) (broadcastInDim S4x512 ![] Gen.bcast_S_S4x512 cEps))

/-- A per-(batch, channel) statistic with a unit axis appended. -/
def colT (Y : FVec Ideal S4x512 .f32) : FVec Ideal S4x512x1 .f32 :=
  broadcastInDim S4x512x1 ![0, 1] Gen.bcast_S4x512_S4x512x1_0_1 Y

/-- An argument with its two spatial axes merged. -/
def flatT (X : FVec Ideal S4x512x64x64 .f32) : FVec Ideal S4x512x4096 .f32 :=
  shapeCast S4x512x4096 X Gen.shapeCasts_S4x512x64x64_S4x512x4096

/-- The instance-normalised argument over flat positions. -/
def nrmT (X : FVec Ideal S4x512x64x64 .f32) : FVec Ideal S4x512x4096 .f32 :=
  mulf (subf (flatT X) (broadcastInDim S4x512x4096 ![0, 1, 2] Gen.bcast_S4x512x1_S4x512x4096_0_1_2 (colT (meanT X))))
    (broadcastInDim S4x512x4096 ![0, 1, 2] Gen.bcast_S4x512x1_S4x512x4096_0_1_2 (colT (istdT X)))

local notation "hred" => (Facts₀.reducesTo_S4x512x64x64_S4x512_d2_3 : Cert.Attn.SX.ReducesTo [2, 3] Cert.Attn.SBC)

/-! ## The layout operations at an index -/

/-- The spatial axes merged: flat position p of (b, ch) is row p / 64, column p % 64. -/
theorem flatT_apply (X : FVec Ideal S4x512x64x64 .f32) (b : Fin 4) (ch : Fin 512) (p : Fin 4096) :
    flatT X (ix3 b ch p) = X (ix4 b ch (Cert.Attn.hh p) (Cert.Attn.ww p)) := by
  unfold flatT
  refine shapeCast_apply X _ (ix3 b ch p) (ix4 b ch (Cert.Attn.hh p) (Cert.Attn.ww p)) ?_
  rw [Shape.rowMajor_val_four, Shape.rowMajor_val_three]
  show ((b.val * 512 + ch.val) * 64 + p.val / 64) * 64 + p.val % 64 = (b.val * 512 + ch.val) * 4096 + p.val
  omega

/-- The spatial axes split again: (h, w) of (b, v) is flat position 64 h + w. -/
theorem unflat_apply (Y : FVec Ideal S4x512x4096 .f32) (b : Fin 4) (v : Fin 512) (h w : Fin 64) :
    shapeCast S4x512x64x64 Y Gen.shapeCasts_S4x512x4096_S4x512x64x64 (ix4 b v h w) = Y (ix3 b v (Cert.Attn.pos h w)) := by
  refine shapeCast_apply Y _ (ix4 b v h w) (ix3 b v (Cert.Attn.pos h w)) ?_
  rw [Shape.rowMajor_val_four, Shape.rowMajor_val_three]
  show (b.val * 512 + v.val) * 4096 + (64 * h.val + w.val) = ((b.val * 512 + v.val) * 64 + h.val) * 64 + w.val
  omega

/-- A statistic with a unit axis appended reads the statistic. -/
theorem colT_apply (Y : FVec Ideal S4x512 .f32) (b : Fin 4) (ch : Fin 512) (z : Fin 1) :
    colT Y (ix3 b ch z) = Y (ix2 b ch) := by
  unfold colT
  exact broadcastInDim_apply _ _ Y (ix3 b ch z) (ix2 b ch) fun a => match a with | ⟨0, _⟩ => rfl | ⟨1, _⟩ => rfl

/-- A column broadcast along the flat positions reads the column. -/
theorem rowB_apply (Y : FVec Ideal S4x512x1 .f32) (b : Fin 4) (ch : Fin 512) (p : Fin 4096) :
    broadcastInDim S4x512x4096 ![0, 1, 2] Gen.bcast_S4x512x1_S4x512x4096_0_1_2 Y (ix3 b ch p) = Y (ix3 b ch (0 : Fin 1)) :=
  broadcastInDim_apply _ _ Y (ix3 b ch p) (ix3 b ch (0 : Fin 1)) fun a => match a with | ⟨0, _⟩ => rfl | ⟨1, _⟩ => rfl | ⟨2, _⟩ => rfl

/-! ## The statistics at an index -/

theorem sumT_apply (X : FVec Ideal S4x512x64x64 .f32) (b : Fin 4) (ch : Fin 512) :
    sumT X (ix2 b ch) = Cert.Attn.ssum hred X b ch := rfl

theorem meanT_apply (X : FVec Ideal S4x512x64x64 .f32) (b : Fin 4) (ch : Fin 512) :
    meanT X (ix2 b ch) = Cert.Attn.mean hred X b ch := rfl

theorem meanFull_apply (X : FVec Ideal S4x512x64x64 .f32) (b : Fin 4) (ch : Fin 512) (h w : Fin 64) :
    meanFull X (ix4 b ch h w) = Cert.Attn.mean hred X b ch := by
  unfold meanFull
  rw [broadcastInDim_apply _ _ _ (ix4 b ch h w) (ix4 b ch (0 : Fin 1) (0 : Fin 1)) fun a => match a with | ⟨0, _⟩ => rfl | ⟨1, _⟩ => rfl | ⟨2, _⟩ => rfl | ⟨3, _⟩ => rfl]
  rw [hostDivf_apply]
  rw [broadcastInDim_apply _ _ (sumT X) (ix4 b ch (0 : Fin 1) (0 : Fin 1)) (ix2 b ch) fun a => match a with | ⟨0, _⟩ => rfl | ⟨1, _⟩ => rfl]
  rfl

theorem sqdevT_eq (X : FVec Ideal S4x512x64x64 .f32) : sqdevT X = Cert.Attn.sqdev hred X := by
  funext i
  obtain ⟨b, ch, h, w, rfl⟩ : ∃ (b : Fin 4) (ch : Fin 512) (h w : Fin 64), i = ix4 b ch h w := ⟨i 0, i 1, i 2, i 3, eq_ix4 i⟩
  unfold sqdevT
  rw [mulf_apply, subf_apply, meanFull_apply]
  rfl

theorem varT_apply (X : FVec Ideal S4x512x64x64 .f32) (b : Fin 4) (ch : Fin 512) :
    varT X (ix2 b ch) = Cert.Attn.var hred X b ch := by
  unfold varT
  rw [select_apply, hostDivf_apply, broadcastInDim_scalar_apply, broadcastInDim_scalar_apply, broadcastInDim_scalar_apply, sqdevT_eq]
  rfl

theorem istdT_apply (X : FVec Ideal S4x512x64x64 .f32) (b : Fin 4) (ch : Fin 512) :
    istdT X (ix2 b ch) = Cert.Attn.istd hred X b ch := by
  show Ideal.rsqrt (varT X (ix2 b ch) + broadcastInDim S4x512 ![] Gen.bcast_S_S4x512 cEps (ix2 b ch)) = _
  rw [varT_apply, broadcastInDim_scalar_apply]
  rfl

theorem nrmT_apply (X : FVec Ideal S4x512x64x64 .f32) (b : Fin 4) (ch : Fin 512) (p : Fin 4096) :
    nrmT X (ix3 b ch p) = Cert.Attn.key hred X b ch p := by
  unfold nrmT
  rw [mulf_apply, subf_apply, flatT_apply, rowB_apply, rowB_apply, colT_apply, colT_apply, meanT_apply, istdT_apply]
  rfl

/-! ## The buffers at the region's entry, as terms of the argument arrays -/

variable (m : (ℓ : Loc nD τ sig) → Buf (Elt Ideal) ℓ) (c : Dev nD)

/-- The four argument arrays as launched, read as functions of an index. -/
abbrev A0 : S4x512x64x64.Idx → EReal := m ((c : Thread nD τ).loc main_arg0)
abbrev A1 : S4x512x64x64.Idx → EReal := m ((c : Thread nD τ).loc main_arg1)
abbrev A2 : S4x512x64x64.Idx → EReal := m ((c : Thread nD τ).loc main_arg2)
abbrev A3 : S4x512x64x64.Idx → EReal := m ((c : Thread nD τ).loc main_arg3)

theorem V_v0_term : (V m c main_v0 : S4x512x4096.Idx → EReal) = flatT (A2 m c) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_v10_term : (V m c main_v10 : S4x512x4096.Idx → EReal) = flatT (A0 m c) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_v36_term : (V m c main_v36 : S4x512x4096.Idx → EReal) = truncf .bf16 (flatT (A1 m c)) Gen.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_v8_term : (V m c main_v8 : S4x512x1.Idx → EReal) = colT (meanT (A2 m c)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_v9_term : (V m c main_v9 : S4x512x1.Idx → EReal) = colT (istdT (A2 m c)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_v18_term : (V m c main_v18 : S4x512x1.Idx → EReal) = colT (meanT (A0 m c)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_v19_term : (V m c main_v19 : S4x512x1.Idx → EReal) = colT (istdT (A0 m c)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_v34_term : (V m c main_v34 : S4x512x4096.Idx → EReal) = truncf .bf16 (nrmT (A3 m c)) Gen.bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

/-! ## The eight arrays the input windows read, at an index -/

variable (b : Fin 4) (ch : Fin 512) (p : Fin 4096) (z : Fin 1)

/-- The third argument with its spatial axes merged. -/
theorem V_v0 : (V m c main_v0 : S4x512x4096.Idx → EReal) (ix3 b ch p) = A2 m c (ix4 b ch (Cert.Attn.hh p) (Cert.Attn.ww p)) := by
  rw [V_v0_term, flatT_apply]

/-- The first argument with its spatial axes merged. -/
theorem V_v10 : (V m c main_v10 : S4x512x4096.Idx → EReal) (ix3 b ch p) = A0 m c (ix4 b ch (Cert.Attn.hh p) (Cert.Attn.ww p)) := by
  rw [V_v10_term, flatT_apply]

/-- The second argument with its spatial axes merged: the values (the format change is the identity on extended reals). -/
theorem V_v36 : (V m c main_v36 : S4x512x4096.Idx → EReal) (ix3 b ch p) = Cert.Attn.val (A1 m c) b ch p := by
  rw [V_v36_term, truncf_apply, flatT_apply]
  rfl

/-- The third argument's spatial mean. -/
theorem V_v8 : (V m c main_v8 : S4x512x1.Idx → EReal) (ix3 b ch z) = Cert.Attn.mean hred (A2 m c) b ch := by
  rw [V_v8_term, colT_apply, meanT_apply]

/-- The third argument's reciprocal guarded deviation. -/
theorem V_v9 : (V m c main_v9 : S4x512x1.Idx → EReal) (ix3 b ch z) = Cert.Attn.istd hred (A2 m c) b ch := by
  rw [V_v9_term, colT_apply, istdT_apply]

/-- The first argument's spatial mean. -/
theorem V_v18 : (V m c main_v18 : S4x512x1.Idx → EReal) (ix3 b ch z) = Cert.Attn.mean hred (A0 m c) b ch := by
  rw [V_v18_term, colT_apply, meanT_apply]

/-- The first argument's reciprocal guarded deviation. -/
theorem V_v19 : (V m c main_v19 : S4x512x1.Idx → EReal) (ix3 b ch z) = Cert.Attn.istd hred (A0 m c) b ch := by
  rw [V_v19_term, colT_apply, istdT_apply]

/-- The fourth argument instance-normalised over flat positions: the keys. -/
theorem V_v34 : (V m c main_v34 : S4x512x4096.Idx → EReal) (ix3 b ch p) = Cert.Attn.key hred (A3 m c) b ch p := by
  rw [V_v34_term, truncf_apply, nrmT_apply]

/-! ## The reshape after the region -/

/-- Whatever the region leaves, the result at (b, v, h, w) is the region's output at flat position 64 h + w. -/
theorem tail_apply (W : Valuation τ sig (Elt Ideal)) (b : Fin 4) (v : Fin 512) (h w : Fin 64) :
    (StableHlo.after hostOps1 W (Proc.devRef .tc main_v38) : S4x512x64x64.Idx → EReal) (ix4 b v h w)
      = (W (Proc.devRef .tc main_v37) : S4x512x4096.Idx → EReal) (ix3 b v (Cert.Attn.pos h w)) := by
  have e : (StableHlo.after hostOps1 W (Proc.devRef .tc main_v38) : S4x512x64x64.Idx → EReal)
      = shapeCast S4x512x64x64 (W (Proc.devRef .tc main_v37) : S4x512x4096.Idx → EReal) Gen.shapeCasts_S4x512x4096_S4x512x64x64 := by
    simp only [Gen.hostOps1]
    after_results
    rfl
  rw [e, unflat_apply]

end Cert.KernelIdeal.HostVal

end
-- ==== Proof.KerBlocks.lean ====
/-
  The eight input blocks of a grid point, read through their windows.

  The grid is [4, 8]: a point is a batch b and a query tile qi of 512 flat positions. Windows 0 and 5 hand the point the
  [1, 512, 512] block at block index (b, 0, qi) of a [4, 512, 4096] array: channel ch, position j of the block is
  channel ch, flat position 512 qi + j of batch b. The other six windows sit at block index (b, 0, 0) and hand it the
  whole of batch b. A block's coordinate on an axis is the block index times the block's size plus the coordinate
  inside the block. With the host side read index by index, each block entry is one of the specification's functions
  of the argument arrays.
-/
import proofs.«125215_j25984552141369_2_alg».proof.Proof.Gen.KernelIdeal.Frame.Runs
import proofs.«125215_j25984552141369_2_alg».proof.Proof.KerHost

noncomputable section

namespace Cert.KernelIdeal.HostVal

open Cert.KernelIdeal Cert.KernelIdeal.Gen Idealize.ShloMosaic Idealize.ShloMosaic.ValueIdx Idealize.ShloMosaic.TcCoe

/-! ## A grid point's batch and query tile, and the windows' block indices -/

/-- The batch and the query tile of a grid point. -/
def bOf (t : Fin cfg0.N) : Fin 4 := ⟨((grid0.coords t) 0).val, ((grid0.coords t) 0).isLt⟩
def qiOf (t : Fin cfg0.N) : Fin 8 := ⟨((grid0.coords t) 1).val, ((grid0.coords t) 1).isLt⟩

/-- Flat position j of query tile qi. -/
def qpos (qi : Fin 8) (j : Fin 512) : Fin 4096 := ⟨512 * qi.val + j.val, by omega⟩

/-- A small natural as a 32-bit word and back. -/
theorem toNat_ofNat_small (n : Nat) (h : n < 8) : (BitVec.ofNat 32 n).toNat = n := by
  rw [BitVec.toNat_ofNat]; exact Nat.mod_eq_of_lt (by omega)

theorem bOf_lt (t : Fin cfg0.N) : ((grid0.coords t) 0).val < 8 :=
  Nat.lt_of_lt_of_le ((grid0.coords t) 0).isLt (by decide)
theorem qiOf_lt (t : Fin cfg0.N) : ((grid0.coords t) 1).val < 8 := ((grid0.coords t) 1).isLt

/-- The index maps: every window's block index on the batch axis is the point's batch, on the channel axis zero;
    on the position axis windows 0, 5 and 8 sit at the point's query tile, the others at zero. -/
theorem idx0_0 (t : Fin cfg0.N) : win0_0.index t (0 : Fin 3) = (bOf t).val := by
  show (BitVec.ofNat 32 ((grid0.coords t) 0).val).toNat = ((grid0.coords t) 0).val
  exact toNat_ofNat_small _ (bOf_lt t)
theorem idx0_1 (t : Fin cfg0.N) : win0_0.index t (1 : Fin 3) = 0 := rfl
theorem idx0_2 (t : Fin cfg0.N) : win0_0.index t (2 : Fin 3) = (qiOf t).val := by
  show (BitVec.ofNat 32 ((grid0.coords t) 1).val).toNat = ((grid0.coords t) 1).val
  exact toNat_ofNat_small _ (qiOf_lt t)
theorem idx1_0 (t : Fin cfg0.N) : win0_1.index t (0 : Fin 3) = (bOf t).val := by
  show (BitVec.ofNat 32 ((grid0.coords t) 0).val).toNat = ((grid0.coords t) 0).val
  exact toNat_ofNat_small _ (bOf_lt t)
theorem idx1_1 (t : Fin cfg0.N) : win0_1.index t (1 : Fin 3) = 0 := rfl
theorem idx1_2 (t : Fin cfg0.N) : win0_1.index t (2 : Fin 3) = 0 := rfl
theorem idx2_0 (t : Fin cfg0.N) : win0_2.index t (0 : Fin 3) = (bOf t).val := by
  show (BitVec.ofNat 32 ((grid0.coords t) 0).val).toNat = ((grid0.coords t) 0).val
  exact toNat_ofNat_small _ (bOf_lt t)
theorem idx2_1 (t : Fin cfg0.N) : win0_2.index t (1 : Fin 3) = 0 := rfl
theorem idx2_2 (t : Fin cfg0.N) : win0_2.index t (2 : Fin 3) = 0 := rfl
theorem idx3_0 (t : Fin cfg0.N) : win0_3.index t (0 : Fin 3) = (bOf t).val := by
  show (BitVec.ofNat 32 ((grid0.coords t) 0).val).toNat = ((grid0.coords t) 0).val
  exact toNat_ofNat_small _ (bOf_lt t)
theorem idx3_1 (t : Fin cfg0.N) : win0_3.index t (1 : Fin 3) = 0 := rfl
theorem idx3_2 (t : Fin cfg0.N) : win0_3.index t (2 : Fin 3) = 0 := rfl
theorem idx4_0 (t : Fin cfg0.N) : win0_4.index t (0 : Fin 3) = (bOf t).val := by
  show (BitVec.ofNat 32 ((grid0.coords t) 0).val).toNat = ((grid0.coords t) 0).val
  exact toNat_ofNat_small _ (bOf_lt t)
theorem idx4_1 (t : Fin cfg0.N) : win0_4.index t (1 : Fin 3) = 0 := rfl
theorem idx4_2 (t : Fin cfg0.N) : win0_4.index t (2 : Fin 3) = 0 := rfl
theorem idx5_0 (t : Fin cfg0.N) : win0_5.index t (0 : Fin 3) = (bOf t).val := by
  show (BitVec.ofNat 32 ((grid0.coords t) 0).val).toNat = ((grid0.coords t) 0).val
  exact toNat_ofNat_small _ (bOf_lt t)
theorem idx5_1 (t : Fin cfg0.N) : win0_5.index t (1 : Fin 3) = 0 := rfl
theorem idx5_2 (t : Fin cfg0.N) : win0_5.index t (2 : Fin 3) = (qiOf t).val := by
  show (BitVec.ofNat 32 ((grid0.coords t) 1).val).toNat = ((grid0.coords t) 1).val
  exact toNat_ofNat_small _ (qiOf_lt t)
theorem idx6_0 (t : Fin cfg0.N) : win0_6.index t (0 : Fin 3) = (bOf t).val := by
  show (BitVec.ofNat 32 ((grid0.coords t) 0).val).toNat = ((grid0.coords t) 0).val
  exact toNat_ofNat_small _ (bOf_lt t)
theorem idx6_1 (t : Fin cfg0.N) : win0_6.index t (1 : Fin 3) = 0 := rfl
theorem idx6_2 (t : Fin cfg0.N) : win0_6.index t (2 : Fin 3) = 0 := rfl
theorem idx7_0 (t : Fin cfg0.N) : win0_7.index t (0 : Fin 3) = (bOf t).val := by
  show (BitVec.ofNat 32 ((grid0.coords t) 0).val).toNat = ((grid0.coords t) 0).val
  exact toNat_ofNat_small _ (bOf_lt t)
theorem idx7_1 (t : Fin cfg0.N) : win0_7.index t (1 : Fin 3) = 0 := rfl
theorem idx7_2 (t : Fin cfg0.N) : win0_7.index t (2 : Fin 3) = 0 := rfl
theorem idx8_0 (t : Fin cfg0.N) : win0_8.index t (0 : Fin 3) = (bOf t).val := by
  show (BitVec.ofNat 32 ((grid0.coords t) 0).val).toNat = ((grid0.coords t) 0).val
  exact toNat_ofNat_small _ (bOf_lt t)
theorem idx8_1 (t : Fin cfg0.N) : win0_8.index t (1 : Fin 3) = 0 := rfl
theorem idx8_2 (t : Fin cfg0.N) : win0_8.index t (2 : Fin 3) = (qiOf t).val := by
  show (BitVec.ofNat 32 ((grid0.coords t) 1).val).toNat = ((grid0.coords t) 1).val
  exact toNat_ofNat_small _ (qiOf_lt t)

/-! ## The blocks as entries of the arrays the region finds -/

variable (m : (ℓ : Loc nD τ sig) → Buf (Elt Ideal) ℓ) (c : Dev nD)

/-- Window 0's block at a point: the third argument's flat positions of the point's query tile. -/
theorem iblk0_apply (t : Fin cfg0.N) (ch : Fin 512) (j : Fin 512) :
    (iblk m c 0 t : S1x512x512.Idx → EReal) (ix3 (0 : Fin 1) ch j)
      = (V m c main_v0 : S4x512x4096.Idx → EReal) (ix3 (bOf t) ch (qpos (qiOf t) j)) := by
  have e0 := idx0_0 t
  have e1 := idx0_1 t
  have e2 := idx0_2 t
  unfold iblk
  rw [View.read_apply]
  show (V m c main_v0 : S4x512x4096.Idx → EReal) (((cfg0.win 0).blk t).view.emb (ix3 (0 : Fin 1) ch j)) = _
  refine congrArg (V m c main_v0 : S4x512x4096.Idx → EReal) ?_
  funext a
  apply Fin.ext
  match a with
  | ⟨0, _⟩ => show win0_0.index t (0 : Fin 3) * 1 + 1 * 0 = (bOf t).val; omega
  | ⟨1, _⟩ => show win0_0.index t (1 : Fin 3) * 512 + 1 * ch.val = ch.val; omega
  | ⟨2, _⟩ => show win0_0.index t (2 : Fin 3) * 512 + 1 * j.val = 512 * (qiOf t).val + j.val; omega

/-- Window 1's block at a point: the third argument's spatial means of the point's batch. -/
theorem iblk1_apply (t : Fin cfg0.N) (ch : Fin 512) (z : Fin 1) :
    (iblk m c 1 t : S1x512x1.Idx → EReal) (ix3 (0 : Fin 1) ch z)
      = (V m c main_v8 : S4x512x1.Idx → EReal) (ix3 (bOf t) ch z) := by
  have e0 := idx1_0 t
  have e1 := idx1_1 t
  have e2 := idx1_2 t
  unfold iblk
  rw [View.read_apply]
  show (V m c main_v8 : S4x512x1.Idx → EReal) (((cfg0.win 1).blk t).view.emb (ix3 (0 : Fin 1) ch z)) = _
  refine congrArg (V m c main_v8 : S4x512x1.Idx → EReal) ?_
  funext a
  apply Fin.ext
  match a with
  | ⟨0, _⟩ => show win0_1.index t (0 : Fin 3) * 1 + 1 * 0 = (bOf t).val; omega
  | ⟨1, _⟩ => show win0_1.index t (1 : Fin 3) * 512 + 1 * ch.val = ch.val; omega
  | ⟨2, _⟩ => show win0_1.index t (2 : Fin 3) * 1 + 1 * z.val = z.val; omega

/-- Window 2's block at a point: the third argument's reciprocal deviations of the point's batch. -/
theorem iblk2_apply (t : Fin cfg0.N) (ch : Fin 512) (z : Fin 1) :
    (iblk m c 2 t : S1x512x1.Idx → EReal) (ix3 (0 : Fin 1) ch z)
      = (V m c main_v9 : S4x512x1.Idx → EReal) (ix3 (bOf t) ch z) := by
  have e0 := idx2_0 t
  have e1 := idx2_1 t
  have e2 := idx2_2 t
  unfold iblk
  rw [View.read_apply]
  show (V m c main_v9 : S4x512x1.Idx → EReal) (((cfg0.win 2).blk t).view.emb (ix3 (0 : Fin 1) ch z)) = _
  refine congrArg (V m c main_v9 : S4x512x1.Idx → EReal) ?_
  funext a
  apply Fin.ext
  match a with
  | ⟨0, _⟩ => show win0_2.index t (0 : Fin 3) * 1 + 1 * 0 = (bOf t).val; omega
  | ⟨1, _⟩ => show win0_2.index t (1 : Fin 3) * 512 + 1 * ch.val = ch.val; omega
  | ⟨2, _⟩ => show win0_2.index t (2 : Fin 3) * 1 + 1 * z.val = z.val; omega

/-- Window 3's block at a point: the normalised fourth argument of the point's batch, all positions. -/
theorem iblk3_apply (t : Fin cfg0.N) (ch : Fin 512) (p : Fin 4096) :
    (iblk m c 3 t : S1x512x4096.Idx → EReal) (ix3 (0 : Fin 1) ch p)
      = (V m c main_v34 : S4x512x4096.Idx → EReal) (ix3 (bOf t) ch p) := by
  have e0 := idx3_0 t
  have e1 := idx3_1 t
  have e2 := idx3_2 t
  unfold iblk
  rw [View.read_apply]
  show (V m c main_v34 : S4x512x4096.Idx → EReal) (((cfg0.win 3).blk t).view.emb (ix3 (0 : Fin 1) ch p)) = _
  refine congrArg (V m c main_v34 : S4x512x4096.Idx → EReal) ?_
  funext a
  apply Fin.ext
  match a with
  | ⟨0, _⟩ => show win0_3.index t (0 : Fin 3) * 1 + 1 * 0 = (bOf t).val; omega
  | ⟨1, _⟩ => show win0_3.index t (1 : Fin 3) * 512 + 1 * ch.val = ch.val; omega
  | ⟨2, _⟩ => show win0_3.index t (2 : Fin 3) * 4096 + 1 * p.val = p.val; omega

/-- Window 4's block at a point: the second argument of the point's batch, all positions. -/
theorem iblk4_apply (t : Fin cfg0.N) (ch : Fin 512) (p : Fin 4096) :
    (iblk m c 4 t : S1x512x4096.Idx → EReal) (ix3 (0 : Fin 1) ch p)
      = (V m c main_v36 : S4x512x4096.Idx → EReal) (ix3 (bOf t) ch p) := by
  have e0 := idx4_0 t
  have e1 := idx4_1 t
  have e2 := idx4_2 t
  unfold iblk
  rw [View.read_apply]
  show (V m c main_v36 : S4x512x4096.Idx → EReal) (((cfg0.win 4).blk t).view.emb (ix3 (0 : Fin 1) ch p)) = _
  refine congrArg (V m c main_v36 : S4x512x4096.Idx → EReal) ?_
  funext a
  apply Fin.ext
  match a with
  | ⟨0, _⟩ => show win0_4.index t (0 : Fin 3) * 1 + 1 * 0 = (bOf t).val; omega
  | ⟨1, _⟩ => show win0_4.index t (1 : Fin 3) * 512 + 1 * ch.val = ch.val; omega
  | ⟨2, _⟩ => show win0_4.index t (2 : Fin 3) * 4096 + 1 * p.val = p.val; omega

/-- Window 5's block at a point: the first argument's flat positions of the point's query tile. -/
theorem iblk5_apply (t : Fin cfg0.N) (ch : Fin 512) (j : Fin 512) :
    (iblk m c 5 t : S1x512x512.Idx → EReal) (ix3 (0 : Fin 1) ch j)
      = (V m c main_v10 : S4x512x4096.Idx → EReal) (ix3 (bOf t) ch (qpos (qiOf t) j)) := by
  have e0 := idx5_0 t
  have e1 := idx5_1 t
  have e2 := idx5_2 t
  unfold iblk
  rw [View.read_apply]
  show (V m c main_v10 : S4x512x4096.Idx → EReal) (((cfg0.win 5).blk t).view.emb (ix3 (0 : Fin 1) ch j)) = _
  refine congrArg (V m c main_v10 : S4x512x4096.Idx → EReal) ?_
  funext a
  apply Fin.ext
  match a with
  | ⟨0, _⟩ => show win0_5.index t (0 : Fin 3) * 1 + 1 * 0 = (bOf t).val; omega
  | ⟨1, _⟩ => show win0_5.index t (1 : Fin 3) * 512 + 1 * ch.val = ch.val; omega
  | ⟨2, _⟩ => show win0_5.index t (2 : Fin 3) * 512 + 1 * j.val = 512 * (qiOf t).val + j.val; omega

/-- Window 6's block at a point: the first argument's spatial means of the point's batch. -/
theorem iblk6_apply (t : Fin cfg0.N) (ch : Fin 512) (z : Fin 1) :
    (iblk m c 6 t : S1x512x1.Idx → EReal) (ix3 (0 : Fin 1) ch z)
      = (V m c main_v18 : S4x512x1.Idx → EReal) (ix3 (bOf t) ch z) := by
  have e0 := idx6_0 t
  have e1 := idx6_1 t
  have e2 := idx6_2 t
  unfold iblk
  rw [View.read_apply]
  show (V m c main_v18 : S4x512x1.Idx → EReal) (((cfg0.win 6).blk t).view.emb (ix3 (0 : Fin 1) ch z)) = _
  refine congrArg (V m c main_v18 : S4x512x1.Idx → EReal) ?_
  funext a
  apply Fin.ext
  match a with
  | ⟨0, _⟩ => show win0_6.index t (0 : Fin 3) * 1 + 1 * 0 = (bOf t).val; omega
  | ⟨1, _⟩ => show win0_6.index t (1 : Fin 3) * 512 + 1 * ch.val = ch.val; omega
  | ⟨2, _⟩ => show win0_6.index t (2 : Fin 3) * 1 + 1 * z.val = z.val; omega

/-- Window 7's block at a point: the first argument's reciprocal deviations of the point's batch. -/
theorem iblk7_apply (t : Fin cfg0.N) (ch : Fin 512) (z : Fin 1) :
    (iblk m c 7 t : S1x512x1.Idx → EReal) (ix3 (0 : Fin 1) ch z)
      = (V m c main_v19 : S4x512x1.Idx → EReal) (ix3 (bOf t) ch z) := by
  have e0 := idx7_0 t
  have e1 := idx7_1 t
  have e2 := idx7_2 t
  unfold iblk
  rw [View.read_apply]
  show (V m c main_v19 : S4x512x1.Idx → EReal) (((cfg0.win 7).blk t).view.emb (ix3 (0 : Fin 1) ch z)) = _
  refine congrArg (V m c main_v19 : S4x512x1.Idx → EReal) ?_
  funext a
  apply Fin.ext
  match a with
  | ⟨0, _⟩ => show win0_7.index t (0 : Fin 3) * 1 + 1 * 0 = (bOf t).val; omega
  | ⟨1, _⟩ => show win0_7.index t (1 : Fin 3) * 512 + 1 * ch.val = ch.val; omega
  | ⟨2, _⟩ => show win0_7.index t (2 : Fin 3) * 1 + 1 * z.val = z.val; omega

/-! ## The blocks as the specification's functions -/

local notation "hred" => (Facts₀.reducesTo_S4x512x64x64_S4x512_d2_3 : Cert.Attn.SX.ReducesTo [2, 3] Cert.Attn.SBC)

variable (t : Fin cfg0.N) (ch j : Fin 512) (z : Fin 1) (p : Fin 4096)

theorem iblk0_spec : (iblk m c 0 t : S1x512x512.Idx → EReal) (ix3 (0 : Fin 1) ch j)
    = A2 m c (ix4 (bOf t) ch (Cert.Attn.hh (qpos (qiOf t) j)) (Cert.Attn.ww (qpos (qiOf t) j))) := by
  rw [iblk0_apply, V_v0]

theorem iblk1_spec : (iblk m c 1 t : S1x512x1.Idx → EReal) (ix3 (0 : Fin 1) ch z) = Cert.Attn.mean hred (A2 m c) (bOf t) ch := by
  rw [iblk1_apply, V_v8]

theorem iblk2_spec : (iblk m c 2 t : S1x512x1.Idx → EReal) (ix3 (0 : Fin 1) ch z) = Cert.Attn.istd hred (A2 m c) (bOf t) ch := by
  rw [iblk2_apply, V_v9]

theorem iblk3_spec : (iblk m c 3 t : S1x512x4096.Idx → EReal) (ix3 (0 : Fin 1) ch p) = Cert.Attn.key hred (A3 m c) (bOf t) ch p := by
  rw [iblk3_apply, V_v34]

theorem iblk4_spec : (iblk m c 4 t : S1x512x4096.Idx → EReal) (ix3 (0 : Fin 1) ch p) = Cert.Attn.val (A1 m c) (bOf t) ch p := by
  rw [iblk4_apply, V_v36]

theorem iblk5_spec : (iblk m c 5 t : S1x512x512.Idx → EReal) (ix3 (0 : Fin 1) ch j)
    = A0 m c (ix4 (bOf t) ch (Cert.Attn.hh (qpos (qiOf t) j)) (Cert.Attn.ww (qpos (qiOf t) j))) := by
  rw [iblk5_apply, V_v10]

theorem iblk6_spec : (iblk m c 6 t : S1x512x1.Idx → EReal) (ix3 (0 : Fin 1) ch z) = Cert.Attn.mean hred (A0 m c) (bOf t) ch := by
  rw [iblk6_apply, V_v18]

theorem iblk7_spec : (iblk m c 7 t : S1x512x1.Idx → EReal) (ix3 (0 : Fin 1) ch z) = Cert.Attn.istd hred (A0 m c) (bOf t) ch := by
  rw [iblk7_apply, V_v19]

end Cert.KernelIdeal.HostVal

end
-- ==== Proof.KerArray.lean ====
/-
  From the output blocks to the result array, and the run.

  The region's one output window hands each grid point (batch b, query tile qi) the [1, 512, 512] block at block index
  (b, 0, qi) of a [4, 512, 4096] array, and every point writes its block back. The 32 blocks tile the array: index
  (b, v, p) is in the block of the point (b, p / 512), at channel v, position p % 512. So if every point leaves in its
  block the entries of ONE function of the index — channel v, position j of the block being the function at
  (b, v, 512 qi + j) — the array ends holding that function. The reshape after the region then reads it at flat position
  64 h + w, and the argument arrays end as launched.
-/
import proofs.«125215_j25984552141369_2_alg».proof.Proof.Gen.KernelIdeal.Frame
import proofs.«125215_j25984552141369_2_alg».proof.Proof.KerBlocks

noncomputable section

namespace Cert.KernelIdeal.ArrVal

open Cert.KernelIdeal Cert.KernelIdeal.Gen Cert.KernelIdeal.HostVal
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The output window's blocks -/

/-- Every (batch, query tile) is some point's. -/
theorem point_onto : ∀ (b : Fin 4) (qi : Fin 8), ∃ t : Fin cfg0.N, bOf t = b ∧ qiOf t = qi :=
  (by decide +kernel : ∀ (b : Fin 4) (qi : Fin 8), ∃ t : Fin grid0.N, bOf t = b ∧ qiOf t = qi)

/-- WHAT POINT t WRITES BACK is its block of the function, when its block's entries are the function's. -/
theorem flushed_eq (c : Dev nD) (G : S4x512x4096.Idx → EReal)
    (hG : ∀ (t : Fin cfg0.N) (v j : Fin 512), (outsAt0 m c t : S1x512x512.Idx → EReal) (ix3 (0 : Fin 1) v j) = G (ix3 (bOf t) v (qpos (qiOf t) j)))
    (t : Fin cfg0.N) :
    (dats m 0 c).flushed 8 t = ((cfg0.win 8).blk t).view.read (Elt Ideal) G := by
  show (cfg0.win 8).cut (grid0.coords t) ((dats m 0 c).after 8 t) = _
  rw [after0_8]
  have e0 := idx8_0 t
  have e1 := idx8_1 t
  have e2 := idx8_2 t
  refine funext fun (y : S1x512x512.Idx) => ?_
  obtain ⟨u, v, j, rfl⟩ : ∃ (u : Fin 1) (v j : Fin 512), y = ix3 u v j := ⟨y 0, y 1, y 2, eq_ix3 y⟩
  obtain rfl : u = 0 := Subsingleton.elim _ _
  rw [View.read_apply]
  show (outsAt0 m c t : S1x512x512.Idx → EReal) (ix3 (0 : Fin 1) v j) = G (((cfg0.win 8).blk t).view.emb (ix3 (0 : Fin 1) v j))
  rw [hG t v j]
  refine congrArg G ?_
  funext a
  apply Fin.ext
  match a with
  | ⟨0, _⟩ => show (bOf t).val = win0_8.index t (0 : Fin 3) * 1 + 1 * 0; omega
  | ⟨1, _⟩ => show v.val = win0_8.index t (1 : Fin 3) * 512 + 1 * v.val; omega
  | ⟨2, _⟩ => show 512 * (qiOf t).val + j.val = win0_8.index t (2 : Fin 3) * 512 + 1 * j.val; omega

/-- An index of the array is in point t's block iff each coordinate is in the block's range on its axis. -/
theorem mem_blk (t : Fin cfg0.N) (i : S4x512x4096.Idx) :
    i ∈ ((cfg0.win 8).blk t).view.set ↔ ∀ a : Fin 3, win0_8.index t a * S1x512x512.size a ≤ (i a).val ∧ (i a).val < win0_8.index t a * S1x512x512.size a + S1x512x512.size a := by
  show i ∈ ((View.whole main_v37).slice (win0_8.rect t)).set ↔ _
  rw [View.set_slice_whole, Rect.mem_set_unit]
  exact Iff.rfl

/-- The blocks cover the array: (b, v, p) is in the block of the point (b, p / 512). -/
theorem cover (i : S4x512x4096.Idx) : ∃ t : Fin cfg0.N, (cfg0.win 8).flush t = true ∧ i ∈ ((cfg0.win 8).blk t).view.set := by
  have hi0 : (i 0).val < 4 := (i 0).isLt
  have hi1 : (i 1).val < 512 := (i 1).isLt
  have hi2 : (i 2).val < 4096 := (i 2).isLt
  obtain ⟨t, hb, hq⟩ := point_onto ⟨(i 0).val, hi0⟩ ⟨(i 2).val / 512, by omega⟩
  have q0 : (bOf t).val = (i 0).val := congrArg Fin.val hb
  have q2 : (qiOf t).val = (i 2).val / 512 := congrArg Fin.val hq
  have e0 := idx8_0 t
  have e1 := idx8_1 t
  have e2 := idx8_2 t
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 512 ≤ (i 2).val ∧ (i 2).val < win0_8.index t (2 : Fin 3) * 512 + 512; omega

/-- THE ARRAY after the region: the function the blocks restrict. -/
theorem final_of_blocks (c : Dev nD) (G : Dev nD → S4x512x4096.Idx → EReal)
    (hG : ∀ (t : Fin cfg0.N) (v j : Fin 512), (outsAt0 m c t : S1x512x512.Idx → EReal) (ix3 (0 : Fin 1) v j) = G c (ix3 (bOf t) v (qpos (qiOf t) j))) :
    ((dats m 0 c).arrAt 8 cfg0.N : S4x512x4096.Idx → EReal) = G c :=
  (dats m 0 c).arrAt_eq_of_cover 8 (G c) (fun t _ => flushed_eq m c (G c) hG t) cover

/-! ## The run -/

variable (ρ : Dev nD → PrngReg)

/-- The reshape after the region, of the array the region leaves: the function at flat position 64 h + w. -/
theorem tail_of_blocks (c : Dev nD) (G : Dev nD → S4x512x4096.Idx → EReal)
    (hG : ∀ (t : Fin cfg0.N) (v j : Fin 512), (outsAt0 m c t : S1x512x512.Idx → EReal) (ix3 (0 : Fin 1) v j) = G c (ix3 (bOf t) v (qpos (qiOf t) j))) :
    (Pipeline.afterTail₀ cfgs (dats m) 0 (V0 m) [hostOps1] c main_v38 : S4x512x64x64.Idx → EReal)
      = fun i : S4x512x64x64.Idx => G c (ix3 ⟨(i 0).val, (i 0).isLt⟩ ⟨(i 1).val, (i 1).isLt⟩ (Cert.Attn.pos ⟨(i 2).val, (i 2).isLt⟩ ⟨(i 3).val, (i 3).isLt⟩)) := by
  unfold Pipeline.afterTail₀
  funext i
  obtain ⟨b, v, h, w, rfl⟩ : ∃ (b : Fin 4) (v : Fin 512) (h w : Fin 64), i = ix4 b v h w := ⟨i 0, i 1, i 2, i 3, eq_ix4 i⟩
  refine (tail_apply _ b v h w).trans ?_
  exact congrFun ((Pipeline.withArrays_arr spec0 launch0.win.arr_inj c _ _ 8).trans (final_of_blocks m c G hG)) _

/-- THE RUN: every weakly fair execution of the program terminates with the result array at the function the blocks
    restrict, read at flat position 64 h + w, and the four argument arrays as launched. -/
theorem run_of_blocks (G : Dev nD → S4x512x4096.Idx → EReal)
    (hG : ∀ (c : Dev nD) (t : Fin cfg0.N) (v j : Fin 512), (outsAt0 m c t : S1x512x512.Idx → EReal) (ix3 (0 : Fin 1) v j) = G c (ix3 (bOf t) v (qpos (qiOf t) j))) :
    θ_run (defs (F := Ideal)) (onTc (τ := τ) (main (F := Ideal))) ⟨m, fun _ => 0, ρ⟩ (fun r => ∀ c : Dev nD,
      r.2.mem ((c.tc : Thread nD τ).loc main_v38) = (fun i : S4x512x64x64.Idx => G c (ix3 ⟨(i 0).val, (i 0).isLt⟩ ⟨(i 1).val, (i 1).isLt⟩ (Cert.Attn.pos ⟨(i 2).val, (i 2).isLt⟩ ⟨(i 3).val, (i 3).isLt⟩)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v38 (Pipeline.mem_restRefs_of main_v38 (by decide) (by decide))).trans (tail_of_blocks m c G (hG c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.ArrVal

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.KerDims.lean ====
/-
  The loop body of the attention kernel, read at an index on the extended reals.

  At a grid point the body holds a query block q (c, j) — 512 channels by 512 query columns, normalised on the fly
  from the raw block, the per-channel mean and the per-channel inverse deviation — and, at trip t, a tile of 512 keys
  K (c, kk) and 512 values V (v, kk). Its score tile is s (kk, j) = ∑ c, K (c, kk) * q (c, j); per query column j it
  keeps the running maximum m, the running sum l of exp (s - m) and, per value channel v, the running sums of
  V * exp (s - m) and V² * exp (s - m), each rescaled by exp (m - m') when the maximum moves to m'.
-/
import proofs.«125215_j25984552141369_2_alg».proof.Proof.Gen.KernelIdeal.Skeleton
import proofs.«125215_j25984552141369_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen
open Facts₀

/-! ## The two matrix products' operand indices -/

abbrev DS := dot_S512x512_S512x512_S512x512_0_0_1_1_n_n
abbrev DV := dot_S512x512_S512x512_S512x512_1_0_0_1_n_n

theorem DS_rank : DS.contr.rank = 1 := rfl
theorem DV_rank : DV.contr.rank = 1 := rfl
theorem DS_size : DS.contr.size ⟨0, by rw [DS_rank]; omega⟩ = 512 := rfl
theorem DV_size : DV.contr.size ⟨0, by rw [DV_rank]; omega⟩ = 512 := rfl

/-- The score product contracts the channel axis, axis 0 of both operands: entry (kk, j) reads K at (c, kk) and q at (c, j). -/
theorem DS_lhs (kk j : Fin 512) (q : DS.contr.Idx) :
    DS.lhsIdx (ix2 kk j) q = ix2 (contrEquiv1 DS 512 DS_rank DS_size q) kk := by
  refine Cert.LibPlainDot.ext2 _ _ ?_ ?_
  · simp [DotDims.lhsIdx, DS, dot_S512x512_S512x512_S512x512_0_0_1_1_n_n, contrEquiv1]; rfl
  · simp [DotDims.lhsIdx, DS, dot_S512x512_S512x512_S512x512_0_0_1_1_n_n]; rfl

theorem DS_rhs (kk j : Fin 512) (q : DS.contr.Idx) :
    DS.rhsIdx (ix2 kk j) q = ix2 (contrEquiv1 DS 512 DS_rank DS_size q) j := by
  refine Cert.LibPlainDot.ext2 _ _ ?_ ?_
  · simp [DotDims.rhsIdx, DS, dot_S512x512_S512x512_S512x512_0_0_1_1_n_n, contrEquiv1]; rfl
  · simp [DotDims.rhsIdx, DS, dot_S512x512_S512x512_S512x512_0_0_1_1_n_n]; rfl

/-- The value products contract the key axis: entry (v, j) reads V at (v, kk) and the weights at (kk, j). -/
theorem DV_lhs (v j : Fin 512) (q : DV.contr.Idx) :
    DV.lhsIdx (ix2 v j) q = ix2 v (contrEquiv1 DV 512 DV_rank DV_size q) := by
  refine Cert.LibPlainDot.ext2 _ _ ?_ ?_
  · simp [DotDims.lhsIdx, DV, dot_S512x512_S512x512_S512x512_1_0_0_1_n_n]; rfl
  · simp [DotDims.lhsIdx, DV, dot_S512x512_S512x512_S512x512_1_0_0_1_n_n, contrEquiv1]; rfl

theorem DV_rhs (v j : Fin 512) (q : DV.contr.Idx) :
    DV.rhsIdx (ix2 v j) q = ix2 (contrEquiv1 DV 512 DV_rank DV_size q) j := by
  refine Cert.LibPlainDot.ext2 _ _ ?_ ?_
  · simp [DotDims.rhsIdx, DV, dot_S512x512_S512x512_S512x512_1_0_0_1_n_n, contrEquiv1]; rfl
  · simp [DotDims.rhsIdx, DV, dot_S512x512_S512x512_S512x512_1_0_0_1_n_n]; rfl

end Cert.KernelIdeal.Body

end
-- ==== Proof.KerPay.lean ====
/-
  The loop body's values read at an index on the extended reals: the normalised query block, the score tile, the
  new running maximum, the two exponentials and the four updated running quantities, each as a function of the
  blocks' entries written by coordinates.
-/
import proofs.«125215_j25984552141369_2_alg».proof.Proof.KerDims

noncomputable section

namespace Cert.KernelIdeal.Body

open Idealize.ShloMosaic Idealize.ShloMosaic.ValueIdx Cert.KernelIdeal Cert.KernelIdeal.Gen
open Facts₀

variable (x0 : FVec Ideal S1x512x512 .f32) (x1 x2 : FVec Ideal S1x512x1 .f32)
  (Kt Vt : FVec Ideal S1x512x512 .bf16) (mm ll : FVec Ideal S1x512 .f32) (aa : FVec Ideal S512x512 .f32)

/-- The normalised query entry of channel c, column j: (raw - mean) * inverse deviation. -/
def qn (c j : Fin 512) : EReal :=
  (x0 (ix3 (0 : Fin 1) c j) - x1 (ix3 (0 : Fin 1) c (0 : Fin 1))) * x2 (ix3 (0 : Fin 1) c (0 : Fin 1))

/-- The score of key kk of the tile against query column j. -/
def sc (kk j : Fin 512) : EReal := ∑ c : Fin 512, Kt (ix3 (0 : Fin 1) c kk) * qn x0 x1 x2 c j

/-- A [512, 1] column broadcast to [512, 512] reads its row's one entry. -/
theorem bcastCol_apply (v : FVec Ideal S512x1 .f32) (c j : Fin 512) :
    broadcastTo S512x512 v Facts₀.broadcasts_S512x1_S512x512 (ix2 c j) = v (ix2 c (0 : Fin 1)) := by
  refine broadcastTo_apply v _ (ix2 c j) (ix2 c (0 : Fin 1)) fun ax => ?_
  match ax with
  | ⟨0, _⟩ => rfl
  | ⟨1, _⟩ => rfl

/-- The score tile at (kk, j). -/
theorem pay7_apply (kk j : Fin 512) : k0_pay7 (F := Ideal) x0 x1 x2 Kt (ix2 kk j) = sc x0 x1 x2 Kt kk j := by
  unfold k0_pay7 sc
  refine (Cert.LibPlainDot.matmul_zero_apply DS none 512 DS_rank DS_size _ _ (ix2 kk j)
    (fun c => ix2 c kk) (fun c => ix2 c j) (DS_lhs kk j) (DS_rhs kk j)).trans ?_
  refine Finset.sum_congr rfl fun c _ => ?_
  congr 1
  · exact shapeCast_1ab_ab_apply Kt _ c kk
  · rw [truncf_apply, mulf_apply, subf_apply, bcastCol_apply, bcastCol_apply, shapeCast_1ab_ab_apply,
      shapeCast_1ab_ab_apply, shapeCast_1ab_ab_apply]
    rfl

/-- A reduced column index with the reduced axis's coordinate put back. -/
theorem lift0 (h : S512x512.Reduces [0] S512) (j : Fin 512) (k : Fin (S512x512.size 0)) :
    h.lift (ix1 j) k = ix2 (⟨k.val, k.isLt⟩ : Fin 512) j := by
  funext c; apply Fin.ext
  fin_cases c <;> rfl

/-- The tile's maximum score in column j, taken from -∞. -/
def tmax (j : Fin 512) : EReal :=
  (Finset.univ : Finset (Fin 512)).fold max (Ideal.ofBits .f32 0xFF800000#32) (fun kk => sc x0 x1 x2 Kt kk j)

/-- The new running maximum of column j. -/
theorem pay8_apply (j : Fin 512) :
    k0_pay8 (F := Ideal) x0 x1 x2 mm Kt (ix2 (0 : Fin 1) j) = max (mm (ix2 (0 : Fin 1) j)) (tmax x0 x1 x2 Kt j) := by
  unfold k0_pay8
  rw [maximumf_apply, shapeCast_a_1a_apply]
  refine congrArg (max _) ?_
  refine (Ideal.multiReduction_maximumf_single _ _ Facts₀.reduces_S512x512_S512 _ _ (ix1 j)).trans ?_
  unfold tmax
  have hf : (k0_pay7 (F := Ideal) x0 x1 x2 Kt ∘ Facts₀.reduces_S512x512_S512.lift (ix1 j))
      = fun kk : Fin 512 => sc x0 x1 x2 Kt kk j :=
    funext fun k => (congrArg _ (lift0 _ j k)).trans (pay7_apply x0 x1 x2 Kt ⟨k.val, k.isLt⟩ j)
  exact congrArg (fun f => Finset.fold max (Ideal.ofBits .f32 0xFF800000#32) f (Finset.univ : Finset (Fin 512))) hf

/-- The rescaling factor exp (m - m') of column j. -/
theorem pay9_apply (j : Fin 512) :
    k0_pay9 (F := Ideal) x0 x1 x2 mm Kt (ix2 (0 : Fin 1) j)
      = Ideal.exp (mm (ix2 (0 : Fin 1) j) - k0_pay8 (F := Ideal) x0 x1 x2 mm Kt (ix2 (0 : Fin 1) j)) := rfl

/-- The unnormalised weight exp (s - m') of key kk, column j. -/
theorem pay10_apply (kk j : Fin 512) :
    k0_pay10 (F := Ideal) x0 x1 x2 mm Kt (ix2 kk j)
      = Ideal.exp (sc x0 x1 x2 Kt kk j - k0_pay8 (F := Ideal) x0 x1 x2 mm Kt (ix2 (0 : Fin 1) j)) := by
  unfold k0_pay10
  show Ideal.exp ((subf _ _ : FVec Ideal S512x512 .f32) (ix2 kk j)) = _
  rw [subf_apply, pay7_apply, broadcastTo_1b_ab_apply]

/-- The new running sum of weights of column j. -/
theorem pay11_apply (j : Fin 512) :
    k0_pay11 (F := Ideal) x0 x1 x2 mm ll Kt (ix2 (0 : Fin 1) j)
      = k0_pay9 (F := Ideal) x0 x1 x2 mm Kt (ix2 (0 : Fin 1) j) * ll (ix2 (0 : Fin 1) j)
        + ∑ kk : Fin 512, k0_pay10 (F := Ideal) x0 x1 x2 mm Kt (ix2 kk j) := by
  unfold k0_pay11
  rw [addf_apply, mulf_apply, shapeCast_a_1a_apply]
  refine congrArg₂ (fun (a b : EReal) => a + b) rfl ?_
  refine (Ideal.multiReduction_add_single _ _ Facts₀.reduces_S512x512_S512 _ _ (ix1 j)).trans ?_
  exact Finset.sum_congr rfl fun k _ => congrArg _ (lift0 _ j k)

/-- The new running weighted sum of the values of channel v, column j. -/
theorem pay13_apply (v j : Fin 512) :
    k0_pay13 (F := Ideal) x0 x1 x2 mm aa Kt Vt (ix2 v j)
      = k0_pay9 (F := Ideal) x0 x1 x2 mm Kt (ix2 (0 : Fin 1) j) * aa (ix2 v j)
        + ∑ kk : Fin 512, Vt (ix3 (0 : Fin 1) v kk) * k0_pay10 (F := Ideal) x0 x1 x2 mm Kt (ix2 kk j) := by
  unfold k0_pay13
  rw [addf_apply, mulf_apply, broadcastTo_1b_ab_apply]
  refine congrArg₂ (fun (a b : EReal) => a + b) rfl ?_
  refine (Cert.LibPlainDot.matmul_zero_apply DV none 512 DV_rank DV_size _ _ (ix2 v j)
    (fun kk => ix2 v kk) (fun kk => ix2 kk j) (DV_lhs v j) (DV_rhs v j)).trans ?_
  refine Finset.sum_congr rfl fun kk _ => ?_
  congr 1
  exact shapeCast_1ab_ab_apply Vt _ v kk

/-- The new running weighted sum of the squared values. -/
theorem pay14_apply (v j : Fin 512) :
    k0_pay14 (F := Ideal) x0 x1 x2 mm aa Kt Vt (ix2 v j)
      = k0_pay9 (F := Ideal) x0 x1 x2 mm Kt (ix2 (0 : Fin 1) j) * aa (ix2 v j)
        + ∑ kk : Fin 512, (Vt (ix3 (0 : Fin 1) v kk) * Vt (ix3 (0 : Fin 1) v kk))
            * k0_pay10 (F := Ideal) x0 x1 x2 mm Kt (ix2 kk j) := by
  unfold k0_pay14
  rw [addf_apply, mulf_apply, broadcastTo_1b_ab_apply]
  refine congrArg₂ (fun (a b : EReal) => a + b) rfl ?_
  refine (Cert.LibPlainDot.matmul_zero_apply DV none 512 DV_rank DV_size _ _ (ix2 v j)
    (fun kk => ix2 v kk) (fun kk => ix2 kk j) (DV_lhs v j) (DV_rhs v j)).trans ?_
  refine Finset.sum_congr rfl fun kk _ => ?_
  congr 1
  rw [truncf_apply, mulf_apply, extf_apply]
  exact congrArg (fun t => t * t) (shapeCast_1ab_ab_apply Vt _ v kk)

/-! ## After the loop -/

variable (l1 : FVec Ideal S1x512 .f32) (a2 a3 : FVec Ideal S512x512 .f32)

/-- One over the final sum of weights of column j. -/
theorem pay15_apply (j : Fin 512) :
    k0_pay15 (F := Ideal) l1 (ix2 (0 : Fin 1) j)
      = Ideal.div (Ideal.ofBits .f32 0x3F800000#32) (l1 (ix2 (0 : Fin 1) j)) := rfl

/-- The weighted mean of channel v, column j. -/
theorem pay16_apply (v j : Fin 512) :
    k0_pay16 (F := Ideal) l1 a2 (ix2 v j) = a2 (ix2 v j) * k0_pay15 (F := Ideal) l1 (ix2 (0 : Fin 1) j) := by
  unfold k0_pay16
  rw [mulf_apply, broadcastTo_1b_ab_apply]

/-- The weighted deviation of channel v, column j. -/
theorem pay17_apply (v j : Fin 512) :
    k0_pay17 (F := Ideal) l1 a2 a3 (ix2 v j)
      = Ideal.sqrt (max (a3 (ix2 v j) * k0_pay15 (F := Ideal) l1 (ix2 (0 : Fin 1) j)
            - k0_pay16 (F := Ideal) l1 a2 (ix2 v j) * k0_pay16 (F := Ideal) l1 a2 (ix2 v j))
          (Ideal.ofBits .f32 0x358637BD#32)) := by
  unfold k0_pay17
  show Ideal.sqrt ((maximumf _ _ : FVec Ideal S512x512 .f32) (ix2 v j)) = _
  rw [maximumf_apply, subf_apply, mulf_apply, mulf_apply, broadcastTo_1b_ab_apply]
  rfl

variable (x5 : FVec Ideal S1x512x512 .f32) (x6 x7 : FVec Ideal S1x512x1 .f32)

/-- The content block's entry, and its channel's mean spread over the columns. -/
theorem pay18_apply (v j : Fin 512) : k0_pay18 (F := Ideal) x5 (ix2 v j) = x5 (ix3 (0 : Fin 1) v j) := by
  unfold k0_pay18; exact shapeCast_1ab_ab_apply x5 _ v j

theorem pay19_apply (v j : Fin 512) :
    k0_pay19 (F := Ideal) x6 (ix2 v j) = x6 (ix3 (0 : Fin 1) v (0 : Fin 1)) := by
  unfold k0_pay19
  rw [bcastCol_apply, shapeCast_1ab_ab_apply]

/-- The stored block: deviation times the normalised content, plus the mean. -/
theorem pay1_apply (v20 v27 v29 v32 : FVec Ideal S512x512 .f32) (u : Fin 1) (v j : Fin 512) :
    k0_pay1 (F := Ideal) v20 v27 v29 v32 x7 (ix3 u v j)
      = v27 (ix2 v j) * ((v29 (ix2 v j) - v32 (ix2 v j)) * x7 (ix3 (0 : Fin 1) v (0 : Fin 1))) + v20 (ix2 v j) := by
  unfold k0_pay1
  rw [shapeCast_ab_1ab_apply, addf_apply, mulf_apply, mulf_apply, subf_apply, bcastCol_apply, shapeCast_1ab_ab_apply]

end Cert.KernelIdeal.Body

end
-- ==== Proof.LibCoeLift.lean ====
/-
  Extended-real operations on real arguments stay real: finite sums, the quotient by a nonzero real, and a running
  maximum started at -∞ over a nonempty range. With these, a chain of sums, products, exponentials, quotients and
  maxima of real inputs is read as one real number.
-/
import Idealize.ShloMosaic.PureOps.Ideal
import Idealize.ShloMosaic.PureOps.Ideal.Laws

noncomputable section

namespace Cert.Proof.CoeLift

open Idealize.ShloMosaic

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The extended quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The word of the negative infinity denotes the bottom of the extended reals. -/
theorem ofBits_neg_inf : Ideal.ofBits .f32 0xFF800000#32 = (⊥ : EReal) := by
  simp [Ideal.ofBits, Ideal.ieee]

/-- A running maximum from -∞ over a nonempty finite set of reals is a real. -/
theorem fold_max_coe_of_nonempty {ι : Type} (s : Finset ι) (hs : s.Nonempty) (f : ι → ℝ) :
    ∃ c : ℝ, s.fold max (⊥ : EReal) (fun i => ((f i : ℝ) : EReal)) = (c : EReal) := by
  induction hs using Finset.Nonempty.cons_induction with
  | singleton a => exact ⟨f a, by rw [Finset.fold_singleton, max_bot_right]⟩
  | cons a s ha hs ih =>
    obtain ⟨c, hc⟩ := ih
    exact ⟨max (f a) c, by rw [Finset.fold_cons, hc]; exact (EReal.coe_strictMono.monotone.map_max).symm⟩

/-- The same over a whole nonempty range. -/
theorem fold_max_coe {n : ℕ} (hn : 0 < n) (f : Fin n → ℝ) :
    ∃ c : ℝ, (Finset.univ : Finset (Fin n)).fold max (⊥ : EReal) (fun i => ((f i : ℝ) : EReal)) = (c : EReal) :=
  fold_max_coe_of_nonempty _ ⟨⟨0, hn⟩, Finset.mem_univ _⟩ f

end Cert.Proof.CoeLift

end
-- ==== Proof.SpecReal.lean ====
/-
  The statistics of an everywhere-real array are real numbers.

  The sum of finitely many reals is a real, so the spatial mean (the sum divided by 4096) is; each squared
  deviation from it is a nonnegative real, so the variance (their sum divided by 4096 - 0 = 4096 > 0, the guard
  taking its first branch) is a nonnegative real; adding the positive 1e-5 makes it positive, so its reciprocal
  square root is a real; the normalised array is a difference times that, and an attention score is a finite
  sum of products of two normalised entries.
-/
import proofs.«125215_j25984552141369_2_alg».proof.Proof.Spec
import proofs.«125215_j25984552141369_2_alg».proof.Proof.LibCoeLift

noncomputable section

namespace Cert.Attn

open Idealize.ShloMosaic Idealize.ShloMosaic.ValueIdx Cert.Proof.CoeLift

/-- An array all of whose entries are real numbers. -/
def IsReal (x : SX.Idx → EReal) : Prop := ∀ i, ∃ r : ℝ, x i = (r : EReal)

/-! ## The constants -/

/-- The word 0x45800000 denotes 4096 = 2 ^ 12. -/
theorem nW_eq : nW = ((4096 : ℝ) : EReal) := by
  unfold nW; simp [Ideal.ofBits, Ideal.ieee, -EReal.coe_mul]; norm_num

/-- The all-zero word denotes 0. -/
theorem zeroW_eq : zeroW = 0 := Ideal.ofBits_zero_f32

/-- The word 0xFF800000 denotes -∞. -/
theorem negInfW_eq : negInfW = ⊥ := ofBits_neg_inf

/-- The word 0x3727C5AC (1e-5 rounded) denotes the positive real 10995116 / 2 ^ 40. -/
theorem eps5_pos : ∃ e : ℝ, 0 < e ∧ eps5 = (e : EReal) := by
  refine ⟨10995116 * ((2 : ℝ) ^ 40)⁻¹, by positivity, ?_⟩
  unfold eps5; simp [Ideal.ofBits, Ideal.ieee, -EReal.coe_mul]

/-- The count 4096 - 0 is the real 4096. -/
theorem cnt_eq : cnt = ((4096 : ℝ) : EReal) := by
  unfold cnt
  rw [nW_eq, BitVec.toInt_zero, Int.cast_zero, EReal.coe_zero, sub_zero]

/-- The guard 4096 - 0 > 0 holds. -/
theorem cmp_cnt : Ideal.cmp .ogt cnt zeroW = 1#1 := by
  have h : zeroW < cnt := by
    rw [cnt_eq, zeroW_eq]; exact_mod_cast (by norm_num : (0 : ℝ) < 4096)
  simp [Ideal.cmp, h]

section
variable (hred : SX.ReducesTo [2, 3] SBC)

/-! ## The spatial sum of a real array -/

/-- The spatial sum of a coerced real array is the coerced sum of the reals over the positions that reduce to
    (b, c). -/
theorem ssum_coe (f : SX.Idx → ℝ) (b : Fin 4) (c : Fin 512) :
    ∃ s : Finset SX.Idx, ssum hred (fun i => ((f i : ℝ) : EReal)) b c = ((∑ i ∈ s, f i : ℝ) : EReal) :=
  ⟨_, by unfold ssum Ideal.hostReduceAdd; rw [zeroW_eq, zero_add, coe_sum]⟩

/-- The spatial mean of a real array is real. -/
theorem mean_real {x : SX.Idx → EReal} (hx : IsReal x) (b : Fin 4) (c : Fin 512) :
    ∃ r : ℝ, mean hred x b c = (r : EReal) := by
  choose f hf using hx
  obtain rfl : x = fun i => ((f i : ℝ) : EReal) := funext hf
  obtain ⟨s, hs⟩ := ssum_coe hred f b c
  exact ⟨(∑ i ∈ s, f i) / 4096, by unfold mean; rw [hs, nW_eq, div_coe_coe _ _ (by norm_num)]⟩

/-- Each squared deviation from the mean is a nonnegative real. -/
theorem sqdev_real {x : SX.Idx → EReal} (hx : IsReal x) (i : SX.Idx) :
    ∃ r : ℝ, 0 ≤ r ∧ sqdev hred x i = (r : EReal) := by
  obtain ⟨a, ha⟩ := hx i
  obtain ⟨m, hm⟩ := mean_real hred hx (i 0) (i 1)
  refine ⟨(a - m) * (a - m), mul_self_nonneg _, ?_⟩
  unfold sqdev; rw [ha, hm, ← EReal.coe_sub, ← EReal.coe_mul]

/-- The variance of a real array is a nonnegative real: the guard holds, and a sum of nonnegative reals divided
    by 4096 is nonnegative. -/
theorem var_real {x : SX.Idx → EReal} (hx : IsReal x) (b : Fin 4) (c : Fin 512) :
    ∃ r : ℝ, 0 ≤ r ∧ var hred x b c = (r : EReal) := by
  choose g hg0 hg using sqdev_real hred hx
  have hsq : sqdev hred x = fun i => ((g i : ℝ) : EReal) := funext hg
  obtain ⟨s, hs⟩ := ssum_coe hred g b c
  refine ⟨(∑ i ∈ s, g i) / 4096, div_nonneg (Finset.sum_nonneg fun i _ => hg0 i) (by norm_num), ?_⟩
  unfold var
  rw [cmp_cnt, select_one, hsq, hs, cnt_eq, div_coe_coe _ _ (by norm_num)]

/-- One over the standard deviation of a real array is real: the variance plus 1e-5 is positive. -/
theorem istd_real {x : SX.Idx → EReal} (hx : IsReal x) (b : Fin 4) (c : Fin 512) :
    ∃ r : ℝ, istd hred x b c = (r : EReal) := by
  obtain ⟨v, hv0, hv⟩ := var_real hred hx b c
  obtain ⟨e, he0, he⟩ := eps5_pos
  have hpos : 0 < v + e := by linarith
  refine ⟨(Real.sqrt (v + e))⁻¹, ?_⟩
  unfold istd
  rw [hv, he, ← EReal.coe_add, Ideal.rsqrt_coe, if_neg (not_lt.mpr hpos.le), if_neg hpos.ne']

/-- The normalised array of a real array is real. -/
theorem nrm_real {x : SX.Idx → EReal} (hx : IsReal x) (b : Fin 4) (c : Fin 512) (h w : Fin 64) :
    ∃ r : ℝ, nrm hred x b c h w = (r : EReal) := by
  obtain ⟨a, ha⟩ := hx (ix4 b c h w)
  obtain ⟨m, hm⟩ := mean_real hred hx b c
  obtain ⟨t, ht⟩ := istd_real hred hx b c
  exact ⟨(a - m) * t, by unfold nrm; rw [ha, hm, ht, ← EReal.coe_sub, ← EReal.coe_mul]⟩

/-- A value read at a flat position is an entry of the array. -/
theorem val_real {x : SX.Idx → EReal} (hx : IsReal x) (b : Fin 4) (v : Fin 512) (p : Fin 4096) :
    ∃ r : ℝ, val x b v p = (r : EReal) := hx _

/-- An attention score of two real arrays is real: a sum over the 512 channels of products of reals. -/
theorem score_real {c1x s1x : SX.Idx → EReal} (hq : IsReal c1x) (hk : IsReal s1x) (b : Fin 4)
    (q k : Fin 4096) : ∃ r : ℝ, score hred c1x s1x b q k = (r : EReal) := by
  choose fq hfq using fun c => nrm_real hred hq b c (hh q) (ww q)
  choose fk hfk using fun c => nrm_real hred hk b c (hh k) (ww k)
  refine ⟨∑ c : Fin 512, fq c * fk c, ?_⟩
  unfold score qry key
  rw [← coe_sum]
  exact Finset.sum_congr rfl fun c _ => by rw [hfq, hfk, EReal.coe_mul]

end

end Cert.Attn

end
-- ==== Proof.LibOnlineSoftmax.lean ====
/-
  A streaming softmax. The softmax-weighted sum of one row, with scores s i and values v i, can be taken tile by
  tile: keep the running maximum m of the scores seen so far, the running sum l of exp (s i - m) and the running
  weighted sum a of exp (s i - m) * v i; at a new tile, with m' the new maximum, multiply both sums by
  exp (m - m') and add the tile's terms exp (s i - m') and exp (s i - m') * v i. When every key has been seen,
  a / l is the one-pass softmax-weighted sum  ∑ i, exp (s i - M) / (∑ k, exp (s k - M)) * v i  with M the maximum
  of all scores. The running maximum starts at -∞, so the statements live in the extended reals, where
  exp (-∞) = 0; every proof finds the real numbers behind the extended ones and is then real algebra
  (exp (x + y) = exp x * exp y, a sum over a disjoint union).

  Also here: a constant factor moved out of a double sum, and the values of a few constants.
-/
import Idealize.ShloMosaic.PureOps.Ideal
import Idealize.ShloMosaic.PureOps.Ideal.Laws
import Mathlib

noncomputable section

namespace Cert.LibOnlineSoftmax

open Idealize.ShloMosaic

/-! ## Extended-real operations on real arguments -/

/-- A finite sum of reals, taken in the extended reals, is the real sum. -/
theorem coe_finset_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The extended quotient of two reals, the divisor nonzero, is the real quotient. -/
theorem div_coe_real (a b : ℝ) (hb : b ≠ 0) :
    Ideal.div (a : EReal) (b : EReal) = ((a / b : ℝ) : EReal) := by
  rw [Ideal.div_coe hb, ← EReal.coe_mul, mul_one_div]

/-- The extended exponential of a difference of two reals is the real exponential of the difference. -/
theorem exp_coe_sub_coe (x y : ℝ) :
    Ideal.exp ((x : EReal) - (y : EReal)) = ((Real.exp (x - y) : ℝ) : EReal) := by
  rw [← EReal.coe_sub, Ideal.exp_coe]

/-- The extended exponential of -∞ minus anything is zero: -∞ - x = -∞ and exp (-∞) = 0. -/
theorem exp_bot_sub (x : EReal) : Ideal.exp (⊥ - x) = 0 := by
  rw [EReal.bot_sub, Ideal.exp_bot]

/-- The maximum of two reals, taken in the extended reals, is the real maximum. -/
theorem max_coe_coe (x y : ℝ) : max (x : EReal) (y : EReal) = ((max x y : ℝ) : EReal) :=
  (EReal.coe_strictMono.monotone.map_max).symm

/-! ## The maximum of a nonempty finite family of reals -/

/-- An extended real that is above every member of a nonempty finite family of reals and equal to one of them
    is the family's maximum. -/
theorem eq_coe_sup' {ι : Type*} (s : ι → ℝ) (t : Finset ι) (ht : t.Nonempty) (μ : EReal)
    (hle : ∀ i ∈ t, ((s i : ℝ) : EReal) ≤ μ) (hex : ∃ i ∈ t, μ = ((s i : ℝ) : EReal)) :
    μ = ((t.sup' ht s : ℝ) : EReal) := by
  obtain ⟨j, hj, rfl⟩ := hex
  refine congrArg _ (le_antisymm (Finset.le_sup' s hj) (Finset.sup'_le ht s fun i hi => ?_))
  exact EReal.coe_le_coe_iff.mp (hle i hi)

/-- The running maximum from -∞ over a nonempty finite family of reals is the family's maximum. -/
theorem fold_max_eq_coe_sup' {ι : Type*} (s : ι → ℝ) (t : Finset ι) (ht : t.Nonempty) :
    t.fold max (⊥ : EReal) (fun i => ((s i : ℝ) : EReal)) = ((t.sup' ht s : ℝ) : EReal) := by
  induction ht using Finset.Nonempty.cons_induction with
  | singleton a => rw [Finset.fold_singleton, max_bot_right, Finset.sup'_singleton]
  | cons a t ha ht ih => rw [Finset.fold_cons, ih, Finset.sup'_cons ht, max_coe_coe]

/-- So that running maximum is above every member of the family. -/
theorem le_fold_max {ι : Type*} (s : ι → ℝ) (t : Finset ι) :
    ∀ i ∈ t, ((s i : ℝ) : EReal) ≤ t.fold max (⊥ : EReal) (fun i => ((s i : ℝ) : EReal)) := by
  intro i hi
  rw [fold_max_eq_coe_sup' s t ⟨i, hi⟩]
  exact EReal.coe_le_coe_iff.mpr (Finset.le_sup' s hi)

/-- And, the family nonempty, it is one of the members. -/
theorem fold_max_mem {ι : Type*} (s : ι → ℝ) (t : Finset ι) (ht : t.Nonempty) :
    ∃ i ∈ t, t.fold max (⊥ : EReal) (fun i => ((s i : ℝ) : EReal)) = ((s i : ℝ) : EReal) := by
  obtain ⟨i, hi, h⟩ := Finset.exists_mem_eq_sup' ht s
  exact ⟨i, hi, by rw [fold_max_eq_coe_sup' s t ht, h]⟩

/-! ## Changing the reference point of a sum of exponentials -/

/-- Multiplying a sum of terms exp (s i - M) * w i by exp (M - M') moves the reference point from M to M'. -/
theorem rescale_sum {ι : Type*} (s w : ι → ℝ) (t : Finset ι) (M M' : ℝ) :
    Real.exp (M - M') * ∑ i ∈ t, Real.exp (s i - M) * w i = ∑ i ∈ t, Real.exp (s i - M') * w i := by
  rw [Finset.mul_sum]
  refine Finset.sum_congr rfl fun i _ => ?_
  rw [← mul_assoc, ← Real.exp_add, show M - M' + (s i - M) = s i - M' by ring]

/-- The same without weights. -/
theorem rescale_sum_one {ι : Type*} (s : ι → ℝ) (t : Finset ι) (M M' : ℝ) :
    Real.exp (M - M') * ∑ i ∈ t, Real.exp (s i - M) = ∑ i ∈ t, Real.exp (s i - M') := by
  simpa using rescale_sum s (fun _ => 1) t M M'

/-! ## The invariant of the streaming softmax -/

/-- The state (m, l, a) after the keys in seen: before any key it is (-∞, 0, 0); afterwards m is the maximum
    score over seen, l the sum of exp (s i - m) and a the sum of exp (s i - m) * v i over seen. -/
def Inv {ι : Type*} (s v : ι → ℝ) (seen : Finset ι) (m l a : EReal) : Prop :=
  (seen = ∅ ∧ m = ⊥ ∧ l = 0 ∧ a = 0) ∨
  ∃ h : seen.Nonempty, m = ((seen.sup' h s : ℝ) : EReal) ∧
    l = ((∑ i ∈ seen, Real.exp (s i - seen.sup' h s) : ℝ) : EReal) ∧
    a = ((∑ i ∈ seen, Real.exp (s i - seen.sup' h s) * v i : ℝ) : EReal)

/-- The starting state (-∞, 0, 0) satisfies the invariant with no key seen. -/
theorem inv_init {ι : Type*} (s v : ι → ℝ) : Inv s v ∅ ⊥ 0 0 :=
  Or.inl ⟨rfl, rfl, rfl, rfl⟩

/-- One step: from a state satisfying the invariant on seen, a nonempty tile of new keys with maximum score μ
    gives — the new maximum m' = max m μ, both sums multiplied by exp (m - m') and the tile's terms added — a state
    satisfying the invariant on seen ∪ tile. -/
theorem inv_step {ι : Type*} [DecidableEq ι] (s v : ι → ℝ) (seen tile : Finset ι) (m l a μ : EReal)
    (hinv : Inv s v seen m l a) (ht : tile.Nonempty) (hdisj : Disjoint seen tile)
    (hle : ∀ i ∈ tile, ((s i : ℝ) : EReal) ≤ μ) (hex : ∃ i ∈ tile, μ = ((s i : ℝ) : EReal)) :
    Inv s v (seen ∪ tile) (max m μ)
      (Ideal.exp (m - max m μ) * l + ∑ i ∈ tile, Ideal.exp (((s i : ℝ) : EReal) - max m μ))
      (Ideal.exp (m - max m μ) * a
        + ∑ i ∈ tile, Ideal.exp (((s i : ℝ) : EReal) - max m μ) * ((v i : ℝ) : EReal)) := by
  have hμ := eq_coe_sup' s tile ht μ hle hex
  subst hμ
  rcases hinv with ⟨rfl, rfl, rfl, rfl⟩ | ⟨h, rfl, rfl, rfl⟩
  · rw [Finset.empty_union, max_bot_left, exp_bot_sub]
    refine Or.inr ⟨ht, rfl, ?_, ?_⟩
    · simp only [mul_zero, zero_add, exp_coe_sub_coe, coe_finset_sum]
    · simp only [mul_zero, zero_add, exp_coe_sub_coe, ← EReal.coe_mul, coe_finset_sum]
  · have hM' : (seen ∪ tile).sup' (h.mono Finset.subset_union_left) s
        = max (seen.sup' h s) (tile.sup' ht s) := by
      rw [Finset.sup'_union h ht s]
    refine Or.inr ⟨h.mono Finset.subset_union_left, ?_, ?_, ?_⟩
    · rw [max_coe_coe, hM']
    · rw [hM', max_coe_coe]
      simp only [exp_coe_sub_coe, ← EReal.coe_mul, coe_finset_sum, ← EReal.coe_add]
      rw [Finset.sum_union hdisj, rescale_sum_one]
    · rw [hM', max_coe_coe]
      simp only [exp_coe_sub_coe, ← EReal.coe_mul, coe_finset_sum, ← EReal.coe_add]
      rw [Finset.sum_union hdisj, rescale_sum]

/-- The same step with the tile's maximum taken as the running maximum from -∞ over the tile. -/
theorem inv_step_fold {ι : Type*} [DecidableEq ι] (s v : ι → ℝ) (seen tile : Finset ι) (m l a : EReal)
    (hinv : Inv s v seen m l a) (ht : tile.Nonempty) (hdisj : Disjoint seen tile) :
    Inv s v (seen ∪ tile) (max m (tile.fold max (⊥ : EReal) (fun i => ((s i : ℝ) : EReal))))
      (Ideal.exp (m - max m (tile.fold max (⊥ : EReal) (fun i => ((s i : ℝ) : EReal)))) * l
        + ∑ i ∈ tile, Ideal.exp (((s i : ℝ) : EReal)
            - max m (tile.fold max (⊥ : EReal) (fun i => ((s i : ℝ) : EReal)))))
      (Ideal.exp (m - max m (tile.fold max (⊥ : EReal) (fun i => ((s i : ℝ) : EReal)))) * a
        + ∑ i ∈ tile, Ideal.exp (((s i : ℝ) : EReal)
            - max m (tile.fold max (⊥ : EReal) (fun i => ((s i : ℝ) : EReal)))) * ((v i : ℝ) : EReal)) :=
  inv_step s v seen tile m l a _ hinv ht hdisj (le_fold_max s tile) (fold_max_mem s tile ht)

/-! ## The end of the stream -/

/-- Once every key has been seen the state holds real numbers: m the maximum R of all scores, l the positive sum
    of exp (s i - R), a the sum of exp (s i - R) * v i. -/
theorem inv_univ {ι : Type*} [Fintype ι] [Nonempty ι] (s v : ι → ℝ) (m l a : EReal)
    (hinv : Inv s v Finset.univ m l a) :
    m = ((Finset.univ.sup' Finset.univ_nonempty s : ℝ) : EReal)
      ∧ l = ((∑ i, Real.exp (s i - Finset.univ.sup' Finset.univ_nonempty s) : ℝ) : EReal)
      ∧ a = ((∑ i, Real.exp (s i - Finset.univ.sup' Finset.univ_nonempty s) * v i : ℝ) : EReal)
      ∧ 0 < ∑ i, Real.exp (s i - Finset.univ.sup' Finset.univ_nonempty s) := by
  rcases hinv with ⟨h0, -⟩ | ⟨h, hm, hl, ha⟩
  · exact absurd h0 Finset.univ_nonempty.ne_empty
  · exact ⟨hm, hl, ha, Finset.sum_pos (fun i _ => Real.exp_pos _) Finset.univ_nonempty⟩

/-- At the end the quotient a / l is the real number (∑ exp (s i - R) * v i) / (∑ exp (s k - R)), R the maximum of
    all scores. -/
theorem div_end_real {ι : Type*} [Fintype ι] [Nonempty ι] (s v : ι → ℝ) (m l a : EReal)
    (hinv : Inv s v Finset.univ m l a) :
    Ideal.div a l
      = (((∑ i, Real.exp (s i - Finset.univ.sup' Finset.univ_nonempty s) * v i)
          / (∑ k, Real.exp (s k - Finset.univ.sup' Finset.univ_nonempty s)) : ℝ) : EReal) := by
  obtain ⟨-, rfl, rfl, hpos⟩ := inv_univ s v m l a hinv
  exact div_coe_real _ _ hpos.ne'

/-- The one-pass softmax-weighted sum, written with extended-real operations and reference point the maximum M of
    all scores, is the same real number. -/
theorem onepass_real {ι : Type*} [Fintype ι] [Nonempty ι] (s v : ι → ℝ) (M : EReal)
    (hle : ∀ i, ((s i : ℝ) : EReal) ≤ M) (hex : ∃ i, M = ((s i : ℝ) : EReal)) :
    ∑ i, Ideal.div (Ideal.exp (((s i : ℝ) : EReal) - M)) (0 + ∑ k, Ideal.exp (((s k : ℝ) : EReal) - M))
        * ((v i : ℝ) : EReal)
      = (((∑ i, Real.exp (s i - Finset.univ.sup' Finset.univ_nonempty s) * v i)
          / (∑ k, Real.exp (s k - Finset.univ.sup' Finset.univ_nonempty s)) : ℝ) : EReal) := by
  have hM := eq_coe_sup' s Finset.univ Finset.univ_nonempty M (fun i _ => hle i)
    (by obtain ⟨i, hi⟩ := hex; exact ⟨i, Finset.mem_univ i, hi⟩)
  subst hM
  have hpos : 0 < ∑ k, Real.exp (s k - Finset.univ.sup' Finset.univ_nonempty s) :=
    Finset.sum_pos (fun i _ => Real.exp_pos _) Finset.univ_nonempty
  simp only [exp_coe_sub_coe, coe_finset_sum, zero_add, div_coe_real _ _ hpos.ne', ← EReal.coe_mul]
  rw [Finset.sum_div]
  exact congrArg _ (Finset.sum_congr rfl fun i _ => div_mul_eq_mul_div _ _ _)

/-- The end of the stream: with every key seen, a / l is the one-pass softmax-weighted sum
    ∑ i, exp (s i - M) / (0 + ∑ k, exp (s k - M)) * v i, M the maximum of all scores. -/
theorem div_end {ι : Type*} [Fintype ι] [Nonempty ι] (s v : ι → ℝ) (m l a M : EReal)
    (hinv : Inv s v Finset.univ m l a)
    (hle : ∀ i, ((s i : ℝ) : EReal) ≤ M) (hex : ∃ i, M = ((s i : ℝ) : EReal)) :
    Ideal.div a l
      = ∑ i, Ideal.div (Ideal.exp (((s i : ℝ) : EReal) - M)) (0 + ∑ k, Ideal.exp (((s k : ℝ) : EReal) - M))
          * ((v i : ℝ) : EReal) := by
  rw [div_end_real s v m l a hinv, onepass_real s v M hle hex]

/-- The same with the one-pass side in plain extended-real operations: exponentials of coerced differences,
    the quotient a product with an inverse, no leading zero. -/
theorem div_end_plain {ι : Type*} [Fintype ι] [Nonempty ι] (s v : ι → ℝ) (m l a : EReal) (R : ℝ)
    (hinv : Inv s v Finset.univ m l a) (hle : ∀ i, s i ≤ R) (hex : ∃ i, R = s i) :
    Ideal.div a l
      = ∑ i, ((Real.exp (s i - R) : ℝ) : EReal) * (((∑ k, Real.exp (s k - R) : ℝ) : EReal))⁻¹
          * ((v i : ℝ) : EReal) := by
  rw [div_end s v m l a (R : EReal) hinv (fun i => EReal.coe_le_coe_iff.mpr (hle i))
    (by obtain ⟨i, hi⟩ := hex; exact ⟨i, congrArg _ hi⟩)]
  have hpos : 0 < ∑ k, Real.exp (s k - R) :=
    Finset.sum_pos (fun i _ => Real.exp_pos _) Finset.univ_nonempty
  refine Finset.sum_congr rfl fun i _ => ?_
  simp only [exp_coe_sub_coe, coe_finset_sum, zero_add]
  rw [Ideal.div, if_neg (by exact_mod_cast hpos.ne')]

/-- The end of the stream with the overall maximum taken as the running maximum from -∞ over all scores. -/
theorem div_end_fold {ι : Type*} [Fintype ι] [Nonempty ι] (s v : ι → ℝ) (m l a : EReal)
    (hinv : Inv s v Finset.univ m l a) :
    Ideal.div a l
      = ∑ i, Ideal.div
            (Ideal.exp (((s i : ℝ) : EReal)
              - Finset.univ.fold max (⊥ : EReal) (fun k => ((s k : ℝ) : EReal))))
            (0 + ∑ k, Ideal.exp (((s k : ℝ) : EReal)
              - Finset.univ.fold max (⊥ : EReal) (fun k => ((s k : ℝ) : EReal))))
          * ((v i : ℝ) : EReal) := by
  obtain ⟨j, -, hj⟩ := fold_max_mem s Finset.univ Finset.univ_nonempty
  exact div_end s v m l a _ hinv (fun i => le_fold_max s Finset.univ i (Finset.mem_univ i)) ⟨j, hj⟩

/-! ## Constants -/

/-- The single-precision word 0x44800000 denotes 1024. -/
theorem ofBits_1024 : Ideal.ofBits .f32 0x44800000#32 = ((1024 : ℝ) : EReal) := by
  simp [Ideal.ofBits, Ideal.ieee, -EReal.coe_mul]; norm_num

/-- The single-precision word 0x3F800000 denotes 1. -/
theorem ofBits_one : Ideal.ofBits .f32 0x3F800000#32 = ((1 : ℝ) : EReal) := by
  simp [Ideal.ofBits, Ideal.ieee, -EReal.coe_mul]; norm_num

/-- The single-precision word 0x3D000000 denotes 1/32. -/
theorem ofBits_inv32 : Ideal.ofBits .f32 0x3D000000#32 = ((1 / 32 : ℝ) : EReal) := by
  simp [Ideal.ofBits, Ideal.ieee, -EReal.coe_mul]; norm_num

/-- The single-precision word 0x00000000 denotes 0. -/
theorem ofBits_zero : Ideal.ofBits .f32 0x00000000#32 = 0 := Ideal.ofBits_zero_f32

/-- The square root of 1024 is 32, since 1024 = 32². -/
theorem sqrt_1024 : Ideal.sqrt ((1024 : ℝ) : EReal) = ((32 : ℝ) : EReal) := by
  have h : Real.sqrt 1024 = 32 := by
    rw [show (1024 : ℝ) = 32 ^ 2 by norm_num]; exact Real.sqrt_sq (by norm_num)
  rw [Ideal.sqrt_coe, if_neg (by norm_num), h]

/-- One over the square root of 1024 is 1/32. -/
theorem one_div_sqrt_1024 :
    Ideal.div ((1 : ℝ) : EReal) (Ideal.sqrt ((1024 : ℝ) : EReal)) = ((1 / 32 : ℝ) : EReal) := by
  rw [sqrt_1024, div_coe_real _ _ (by norm_num)]

/-! ## A constant factor leaves a double sum -/

/-- Over the reals: a factor c on every weight w j d comes out of the sum over d of (∑ j, x j * w j d) * k d. -/
theorem scale_out_finset {α β : Type*} (J : Finset α) (D : Finset β) (x : α → ℝ) (w : α → β → ℝ) (k : β → ℝ)
    (c : ℝ) :
    ∑ d ∈ D, (∑ j ∈ J, x j * (w j d * c)) * k d = (∑ d ∈ D, (∑ j ∈ J, x j * w j d) * k d) * c := by
  rw [Finset.sum_mul]
  refine Finset.sum_congr rfl fun d _ => ?_
  have h : ∑ j ∈ J, x j * (w j d * c) = (∑ j ∈ J, x j * w j d) * c := by
    rw [Finset.sum_mul]; exact Finset.sum_congr rfl fun j _ => (mul_assoc _ _ _).symm
  rw [h]; ring

/-- The same over finite index types. -/
theorem scale_out {α β : Type*} [Fintype α] [Fintype β] (x : α → ℝ) (w : α → β → ℝ) (k : β → ℝ) (c : ℝ) :
    ∑ d, (∑ j, x j * (w j d * c)) * k d = (∑ d, (∑ j, x j * w j d) * k d) * c :=
  scale_out_finset Finset.univ Finset.univ x w k c

/-- A double sum of products of coerced reals is the coerced real double sum. -/
theorem coe_double_sum {α β : Type*} [Fintype α] [Fintype β] (x : α → ℝ) (w : α → β → ℝ) (k : β → ℝ) :
    ∑ d, (∑ j, ((x j : ℝ) : EReal) * ((w j d : ℝ) : EReal)) * ((k d : ℝ) : EReal)
      = ((∑ d, (∑ j, x j * w j d) * k d : ℝ) : EReal) := by
  simp only [← EReal.coe_mul, coe_finset_sum]

/-- The extended-real form, every entry a coerced real: the factor comes out of the double sum. -/
theorem scale_out_coe {α β : Type*} [Fintype α] [Fintype β] (x : α → ℝ) (w : α → β → ℝ) (k : β → ℝ) (c : ℝ) :
    ∑ d, (∑ j, ((x j : ℝ) : EReal) * (((w j d : ℝ) : EReal) * ((c : ℝ) : EReal))) * ((k d : ℝ) : EReal)
      = (∑ d, (∑ j, ((x j : ℝ) : EReal) * ((w j d : ℝ) : EReal)) * ((k d : ℝ) : EReal)) * ((c : ℝ) : EReal) := by
  simp only [← EReal.coe_mul, coe_finset_sum]
  rw [scale_out]

end Cert.LibOnlineSoftmax

end
-- ==== Proof.OnlineTiles.lean ====
/-
  The streaming softmax over the 4096 keys, seen in 8 tiles of 512.

  Trip n of the loop sees the keys 512 n + kk, kk < 512: an injective image of the 512 tile positions, disjoint
  from the keys below 512 n seen so far, and together with them the keys below 512 (n + 1). A sum or a running
  maximum over the tile is therefore the sum or running maximum over kk, and one trip is one step of the streaming
  softmax. Before the first trip no key has been seen; after the eighth all have, and the quotient of the two
  running sums is the one-pass softmax-weighted sum.
-/
import proofs.«125215_j25984552141369_2_alg».proof.Proof.Spec
import proofs.«125215_j25984552141369_2_alg».proof.Proof.SpecReal
import proofs.«125215_j25984552141369_2_alg».proof.Proof.LibOnlineSoftmax

noncomputable section

namespace Cert.Attn.Online

open Idealize.ShloMosaic Cert.LibOnlineSoftmax

/-- The key at position kk of tile n. -/
def key (n : Fin 8) (kk : Fin 512) : Fin 4096 := ⟨512 * n.val + kk.val, by omega⟩

/-- The keys seen before trip n: those below 512 n. -/
def seen (n : ℕ) : Finset (Fin 4096) := Finset.univ.filter fun k => k.val < 512 * n

/-- The word of 1. -/
def oneW : EReal := Ideal.ofBits .f32 0x3F800000#32

theorem seen_zero : seen 0 = ∅ := by
  ext k; simp [seen]

theorem seen_eight : seen 8 = Finset.univ :=
  Finset.filter_true_of_mem fun k _ => by have := k.isLt; omega

/-! ## A tile -/

/-- Distinct tile positions are distinct keys. -/
theorem key_injective (n : Fin 8) : Function.Injective (key n) := by
  intro a b h
  have h' := congrArg Fin.val h
  simp only [key] at h'
  exact Fin.ext (by omega)

/-- The keys of tile n. -/
def tile (n : Fin 8) : Finset (Fin 4096) := Finset.univ.map ⟨key n, key_injective n⟩

theorem mem_tile (n : Fin 8) (k : Fin 4096) : k ∈ tile n ↔ ∃ kk : Fin 512, key n kk = k := by
  simp [tile]

theorem tile_nonempty (n : Fin 8) : (tile n).Nonempty :=
  ⟨key n ⟨0, by norm_num⟩, (mem_tile n _).2 ⟨_, rfl⟩⟩

/-- The keys below 512 (n + 1) are those below 512 n and those of tile n. -/
theorem seen_succ (n : Fin 8) : seen (n.val + 1) = seen n.val ∪ tile n := by
  ext k
  rw [Finset.mem_union, mem_tile]
  simp only [seen, Finset.mem_filter, Finset.mem_univ, true_and]
  constructor
  · intro h
    by_cases hk : k.val < 512 * n.val
    · exact Or.inl hk
    · exact Or.inr ⟨⟨k.val - 512 * n.val, by omega⟩, Fin.ext (by simp only [key]; omega)⟩
  · rintro (h | ⟨kk, rfl⟩)
    · omega
    · simp only [key]; omega

/-- No key of tile n is below 512 n. -/
theorem seen_disjoint (n : Fin 8) : Disjoint (seen n.val) (tile n) := by
  rw [Finset.disjoint_left]
  intro k hk ht
  obtain ⟨kk, rfl⟩ := (mem_tile n k).1 ht
  simp only [seen, Finset.mem_filter, Finset.mem_univ, true_and, key] at hk
  omega

/-- A running maximum from -∞ over tile n is the running maximum over the tile positions. -/
theorem fold_tile (s : Fin 4096 → ℝ) (n : Fin 8) :
    (tile n).fold max (⊥ : EReal) (fun i => ((s i : ℝ) : EReal))
      = Finset.univ.fold max negInfW (fun kk : Fin 512 => ((s (key n kk) : ℝ) : EReal)) := by
  rw [negInfW_eq, tile, Finset.fold_map]; rfl

/-- A sum over tile n is the sum over the tile positions. -/
theorem sum_tile (g : Fin 4096 → EReal) (n : Fin 8) : ∑ i ∈ tile n, g i = ∑ kk : Fin 512, g (key n kk) := by
  rw [tile, Finset.sum_map]; rfl

/-! ## One trip, the start, the end -/

/-- One trip of the loop: the tile's maximum is the running maximum from the word of -∞ over the tile positions,
    the new maximum m' = max m (that), both running sums are multiplied by exp (m - m') on the left and the tile's
    terms added as sums over the tile positions, the value factor on the left of the exponential. -/
theorem step (s v : Fin 4096 → ℝ) (n : Fin 8) (m l a : EReal)
    (hinv : Cert.LibOnlineSoftmax.Inv s v (seen n.val) m l a) :
    Cert.LibOnlineSoftmax.Inv s v (seen (n.val + 1))
      (max m (Finset.univ.fold max negInfW (fun kk : Fin 512 => ((s (key n kk) : ℝ) : EReal))))
      (Ideal.exp (m - max m (Finset.univ.fold max negInfW (fun kk : Fin 512 => ((s (key n kk) : ℝ) : EReal)))) * l
        + ∑ kk : Fin 512, Ideal.exp (((s (key n kk) : ℝ) : EReal) - max m (Finset.univ.fold max negInfW (fun kk : Fin 512 => ((s (key n kk) : ℝ) : EReal)))))
      (Ideal.exp (m - max m (Finset.univ.fold max negInfW (fun kk : Fin 512 => ((s (key n kk) : ℝ) : EReal)))) * a
        + ∑ kk : Fin 512, ((v (key n kk) : ℝ) : EReal) * Ideal.exp (((s (key n kk) : ℝ) : EReal) - max m (Finset.univ.fold max negInfW (fun kk : Fin 512 => ((s (key n kk) : ℝ) : EReal))))) := by
  have h := inv_step_fold s v (seen n.val) (tile n) m l a hinv (tile_nonempty n) (seen_disjoint n)
  rw [← seen_succ, fold_tile, sum_tile, sum_tile] at h
  have hc : ∀ M : EReal,
      (∑ kk : Fin 512, ((v (key n kk) : ℝ) : EReal) * Ideal.exp (((s (key n kk) : ℝ) : EReal) - M))
        = ∑ kk : Fin 512, Ideal.exp (((s (key n kk) : ℝ) : EReal) - M) * ((v (key n kk) : ℝ) : EReal) :=
    fun M => Finset.sum_congr rfl fun kk _ => mul_comm _ _
  rw [hc]
  exact h

/-- The start: (the word of -∞, the zero word, the zero word) satisfies the invariant with no key seen. -/
theorem start (s v : Fin 4096 → ℝ) : Cert.LibOnlineSoftmax.Inv s v (seen 0) negInfW zeroW zeroW := by
  rw [seen_zero, negInfW_eq, zeroW_eq]; exact inv_init s v

/-- A real times the quotient of the word of 1 by a nonzero real is the quotient of the two reals. -/
theorem mul_div_oneW (A L : ℝ) (hL : L ≠ 0) :
    ((A : ℝ) : EReal) * Ideal.div oneW ((L : ℝ) : EReal) = Ideal.div ((A : ℝ) : EReal) ((L : ℝ) : EReal) := by
  rw [oneW, ofBits_one, div_coe_real _ _ hL, div_coe_real _ _ hL, ← EReal.coe_mul, mul_one_div]

/-- The end: with all 8 tiles seen, a * (1 / l) is the one-pass softmax-weighted sum, its maximum taken from the
    word of -∞ and once more against it, its denominator started from the zero word. -/
theorem finish (s v : Fin 4096 → ℝ) (m l a : EReal) (hinv : Cert.LibOnlineSoftmax.Inv s v (seen 8) m l a) :
    a * Ideal.div oneW l
      = ∑ k : Fin 4096,
          Ideal.div (Ideal.exp (((s k : ℝ) : EReal) - max negInfW (Finset.univ.fold max negInfW (fun k : Fin 4096 => ((s k : ℝ) : EReal)))))
              (zeroW + ∑ k' : Fin 4096, Ideal.exp (((s k' : ℝ) : EReal) - max negInfW (Finset.univ.fold max negInfW (fun k : Fin 4096 => ((s k : ℝ) : EReal)))))
            * ((v k : ℝ) : EReal) := by
  rw [seen_eight] at hinv
  obtain ⟨-, hl, ha, hpos⟩ := inv_univ s v m l a hinv
  have h1 : a * Ideal.div oneW l = Ideal.div a l := by
    rw [ha, hl]; exact mul_div_oneW _ _ hpos.ne'
  rw [h1, div_end_fold s v m l a hinv, negInfW_eq, zeroW_eq, max_bot_left]

end Cert.Attn.Online

end
-- ==== Proof.KerLoopDef.lean ====
/-
  The kernel's key loop as a pure recursion. Trip n reads tile n of the staged key block and of the staged value
  block (the 512 positions from 512 n) and updates the four running quantities by the body's payloads; the state
  before trip n is the n-fold update of the initial state (-∞, 0, 0, 0).
-/
import proofs.«125215_j25984552141369_2_alg».proof.Proof.KerPay
import proofs.«125215_j25984552141369_2_alg».proof.Proof.OnlineTiles

noncomputable section

namespace Cert.KernelIdeal.Body

open Idealize.ShloMosaic Idealize.ShloMosaic.ValueIdx Cert.KernelIdeal Cert.KernelIdeal.Gen

variable (x0 : FVec Ideal S1x512x512 .f32) (x1 x2 : FVec Ideal S1x512x1 .f32)
  (x3 x4 : FVec Ideal S1x512x4096 .bf16)

/-- Tile n of a [1, 512, 4096] block: row c, the 512 positions from 512 n. -/
def tileOf (x : FVec Ideal S1x512x4096 .bf16) (n : Fin 8) : FVec Ideal S1x512x512 .bf16 :=
  fun i => x (ix3 (0 : Fin 1) (⟨(i 1).val, (i 1).isLt⟩ : Fin 512)
    (Cert.Attn.Online.key n (⟨(i 2).val, (i 2).isLt⟩ : Fin 512)))

theorem tileOf_apply (x : FVec Ideal S1x512x4096 .bf16) (n : Fin 8) (c kk : Fin 512) :
    tileOf x n (ix3 (0 : Fin 1) c kk) = x (ix3 (0 : Fin 1) c (Cert.Attn.Online.key n kk)) := rfl

/-- The loop's carried state: running maximum and running sum of weights per column ([1, 512]), running
    weighted sums of the values and of their squares per (channel, column) ([512, 512]). -/
abbrev St : Type := FVec Ideal S1x512 .f32 × FVec Ideal S1x512 .f32 × FVec Ideal S512x512 .f32 × FVec Ideal S512x512 .f32

/-- One trip's update. -/
def stepF (n : Fin 8) (acc : St) : St :=
  (k0_pay8 (F := Ideal) x0 x1 x2 acc.1 (tileOf x3 n),
   k0_pay11 (F := Ideal) x0 x1 x2 acc.1 acc.2.1 (tileOf x3 n),
   k0_pay13 (F := Ideal) x0 x1 x2 acc.1 acc.2.2.1 (tileOf x3 n) (tileOf x4 n),
   k0_pay14 (F := Ideal) x0 x1 x2 acc.1 acc.2.2.2 (tileOf x3 n) (tileOf x4 n))

/-- The state before trip n. -/
def stF : ℕ → St
  | 0 => (k0_pay2 (F := Ideal), k0_pay3 (F := Ideal), k0_pay4 (F := Ideal), k0_pay5 (F := Ideal))
  | n + 1 => if h : n < 8 then stepF x0 x1 x2 x3 x4 ⟨n, h⟩ (stF n) else stF n

theorem stF_succ (n : Fin 8) : stF x0 x1 x2 x3 x4 (n.val + 1) = stepF x0 x1 x2 x3 x4 n (stF x0 x1 x2 x3 x4 n.val) := by
  rw [stF]; exact dif_pos n.isLt

/-- The score of key position k (of all 4096) against query column j. -/
def scF (k : Fin 4096) (j : Fin 512) : EReal := ∑ c : Fin 512, x3 (ix3 (0 : Fin 1) c k) * qn x0 x1 x2 c j

theorem sc_tile (n : Fin 8) (kk j : Fin 512) :
    sc x0 x1 x2 (tileOf x3 n) kk j = scF x0 x1 x2 x3 (Cert.Attn.Online.key n kk) j := rfl

end Cert.KernelIdeal.Body

end
-- ==== Proof.KerRun.lean ====
/-
  The kernel body's run read as values. One trip of the key loop, run on the staged key and value blocks, yields
  the pure update of the carried state at that trip's tiles; so the state the run carries before trip n is the
  pure recursion's, and the one block the body stores is the final payload of the state after the eighth trip.
-/
import proofs.«125215_j25984552141369_2_alg».proof.Proof.Gen.KernelIdeal.Frame
import proofs.«125215_j25984552141369_2_alg».proof.Proof.KerLoopDef

set_option maxRecDepth 16384

noncomputable section

namespace Cert.KernelIdeal.Body

open Idealize.ShloMosaic Idealize.ShloMosaic.ValueIdx Idealize.ShloMosaic.TcCoe Idealize.ShloMosaic.Tactic
open Cert.KernelIdeal Cert.KernelIdeal.Gen
open Idealize.SL Idealize.SL.Sem

theorem trips_eq : k0_t1_loop.trips = 8 := by decide +kernel

/-- A load of the 512 positions from 512 k of a whole [1, 512, 4096] staging block reads tile k of its contents. -/
theorem readTile (arg : Memref sig .tc .vmem S1x512x4096 .bf16) (harg : arg.IsWhole)
    (x : FVec Ideal S1x512x4096 .bf16) (k : Fin k0_t1_loop.trips) (hk : k.val < 8)
    (inb : ∀ a, (k0_off1 k) a + (![1, 512, 512] : Fin 3 → ℕ) a ≤ S1x512x4096.size a) :
    View.readAt (Elt Ideal) arg.view (Rect.unit (s := S1x512x4096) (k0_off1 k) ![1, 512, 512] inb).toLoadRect (harg.unread x)
      = tileOf x ⟨k.val, hk⟩ := by
  funext i
  rw [View.readAt_eq_ld, harg.read_unread]
  unfold tileOf
  refine congrArg x (funext fun a => Fin.ext ?_)
  have ho := k0_off1_eq k
  have h0 : k0_off1 k 0 = 0 := by rw [ho]; rfl
  have h1 : k0_off1 k 1 = 0 := by rw [ho]; rfl
  have h2 : k0_off1 k 2 = 512 * k.val := by rw [ho]; rfl
  match a with
  | ⟨0, _⟩ =>
    show (k0_off1 k) 0 + 1 * (i 0).val = 0
    have hi : (i 0).val < 1 := (i 0).isLt
    omega
  | ⟨1, _⟩ =>
    show (k0_off1 k) 1 + 1 * (i 1).val = (i 1).val
    omega
  | ⟨2, _⟩ =>
    show (k0_off1 k) 2 + 1 * (i 2).val = 512 * k.val + (i 2).val
    omega

/-- One trip of the loop, on staged blocks holding x3 and x4, is the pure update at that trip's tiles. -/
theorem tripR_eq (𝒱 : Variants) (c : Dev nD) (bd : Option 𝒱.V) (i : grid0.Coords) (arg2 : Memref sig .tc .vmem S1x512x512 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x512x4096 .bf16) (harg6 : arg6.IsWhole) (arg7 : Memref sig .tc .vmem S1x512x512 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x512 .f32) (harg10 : arg10.IsWhole) (v0 : Vec Ideal S1x512x512 .f32) (v2 : Vec Ideal S1x512x1 .f32) (v6 : Vec Ideal S1x512x1 .f32) (x3 x4 : FVec Ideal S1x512x4096 .bf16) (k : Fin k0_t1_loop.trips) (hk : k.val < 8) (acc : St) :
    tripR_k0_t1 (F := Ideal) 𝒱 c bd i arg2 harg2 arg3 harg3 arg4 harg4 arg5 harg5 arg6 harg6 arg7 harg7 arg8 harg8 arg9 harg9 arg10 harg10 v0 v2 v6 (harg5.unread x3) (harg6.unread x4) k acc
      = stepF v0 v2 v6 x3 x4 ⟨k.val, hk⟩ acc := by
  unfold tripR_k0_t1
  unfold trip_k0_t1
  dsimp only
  rw [readTile arg5 harg5 x3 k hk, readTile arg6 harg6 x4 k hk]
  rfl

/-- The state the run carries before trip n is the pure recursion's. -/
theorem st_eq (𝒱 : Variants) (c : Dev nD) (bd : Option 𝒱.V) (i : grid0.Coords) (arg2 : Memref sig .tc .vmem S1x512x512 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x512x4096 .bf16) (harg6 : arg6.IsWhole) (arg7 : Memref sig .tc .vmem S1x512x512 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x512 .f32) (harg10 : arg10.IsWhole) (v0 : Vec Ideal S1x512x512 .f32) (v2 : Vec Ideal S1x512x1 .f32) (v6 : Vec Ideal S1x512x1 .f32) (x3 x4 : FVec Ideal S1x512x4096 .bf16) (n : ℕ) (hn : n ≤ 8) :
    st_k0_t1 (F := Ideal) 𝒱 c bd i arg2 harg2 arg3 harg3 arg4 harg4 arg5 harg5 arg6 harg6 arg7 harg7 arg8 harg8 arg9 harg9 arg10 harg10 v0 v2 v6 (harg5.unread x3) (harg6.unread x4)
        (k0_pay2 (F := Ideal), k0_pay3 (F := Ideal), k0_pay4 (F := Ideal), k0_pay5 (F := Ideal)) n
      = stF v0 v2 v6 x3 x4 n := by
  induction n with
  | zero => rfl
  | succ n ih =>
    have hlt : n < 8 := by omega
    have hk : n < k0_t1_loop.trips := by rw [trips_eq]; exact hlt
    have e := st_k0_t1_succ (F := Ideal) 𝒱 c bd i arg2 harg2 arg3 harg3 arg4 harg4 arg5 harg5 arg6 harg6 arg7 harg7 arg8 harg8 arg9 harg9 arg10 harg10 v0 v2 v6 (harg5.unread x3) (harg6.unread x4)
      (k0_pay2 (F := Ideal), k0_pay3 (F := Ideal), k0_pay4 (F := Ideal), k0_pay5 (F := Ideal)) ⟨n, hk⟩
    rw [e, ih (by omega), tripR_eq 𝒱 c bd i arg2 harg2 arg3 harg3 arg4 harg4 arg5 harg5 arg6 harg6 arg7 harg7 arg8 harg8 arg9 harg9 arg10 harg10 v0 v2 v6 x3 x4 ⟨n, hk⟩ hlt]
    exact (stF_succ v0 v2 v6 x3 x4 ⟨n, hlt⟩).symm

/-- The zero offsets, however spelt. -/
theorem hz3 : (![0, 0, 0] : Fin 3 → ℕ) = fun _ => 0 := by
  funext a; fin_cases a <;> rfl

/-- What the body leaves in the output block, on staged blocks holding x0 … x7: the final payload — deviation times
    normalised content plus mean — of the state after the eighth trip. -/
theorem out_eq (c : Dev nD) (i : grid0.Coords) (arg2 : Memref sig .tc .vmem S1x512x512 .f32) (harg2 : arg2.IsWhole) (arg3 : Memref sig .tc .vmem S1x512x1 .f32) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x512x4096 .bf16) (harg6 : arg6.IsWhole) (arg7 : Memref sig .tc .vmem S1x512x512 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x512 .f32) (harg10 : arg10.IsWhole)
    (x0 : Vec Ideal S1x512x512 .f32) (x1 : Vec Ideal S1x512x1 .f32) (x2 : Vec Ideal S1x512x1 .f32) (x3 : Vec Ideal S1x512x4096 .bf16) (x4 : Vec Ideal S1x512x4096 .bf16) (x5 : Vec Ideal S1x512x512 .f32) (x6 : Vec Ideal S1x512x1 .f32) (x7 : Vec Ideal S1x512x1 .f32) :
    out0_A_8 (F := Ideal) c i arg2 harg2 arg3 harg3 arg4 harg4 arg5 harg5 arg6 harg6 arg7 harg7 arg8 harg8 arg9 harg9 arg10 harg10 x0 x1 x2 x3 x4 x5 x6 x7
      = k0_pay1 (F := Ideal)
          (k0_pay16 (F := Ideal) (stF x0 x1 x2 x3 x4 8).2.1 (stF x0 x1 x2 x3 x4 8).2.2.1)
          (k0_pay17 (F := Ideal) (stF x0 x1 x2 x3 x4 8).2.1 (stF x0 x1 x2 x3 x4 8).2.2.1 (stF x0 x1 x2 x3 x4 8).2.2.2)
          (k0_pay18 (F := Ideal) x5) (k0_pay19 (F := Ideal) x6) x7 := by
  unfold out0_A_8
  rw [View.read_writes_eq_canon _ _ _ (fun y => cover0_A_8 c i arg2 harg2 arg3 harg3 arg4 harg4 arg5 harg5 arg6 harg6 arg7 harg7 arg8 harg8 arg9 harg9 arg10 harg10 x0 x1 x2 x3 x4 x5 x6 x7 y)]
  unfold kernelRun0_A
  dsimp only
  sl_unfold_run_names
  rw [View.canon_unit_zero hz3]
  simp only [View.readAt_eq_ld, harg2.read_unread, harg3.read_unread, harg4.read_unread, harg7.read_unread,
    harg8.read_unread, harg9.read_unread, View.ld_unit_zero (S := S1x512x512) hz3, View.ld_unit_zero (S := S1x512x1) hz3]
  have ht : Scf.trips k0_t1_loop.lb k0_t1_loop.ub k0_t1_loop.st = 8 := trips_eq
  rw [ht, st_eq Variants.none c none i arg2 harg2 arg3 harg3 arg4 harg4 arg5 harg5 arg6 harg6 arg7 harg7 arg8 harg8 arg9 harg9 arg10 harg10 x0 x1 x2 x3 x4 8 (le_refl 8)]

end Cert.KernelIdeal.Body

end
-- ==== Proof.KerLoop.lean ====
/-
  The induction over the key loop. Before trip n the carried state, read at a query column j (and a value
  channel v), is the streaming softmax's state over the keys below 512 n, for the scores of column j and the values
  (resp. the squared values) of channel v: one trip's payloads, read at an index, are one step of the streaming
  softmax over the tile's 512 keys. After the eighth trip the weighted sums divided by the sum of weights are the
  one-pass softmax-weighted sums.
-/
import proofs.«125215_j25984552141369_2_alg».proof.Proof.KerLoopDef

noncomputable section

namespace Cert.KernelIdeal.Body

open Idealize.ShloMosaic Idealize.ShloMosaic.ValueIdx Cert.KernelIdeal Cert.KernelIdeal.Gen
open Cert.LibOnlineSoftmax (Inv)
open Cert.Attn.Online (seen key)

variable (x0 : FVec Ideal S1x512x512 .f32) (x1 x2 : FVec Ideal S1x512x1 .f32) (x3 x4 : FVec Ideal S1x512x4096 .bf16)
  (sR : Fin 512 → Fin 4096 → ℝ) (vR : Fin 512 → Fin 4096 → ℝ)

/-! ## One trip's payloads in terms of the real scores and values -/

section Trip
variable (mm ll : FVec Ideal S1x512 .f32) (aa : FVec Ideal S512x512 .f32) (n : Fin 8)

/-- The tile's maximum score in column j is the running maximum over the tile positions of the real scores. -/
theorem tmax_tile (hs : ∀ (j : Fin 512) (k : Fin 4096), scF x0 x1 x2 x3 k j = ((sR j k : ℝ) : EReal)) (j : Fin 512) :
    tmax x0 x1 x2 (tileOf x3 n) j
      = Finset.univ.fold max Cert.Attn.negInfW (fun kk : Fin 512 => ((sR j (key n kk) : ℝ) : EReal)) := by
  have hf : (fun kk : Fin 512 => sc x0 x1 x2 (tileOf x3 n) kk j)
      = fun kk : Fin 512 => ((sR j (key n kk) : ℝ) : EReal) := funext fun kk => hs j (key n kk)
  exact congrArg (fun f => Finset.fold max Cert.Attn.negInfW f (Finset.univ : Finset (Fin 512))) hf

/-- The new running maximum of column j. -/
theorem trip_m (hs : ∀ (j : Fin 512) (k : Fin 4096), scF x0 x1 x2 x3 k j = ((sR j k : ℝ) : EReal)) (j : Fin 512) :
    k0_pay8 (F := Ideal) x0 x1 x2 mm (tileOf x3 n) (ix2 (0 : Fin 1) j)
      = max (mm (ix2 (0 : Fin 1) j))
          (Finset.univ.fold max Cert.Attn.negInfW (fun kk : Fin 512 => ((sR j (key n kk) : ℝ) : EReal))) := by
  rw [pay8_apply, tmax_tile x0 x1 x2 x3 sR n hs j]

/-- The rescaling factor of column j. -/
theorem trip_r (hs : ∀ (j : Fin 512) (k : Fin 4096), scF x0 x1 x2 x3 k j = ((sR j k : ℝ) : EReal)) (j : Fin 512) :
    k0_pay9 (F := Ideal) x0 x1 x2 mm (tileOf x3 n) (ix2 (0 : Fin 1) j)
      = Ideal.exp (mm (ix2 (0 : Fin 1) j) - max (mm (ix2 (0 : Fin 1) j))
          (Finset.univ.fold max Cert.Attn.negInfW (fun kk : Fin 512 => ((sR j (key n kk) : ℝ) : EReal)))) := by
  rw [pay9_apply, trip_m x0 x1 x2 x3 sR mm n hs j]

/-- The unnormalised weight of tile position kk, column j. -/
theorem trip_w (hs : ∀ (j : Fin 512) (k : Fin 4096), scF x0 x1 x2 x3 k j = ((sR j k : ℝ) : EReal)) (kk j : Fin 512) :
    k0_pay10 (F := Ideal) x0 x1 x2 mm (tileOf x3 n) (ix2 kk j)
      = Ideal.exp (((sR j (key n kk) : ℝ) : EReal) - max (mm (ix2 (0 : Fin 1) j))
          (Finset.univ.fold max Cert.Attn.negInfW (fun kk : Fin 512 => ((sR j (key n kk) : ℝ) : EReal)))) := by
  rw [pay10_apply, trip_m x0 x1 x2 x3 sR mm n hs j, sc_tile, hs]

/-- The new running sum of weights of column j. -/
theorem trip_l (hs : ∀ (j : Fin 512) (k : Fin 4096), scF x0 x1 x2 x3 k j = ((sR j k : ℝ) : EReal)) (j : Fin 512) :
    k0_pay11 (F := Ideal) x0 x1 x2 mm ll (tileOf x3 n) (ix2 (0 : Fin 1) j)
      = Ideal.exp (mm (ix2 (0 : Fin 1) j) - max (mm (ix2 (0 : Fin 1) j))
            (Finset.univ.fold max Cert.Attn.negInfW (fun kk : Fin 512 => ((sR j (key n kk) : ℝ) : EReal)))) * ll (ix2 (0 : Fin 1) j)
        + ∑ kk : Fin 512, Ideal.exp (((sR j (key n kk) : ℝ) : EReal) - max (mm (ix2 (0 : Fin 1) j))
            (Finset.univ.fold max Cert.Attn.negInfW (fun kk : Fin 512 => ((sR j (key n kk) : ℝ) : EReal)))) := by
  rw [pay11_apply, trip_r x0 x1 x2 x3 sR mm n hs j,
    Finset.sum_congr rfl fun kk _ => trip_w x0 x1 x2 x3 sR mm n hs kk j]

/-- The new running weighted sum of the values of channel v, column j. -/
theorem trip_a (hs : ∀ (j : Fin 512) (k : Fin 4096), scF x0 x1 x2 x3 k j = ((sR j k : ℝ) : EReal))
    (hv : ∀ (v : Fin 512) (k : Fin 4096), x4 (ix3 (0 : Fin 1) v k) = ((vR v k : ℝ) : EReal)) (v j : Fin 512) :
    k0_pay13 (F := Ideal) x0 x1 x2 mm aa (tileOf x3 n) (tileOf x4 n) (ix2 v j)
      = Ideal.exp (mm (ix2 (0 : Fin 1) j) - max (mm (ix2 (0 : Fin 1) j))
            (Finset.univ.fold max Cert.Attn.negInfW (fun kk : Fin 512 => ((sR j (key n kk) : ℝ) : EReal)))) * aa (ix2 v j)
        + ∑ kk : Fin 512, ((vR v (key n kk) : ℝ) : EReal) * Ideal.exp (((sR j (key n kk) : ℝ) : EReal) - max (mm (ix2 (0 : Fin 1) j))
            (Finset.univ.fold max Cert.Attn.negInfW (fun kk : Fin 512 => ((sR j (key n kk) : ℝ) : EReal)))) := by
  rw [pay13_apply, trip_r x0 x1 x2 x3 sR mm n hs j]
  refine congrArg₂ (fun (a b : EReal) => a + b) rfl (Finset.sum_congr rfl fun kk _ => ?_)
  rw [trip_w x0 x1 x2 x3 sR mm n hs kk j, tileOf_apply, hv]

/-- The new running weighted sum of the squared values of channel v, column j. -/
theorem trip_a2 (hs : ∀ (j : Fin 512) (k : Fin 4096), scF x0 x1 x2 x3 k j = ((sR j k : ℝ) : EReal))
    (hv : ∀ (v : Fin 512) (k : Fin 4096), x4 (ix3 (0 : Fin 1) v k) = ((vR v k : ℝ) : EReal)) (v j : Fin 512) :
    k0_pay14 (F := Ideal) x0 x1 x2 mm aa (tileOf x3 n) (tileOf x4 n) (ix2 v j)
      = Ideal.exp (mm (ix2 (0 : Fin 1) j) - max (mm (ix2 (0 : Fin 1) j))
            (Finset.univ.fold max Cert.Attn.negInfW (fun kk : Fin 512 => ((sR j (key n kk) : ℝ) : EReal)))) * aa (ix2 v j)
        + ∑ kk : Fin 512, ((vR v (key n kk) * vR v (key n kk) : ℝ) : EReal) * Ideal.exp (((sR j (key n kk) : ℝ) : EReal) - max (mm (ix2 (0 : Fin 1) j))
            (Finset.univ.fold max Cert.Attn.negInfW (fun kk : Fin 512 => ((sR j (key n kk) : ℝ) : EReal)))) := by
  rw [pay14_apply, trip_r x0 x1 x2 x3 sR mm n hs j]
  refine congrArg₂ (fun (a b : EReal) => a + b) rfl (Finset.sum_congr rfl fun kk _ => ?_)
  rw [trip_w x0 x1 x2 x3 sR mm n hs kk j, tileOf_apply, hv, ← EReal.coe_mul]

end Trip

/-- One trip keeps the invariant: from the keys below 512 n to the keys below 512 (n + 1). -/
theorem stepF_inv (hs : ∀ (j : Fin 512) (k : Fin 4096), scF x0 x1 x2 x3 k j = ((sR j k : ℝ) : EReal))
    (hv : ∀ (v : Fin 512) (k : Fin 4096), x4 (ix3 (0 : Fin 1) v k) = ((vR v k : ℝ) : EReal))
    (n : Fin 8) (acc : St) (v j : Fin 512)
    (h1 : Inv (sR j) (vR v) (seen n.val) (acc.1 (ix2 (0 : Fin 1) j)) (acc.2.1 (ix2 (0 : Fin 1) j)) (acc.2.2.1 (ix2 v j)))
    (h2 : Inv (sR j) (fun k => vR v k * vR v k) (seen n.val) (acc.1 (ix2 (0 : Fin 1) j)) (acc.2.1 (ix2 (0 : Fin 1) j))
      (acc.2.2.2 (ix2 v j))) :
    Inv (sR j) (vR v) (seen (n.val + 1)) ((stepF x0 x1 x2 x3 x4 n acc).1 (ix2 (0 : Fin 1) j))
        ((stepF x0 x1 x2 x3 x4 n acc).2.1 (ix2 (0 : Fin 1) j)) ((stepF x0 x1 x2 x3 x4 n acc).2.2.1 (ix2 v j))
    ∧ Inv (sR j) (fun k => vR v k * vR v k) (seen (n.val + 1)) ((stepF x0 x1 x2 x3 x4 n acc).1 (ix2 (0 : Fin 1) j))
        ((stepF x0 x1 x2 x3 x4 n acc).2.1 (ix2 (0 : Fin 1) j)) ((stepF x0 x1 x2 x3 x4 n acc).2.2.2 (ix2 v j)) := by
  have g1 := Cert.Attn.Online.step (sR j) (vR v) n _ _ _ h1
  have g2 := Cert.Attn.Online.step (sR j) (fun k => vR v k * vR v k) n _ _ _ h2
  have em : (stepF x0 x1 x2 x3 x4 n acc).1 (ix2 (0 : Fin 1) j) = _ := trip_m x0 x1 x2 x3 sR acc.1 n hs j
  have el : (stepF x0 x1 x2 x3 x4 n acc).2.1 (ix2 (0 : Fin 1) j) = _ := trip_l x0 x1 x2 x3 sR acc.1 acc.2.1 n hs j
  have ea : (stepF x0 x1 x2 x3 x4 n acc).2.2.1 (ix2 v j) = _ := trip_a x0 x1 x2 x3 x4 sR vR acc.1 acc.2.2.1 n hs hv v j
  have ea2 : (stepF x0 x1 x2 x3 x4 n acc).2.2.2 (ix2 v j) = _ := trip_a2 x0 x1 x2 x3 x4 sR vR acc.1 acc.2.2.2 n hs hv v j
  rw [em, el, ea, ea2]
  exact ⟨g1, g2⟩

/-! ## The loop -/

variable (hs : ∀ (j : Fin 512) (k : Fin 4096), scF x0 x1 x2 x3 k j = ((sR j k : ℝ) : EReal))
  (hv : ∀ (v : Fin 512) (k : Fin 4096), x4 (ix3 (0 : Fin 1) v k) = ((vR v k : ℝ) : EReal))
include hs hv

/-- Before trip n the state at column j (and channel v) is the streaming softmax's state over the keys below
    512 n, for the values of channel v and for their squares. -/
theorem loop_inv (n : ℕ) (hn : n ≤ 8) (v j : Fin 512) :
    Inv (sR j) (vR v) (seen n) ((stF x0 x1 x2 x3 x4 n).1 (ix2 (0 : Fin 1) j)) ((stF x0 x1 x2 x3 x4 n).2.1 (ix2 (0 : Fin 1) j)) ((stF x0 x1 x2 x3 x4 n).2.2.1 (ix2 v j))
    ∧ Inv (sR j) (fun k => vR v k * vR v k) (seen n) ((stF x0 x1 x2 x3 x4 n).1 (ix2 (0 : Fin 1) j)) ((stF x0 x1 x2 x3 x4 n).2.1 (ix2 (0 : Fin 1) j)) ((stF x0 x1 x2 x3 x4 n).2.2.2 (ix2 v j)) := by
  induction n with
  | zero => exact ⟨Cert.Attn.Online.start _ _, Cert.Attn.Online.start _ _⟩
  | succ n ih =>
    have hn' : n < 8 := hn
    obtain ⟨ih1, ih2⟩ := ih (Nat.le_of_lt hn')
    have hst : stF x0 x1 x2 x3 x4 (n + 1) = stepF x0 x1 x2 x3 x4 ⟨n, hn'⟩ (stF x0 x1 x2 x3 x4 n) :=
      stF_succ x0 x1 x2 x3 x4 ⟨n, hn'⟩
    rw [hst]
    exact stepF_inv x0 x1 x2 x3 x4 sR vR hs hv ⟨n, hn'⟩ (stF x0 x1 x2 x3 x4 n) v j ih1 ih2

/-- The kernel's weighted mean after the loop is the one-pass softmax-weighted sum. -/
theorem final_avg (v j : Fin 512) :
    k0_pay16 (F := Ideal) (stF x0 x1 x2 x3 x4 8).2.1 (stF x0 x1 x2 x3 x4 8).2.2.1 (ix2 v j)
      = ∑ k : Fin 4096, Ideal.div (Ideal.exp (((sR j k : ℝ) : EReal) - max Cert.Attn.negInfW (Finset.univ.fold max Cert.Attn.negInfW (fun k : Fin 4096 => ((sR j k : ℝ) : EReal)))))
            (Cert.Attn.zeroW + ∑ k' : Fin 4096, Ideal.exp (((sR j k' : ℝ) : EReal) - max Cert.Attn.negInfW (Finset.univ.fold max Cert.Attn.negInfW (fun k : Fin 4096 => ((sR j k : ℝ) : EReal)))))
          * ((vR v k : ℝ) : EReal) := by
  rw [pay16_apply, pay15_apply]
  exact Cert.Attn.Online.finish (sR j) (vR v) _ _ _ (loop_inv x0 x1 x2 x3 x4 sR vR hs hv 8 le_rfl v j).1

/-- And the weighted mean of the squares. -/
theorem final_avg2 (v j : Fin 512) :
    (stF x0 x1 x2 x3 x4 8).2.2.2 (ix2 v j) * k0_pay15 (F := Ideal) (stF x0 x1 x2 x3 x4 8).2.1 (ix2 (0 : Fin 1) j)
      = ∑ k : Fin 4096, Ideal.div (Ideal.exp (((sR j k : ℝ) : EReal) - max Cert.Attn.negInfW (Finset.univ.fold max Cert.Attn.negInfW (fun k : Fin 4096 => ((sR j k : ℝ) : EReal)))))
            (Cert.Attn.zeroW + ∑ k' : Fin 4096, Ideal.exp (((sR j k' : ℝ) : EReal) - max Cert.Attn.negInfW (Finset.univ.fold max Cert.Attn.negInfW (fun k : Fin 4096 => ((sR j k : ℝ) : EReal)))))
          * (((vR v k : ℝ) : EReal) * ((vR v k : ℝ) : EReal)) := by
  rw [pay15_apply]
  refine (Cert.Attn.Online.finish (sR j) (fun k => vR v k * vR v k) _ _ _
    (loop_inv x0 x1 x2 x3 x4 sR vR hs hv 8 le_rfl v j).2).trans ?_
  exact Finset.sum_congr rfl fun k _ => by rw [EReal.coe_mul]

end Cert.KernelIdeal.Body

end
-- ==== Proof.KerBlockSpec.lean ====
/-
  The block the kernel body stores, in the specification's terms. At batch b and query tile qi the staged blocks
  hold: the raw queries of the tile's 512 positions, their channels' mean and inverse deviation, the normalised
  keys and the values of all 4096 positions, and the raw content of the tile's positions with its channels' mean
  and inverse deviation. The scores the loop forms are then the specification's scores (the two factors of each
  product commuted), real numbers because the arrays are; so the loop's final quotients are the specification's
  softmax-weighted mean and mean of squares, and the stored entry of channel v, column j is the specification's
  result at position 512 qi + j.
-/
import proofs.«125215_j25984552141369_2_alg».proof.Proof.KerLoop
import proofs.«125215_j25984552141369_2_alg».proof.Proof.SpecReal

noncomputable section

namespace Cert.KernelIdeal.Body

open Idealize.ShloMosaic Idealize.ShloMosaic.ValueIdx Cert.KernelIdeal Cert.KernelIdeal.Gen
open Cert.Attn

theorem block_spec (hred : SX.ReducesTo [2, 3] SBC) (cx sx c1x s1x : SX.Idx → EReal) (b : Fin 4) (qi : Fin 8)
    (x0 : FVec Ideal S1x512x512 .f32) (x1 x2 : FVec Ideal S1x512x1 .f32) (x3 x4 : FVec Ideal S1x512x4096 .bf16)
    (x5 : FVec Ideal S1x512x512 .f32) (x6 x7 : FVec Ideal S1x512x1 .f32)
    (h0 : ∀ ch j : Fin 512, x0 (ix3 (0 : Fin 1) ch j) = c1x (ix4 b ch (hh (Online.key qi j)) (ww (Online.key qi j))))
    (h1 : ∀ (ch : Fin 512) (z : Fin 1), x1 (ix3 (0 : Fin 1) ch z) = mean hred c1x b ch)
    (h2 : ∀ (ch : Fin 512) (z : Fin 1), x2 (ix3 (0 : Fin 1) ch z) = istd hred c1x b ch)
    (h3 : ∀ (ch : Fin 512) (p : Fin 4096), x3 (ix3 (0 : Fin 1) ch p) = Cert.Attn.key hred s1x b ch p)
    (h4 : ∀ (ch : Fin 512) (p : Fin 4096), x4 (ix3 (0 : Fin 1) ch p) = val sx b ch p)
    (h5 : ∀ ch j : Fin 512, x5 (ix3 (0 : Fin 1) ch j) = cx (ix4 b ch (hh (Online.key qi j)) (ww (Online.key qi j))))
    (h6 : ∀ (ch : Fin 512) (z : Fin 1), x6 (ix3 (0 : Fin 1) ch z) = mean hred cx b ch)
    (h7 : ∀ (ch : Fin 512) (z : Fin 1), x7 (ix3 (0 : Fin 1) ch z) = istd hred cx b ch)
    (hq : IsReal c1x) (hk : IsReal s1x) (hvv : IsReal sx) (u : Fin 1) (v j : Fin 512) :
    k0_pay1 (F := Ideal)
        (k0_pay16 (F := Ideal) (stF x0 x1 x2 x3 x4 8).2.1 (stF x0 x1 x2 x3 x4 8).2.2.1)
        (k0_pay17 (F := Ideal) (stF x0 x1 x2 x3 x4 8).2.1 (stF x0 x1 x2 x3 x4 8).2.2.1 (stF x0 x1 x2 x3 x4 8).2.2.2)
        (k0_pay18 (F := Ideal) x5) (k0_pay19 (F := Ideal) x6) x7 (ix3 u v j)
      = out hred cx sx c1x s1x b v (hh (Online.key qi j)) (ww (Online.key qi j)) := by
  -- the real numbers behind the scores of each column and behind the values
  choose sR hsR using fun (j : Fin 512) (k : Fin 4096) => score_real hred hq hk b (Online.key qi j) k
  choose vR hvR using fun (v : Fin 512) (k : Fin 4096) => val_real hvv b v k
  -- the loop's scores are the specification's
  have hs : ∀ (j : Fin 512) (k : Fin 4096), scF x0 x1 x2 x3 k j = ((sR j k : ℝ) : EReal) := by
    intro j k
    rw [← hsR j k]
    unfold scF score
    refine Finset.sum_congr rfl fun c _ => ?_
    unfold qn qry nrm
    rw [h3, h0, h1, h2, mul_comm]
  have hv : ∀ (v : Fin 512) (k : Fin 4096), x4 (ix3 (0 : Fin 1) v k) = ((vR v k : ℝ) : EReal) := by
    intro v k; rw [h4, hvR]
  -- the loop's two final quotients are the specification's weighted mean and weighted mean of squares
  have eavg : k0_pay16 (F := Ideal) (stF x0 x1 x2 x3 x4 8).2.1 (stF x0 x1 x2 x3 x4 8).2.2.1 (ix2 v j)
      = avg hred sx c1x s1x b (Online.key qi j) v := by
    rw [final_avg x0 x1 x2 x3 x4 sR vR hs hv v j]
    unfold avg wgt den pexp mx
    simp only [hsR, hvR]
  have eavg2 : (stF x0 x1 x2 x3 x4 8).2.2.2 (ix2 v j) * k0_pay15 (F := Ideal) (stF x0 x1 x2 x3 x4 8).2.1 (ix2 (0 : Fin 1) j)
      = avg2 hred sx c1x s1x b (Online.key qi j) v := by
    rw [final_avg2 x0 x1 x2 x3 x4 sR vR hs hv v j]
    unfold avg2 wgt den pexp mx
    simp only [hsR, hvR]
  rw [pay1_apply, pay17_apply, eavg2, eavg, pay18_apply, pay19_apply, h5, h6, h7]
  unfold out dev nrm
  rw [pos_hh_ww, max_comm]
  rfl

end Cert.KernelIdeal.Body

end
-- ==== Proof.KerPoint.lean ====
/-
  What grid point t leaves in the output block, in the specification's terms: the point's eight input blocks are
  the region-entry arrays read through their windows, which the host side computed as the specification's
  functions of the argument arrays; so the stored entry of channel v, column j is the specification's result at
  batch b, channel v and flat position 512 qi + j, where (b, qi) are the point's coordinates.
-/
import proofs.«125215_j25984552141369_2_alg».proof.Proof.KerBlocks
import proofs.«125215_j25984552141369_2_alg».proof.Proof.KerRun
import proofs.«125215_j25984552141369_2_alg».proof.Proof.KerBlockSpec

set_option maxRecDepth 16384

noncomputable section

namespace Cert.KernelIdeal.Body

open Idealize.ShloMosaic Idealize.ShloMosaic.ValueIdx Idealize.ShloMosaic.TcCoe
open Cert.KernelIdeal Cert.KernelIdeal.Gen Cert.KernelIdeal.HostVal Cert.Attn

variable (m : (ℓ : Loc nD τ sig) → Buf (Elt Ideal) ℓ) (c : Dev nD)

theorem outsAt0_spec (hr1 : IsReal (A1 m c)) (hr2 : IsReal (A2 m c)) (hr3 : IsReal (A3 m c))
    (t : Fin cfg0.N) (v j : Fin 512) :
    (outsAt0 m c t : S1x512x512.Idx → EReal) (ix3 (0 : Fin 1) v j)
      = out (Facts₀.reducesTo_S4x512x64x64_S4x512_d2_3 : SX.ReducesTo [2, 3] SBC) (A0 m c) (A1 m c) (A2 m c) (A3 m c)
          (bOf t) v (hh (qpos (qiOf t) j)) (ww (qpos (qiOf t) j)) := by
  unfold outsAt0
  rw [out_eq]
  exact block_spec (Facts₀.reducesTo_S4x512x64x64_S4x512_d2_3 : SX.ReducesTo [2, 3] SBC)
    (A0 m c) (A1 m c) (A2 m c) (A3 m c) (bOf t) (qiOf t)
    (iblk m c 0 t) (iblk m c 1 t) (iblk m c 2 t) (iblk m c 3 t) (iblk m c 4 t) (iblk m c 5 t) (iblk m c 6 t) (iblk m c 7 t)
    (fun ch j => iblk0_spec m c t ch j) (fun ch z => iblk1_spec m c t ch z) (fun ch z => iblk2_spec m c t ch z)
    (fun ch p => iblk3_spec m c t ch p) (fun ch p => iblk4_spec m c t ch p) (fun ch j => iblk5_spec m c t ch j)
    (fun ch z => iblk6_spec m c t ch z) (fun ch z => iblk7_spec m c t ch z)
    hr2 hr3 hr1 (0 : Fin 1) v j

end Cert.KernelIdeal.Body

end
-- ==== Proof.RefVal.lean ====
/-
  The reference's computation as named functions of arrays, for any float values: the spatial mean and variance on the
  per-(batch, channel) shape [4, 512, 1, 1], the instance normalisation, the flattening of the two spatial axes into
  one, the scores, the softmax weights, the weighted mean and mean of squares, the floored deviation, and the result.
  Each is the composition of the program's own operations, in the program's order and with its shape facts.
-/
import proofs.«125215_j25984552141369_2_alg».proof.Proof.Gen.ReferenceIdeal
import Idealize.ShloMosaic.PureOps

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

/-- The spatial mean on [4, 512, 1, 1]: the sum over the two spatial axes from the zero word, broadcast, divided by the
    broadcast word of 4096. -/
def meanOf (x : FVec F S4x512x64x64 .f32) : FVec F S4x512x1x1 .f32 :=
  Host.divf
    (broadcastInDim S4x512x1x1 ![0, 1] bcast_S4x512_S4x512x1x1_0_1
      (Host.reduceAdd x (constant S_ .f32 0x00000000#32) reducesTo_S4x512x64x64_S4x512_d2_3 h_S_))
    (broadcastInDim S4x512x1x1 ![] bcast_S_S4x512x1x1 (constant S_ .f32 0x45800000#32))

/-- The count the variance divides by: the word of 4096 minus the correction, converted. -/
def cntOf (ci : IVec S_ 32) : FVec F S_ .f32 :=
  subf (constant S_ .f32 0x45800000#32) (sitofp .f32 ci)

/-- The deviation from the spatial mean. -/
def devOf (x : FVec F S4x512x64x64 .f32) : FVec F S4x512x64x64 .f32 :=
  subf x (broadcastInDim S4x512x64x64 ![0, 1, 2, 3] bcast_S4x512x1x1_S4x512x64x64_0_1_2_3 (meanOf x))

/-- The spatial variance on [4, 512, 1, 1] with correction `ci`, guarded by a positive count (the variance call). -/
def varOf (x : FVec F S4x512x64x64 .f32) (ci : IVec S_ 32) : FVec F S4x512x1x1 .f32 :=
  select
    (broadcastInDim S4x512x1x1 ![] bcast_S_S4x512x1x1 (cmpf .ogt (cntOf (F := F) ci) (constant S_ .f32 0x00000000#32)))
    (Host.divf
      (broadcastInDim S4x512x1x1 ![0, 1] bcast_S4x512_S4x512x1x1_0_1
        (Host.reduceAdd (mulf (devOf x) (devOf x)) (constant S_ .f32 0x00000000#32) reducesTo_S4x512x64x64_S4x512_d2_3 h_S_))
      (broadcastInDim S4x512x1x1 ![] bcast_S_S4x512x1x1 (cntOf ci)))
    (broadcastInDim S4x512x1x1 ![] bcast_S_S4x512x1x1 (id (constant S_ .f32 0x7FC00000#32)))

/-- An array normalised by a given mean and variance on [4, 512, 1, 1]: the deviation from the mean times the
    reciprocal square root of the variance plus the word of 1e-5. -/
def nrmOf (x : FVec F S4x512x64x64 .f32) (mu va : FVec F S4x512x1x1 .f32) : FVec F S4x512x64x64 .f32 :=
  mulf (subf x (broadcastInDim S4x512x64x64 ![0, 1, 2, 3] bcast_S4x512x1x1_S4x512x64x64_0_1_2_3 mu))
    (broadcastInDim S4x512x64x64 ![0, 1, 2, 3] bcast_S4x512x1x1_S4x512x64x64_0_1_2_3
      (Host.rsqrt (addf va (broadcastInDim S4x512x1x1 ![] bcast_S_S4x512x1x1 (constant S_ .f32 0x3727C5AC#32)))))

/-- The instance normalisation of an array: by its own mean and its own variance at correction zero. -/
def nrmB (x : FVec F S4x512x64x64 .f32) : FVec F S4x512x64x64 .f32 :=
  nrmOf x (meanOf x) (varOf x (constantI S_ 32 0#32))

/-- The two spatial axes flattened into one. -/
def flat (x : FVec F S4x512x64x64 .f32) : FVec F S4x512x4096 .f32 :=
  shapeCast S4x512x4096 x shapeCasts_S4x512x64x64_S4x512x4096

/-- Flattened, positions before channels. -/
def flatT (x : FVec F S4x512x64x64 .f32) : FVec F S4x4096x512 .f32 :=
  transpose S4x4096x512 [0, 2, 1] (flat x) transposes_S4x512x4096_S4x4096x512_0_2_1

/-- The scores: queries (positions by channels) against keys (channels by positions). -/
def scoreOf (q : FVec F S4x4096x512 .f32) (k : FVec F S4x512x4096 .f32) : FVec F S4x4096x4096 .f32 :=
  Host.dotGeneral dot_S4x4096x512_S4x512x4096_S4x4096x4096_2_1_1_2_0_0 none q k

/-- The row maximum of the scores: the maximum over the key axis from -∞, once more against -∞. -/
def mxOf (s : FVec F S4x4096x4096 .f32) : FVec F S4x4096 .f32 :=
  maximumf (broadcastInDim S4x4096 ![] bcast_S_S4x4096 (constant S_ .f32 0xFF800000#32))
    (Host.reduce FloatOps.maximumf s (constant S_ .f32 0xFF800000#32) reducesTo_S4x4096x4096_S4x4096_d2 h_S_)

/-- A per-row value spread back over the key axis. -/
def spread (r : FVec F S4x4096 .f32) : FVec F S4x4096x4096 .f32 :=
  broadcastInDim S4x4096x4096 ![0, 1, 2] bcast_S4x4096x1_S4x4096x4096_0_1_2
    (broadcastInDim S4x4096x1 ![0, 1] bcast_S4x4096_S4x4096x1_0_1 r)

/-- The exponentials of the scores less their row maximum. -/
def pexpOf (s : FVec F S4x4096x4096 .f32) : FVec F S4x4096x4096 .f32 :=
  Host.exp (subf s (spread (mxOf s)))

/-- The softmax weights: the exponentials over their row sum (from the zero word). -/
def wgtOf (s : FVec F S4x4096x4096 .f32) : FVec F S4x4096x4096 .f32 :=
  Host.divf (pexpOf s)
    (spread (Host.reduceAdd (pexpOf s) (constant S_ .f32 0x00000000#32) reducesTo_S4x4096x4096_S4x4096_d2 h_S_))

/-- The weighted sum of values (positions by channels) under weights. -/
def avgOf (w : FVec F S4x4096x4096 .f32) (v : FVec F S4x4096x512 .f32) : FVec F S4x4096x512 .f32 :=
  Host.dotGeneral dot_S4x4096x4096_S4x4096x512_S4x4096x512_2_1_1_2_0_0 none w v

/-- The weighted variance: the weighted sum of squares less the square of the weighted sum. -/
def wvarOf (w : FVec F S4x4096x4096 .f32) (v : FVec F S4x4096x512 .f32) : FVec F S4x4096x512 .f32 :=
  subf (avgOf w (mulf v v)) (mulf (avgOf w v) (avgOf w v))

/-- The floor: the maximum with the broadcast floor word. -/
def clipOf (y : FVec F S4x4096x512 .f32) (lo : FVec F S_ .f32) : FVec F S4x4096x512 .f32 :=
  maximumf (broadcastInDim S4x4096x512 ![] bcast_S_S4x4096x512 (id lo)) y

/-- Positions by channels back to the arguments' layout. -/
def unflatT (y : FVec F S4x4096x512 .f32) : FVec F S4x512x64x64 .f32 :=
  transpose S4x512x64x64 [0, 3, 1, 2] (shapeCast S4x64x64x512 y shapeCasts_S4x4096x512_S4x64x64x512)
    transposes_S4x64x64x512_S4x512x64x64_0_3_1_2

/-- The softmax weights of the normalised third argument against the normalised fourth. -/
def wgtB (c1x s1x : FVec F S4x512x64x64 .f32) : FVec F S4x4096x4096 .f32 :=
  wgtOf (scoreOf (flatT (nrmB c1x)) (flat (nrmB s1x)))

/-- The whole computation: the normalised first argument scaled by the weighted deviation of the second argument's
    values (floored at the word of 1e-6 under the square root) and shifted by their weighted mean. -/
def outOf (cx sx c1x s1x : FVec F S4x512x64x64 .f32) : FVec F S4x512x64x64 .f32 :=
  addf
    (mulf (unflatT (Host.sqrt (clipOf (wvarOf (wgtB c1x s1x) (flatT sx)) (constant S_ .f32 0x358637BD#32)))) (nrmB cx))
    (unflatT (avgOf (wgtB c1x s1x) (flatT sx)))

end Cert.ReferenceIdeal.RefValue

end
-- ==== Proof.RefReadLib.lean ====
/-
  The reference's layout operations and pointwise operations read at an index with literal coordinates: the broadcasts
  from and to the per-(batch, channel) shape, the flattening of the two spatial axes (a flat position p is row p / 64,
  column p % 64), the transposes, the per-row spread, and the host's pointwise operations at the exact instance.
-/
import proofs.«125215_j25984552141369_2_alg».proof.Proof.RefVal
import proofs.«125215_j25984552141369_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.ReferenceIdeal.RefValue

open Cert.ReferenceIdeal Idealize.ShloMosaic Idealize.ShloMosaic.ValueIdx
open Facts₀

open Cert.Attn (hh ww pos)

section Layout
variable {α : Type}

/-- [4, 512] broadcast to [4, 512, 1, 1], read at (b, c, ·, ·): the operand at (b, c). -/
theorem bc2_apply (r : S4x512.Idx → α) (b : Fin 4) (c : Fin 512) (h0 w0 : Fin 1) :
    broadcastInDim S4x512x1x1 ![0, 1] bcast_S4x512_S4x512x1x1_0_1 r (ix4 b c h0 w0) = r (ix2 b c) :=
  broadcastInDim_apply _ _ r _ _ fun a => match a with | ⟨0, _⟩ => rfl | ⟨1, _⟩ => rfl

/-- A scalar broadcast to [4, 512, 1, 1]: the scalar. -/
theorem bc0_apply (r : S_.Idx → α) (i : S4x512x1x1.Idx) :
    broadcastInDim S4x512x1x1 ![] bcast_S_S4x512x1x1 r i = r ix0 :=
  broadcastInDim_apply _ _ r _ _ fun a => a.elim0

/-- [4, 512, 1, 1] broadcast to the arguments' shape, read at (b, c, h, w): the operand at (b, c, 0, 0). -/
theorem bc4_apply (r : S4x512x1x1.Idx → α) (b : Fin 4) (c : Fin 512) (h w : Fin 64) :
    broadcastInDim S4x512x64x64 ![0, 1, 2, 3] bcast_S4x512x1x1_S4x512x64x64_0_1_2_3 r (ix4 b c h w)
      = r (ix4 b c (0 : Fin 1) (0 : Fin 1)) :=
  broadcastInDim_apply _ _ r _ _ fun a => match a with | ⟨0, _⟩ => rfl | ⟨1, _⟩ => rfl | ⟨2, _⟩ => rfl | ⟨3, _⟩ => rfl

/-- The same at an index not yet split into coordinates. -/
theorem bc4_apply' (r : S4x512x1x1.Idx → α) (i : S4x512x64x64.Idx) :
    broadcastInDim S4x512x64x64 ![0, 1, 2, 3] bcast_S4x512x1x1_S4x512x64x64_0_1_2_3 r i
      = r (ix4 (i 0 : Fin 4) (i 1 : Fin 512) (0 : Fin 1) (0 : Fin 1)) :=
  broadcastInDim_apply _ _ r _ _ fun a => match a with | ⟨0, _⟩ => rfl | ⟨1, _⟩ => rfl | ⟨2, _⟩ => rfl | ⟨3, _⟩ => rfl

/-- A scalar broadcast to [4, 4096]: the scalar. -/
theorem bc0q_apply (r : S_.Idx → α) (i : S4x4096.Idx) :
    broadcastInDim S4x4096 ![] bcast_S_S4x4096 r i = r ix0 :=
  broadcastInDim_apply _ _ r _ _ fun a => a.elim0

/-- A scalar broadcast to [4, 4096, 512]: the scalar. -/
theorem bc0v_apply (r : S_.Idx → α) (i : S4x4096x512.Idx) :
    broadcastInDim S4x4096x512 ![] bcast_S_S4x4096x512 r i = r ix0 :=
  broadcastInDim_apply _ _ r _ _ fun a => a.elim0

/-- A per-row value [4, 4096] spread over the key axis, read at (b, q, k): the value at (b, q). -/
theorem spread_bc_apply (r : S4x4096.Idx → α) (b : Fin 4) (q k : Fin 4096) :
    broadcastInDim S4x4096x4096 ![0, 1, 2] bcast_S4x4096x1_S4x4096x4096_0_1_2
        (broadcastInDim S4x4096x1 ![0, 1] bcast_S4x4096_S4x4096x1_0_1 r) (ix3 b q k) = r (ix2 b q) :=
  (broadcastInDim_apply _ _ _ _ (ix3 b q (0 : Fin 1)) fun a => match a with | ⟨0, _⟩ => rfl | ⟨1, _⟩ => rfl | ⟨2, _⟩ => rfl).trans
    (broadcastInDim_apply _ _ r _ _ fun a => match a with | ⟨0, _⟩ => rfl | ⟨1, _⟩ => rfl)

/-- The two spatial axes flattened, read at (b, c, p): the operand at (b, c, p / 64, p % 64). -/
theorem shapeCast_flat_apply (y : S4x512x64x64.Idx → α) (b : Fin 4) (c : Fin 512) (p : Fin 4096) :
    shapeCast S4x512x4096 y shapeCasts_S4x512x64x64_S4x512x4096 (ix3 b c p) = y (ix4 b c (hh p) (ww p)) :=
  shapeCast_apply y _ _ _ (by
    rw [Shape.rowMajor_val_four, Shape.rowMajor_val_three]
    show ((b.val * 512 + c.val) * 64 + p.val / 64) * 64 + p.val % 64 = (b.val * 512 + c.val) * 4096 + p.val
    omega)

/-- Flattened and transposed, read at (b, p, c): the operand at (b, c, p / 64, p % 64). -/
theorem transpose_flat_apply (y : S4x512x64x64.Idx → α) (b : Fin 4) (p : Fin 4096) (c : Fin 512) :
    transpose S4x4096x512 [0, 2, 1] (shapeCast S4x512x4096 y shapeCasts_S4x512x64x64_S4x512x4096)
        transposes_S4x512x4096_S4x4096x512_0_2_1 (ix3 b p c) = y (ix4 b c (hh p) (ww p)) :=
  (transpose_ix3_021_apply _ _ b p c).trans (shapeCast_flat_apply y b c p)

/-- Positions by channels back to the arguments' layout, read at (b, v, h, w): the operand at (b, 64 h + w, v). -/
theorem unflat_apply (y : S4x4096x512.Idx → α) (b : Fin 4) (v : Fin 512) (h w : Fin 64) :
    transpose S4x512x64x64 [0, 3, 1, 2] (shapeCast S4x64x64x512 y shapeCasts_S4x4096x512_S4x64x64x512)
        transposes_S4x64x64x512_S4x512x64x64_0_3_1_2 (ix4 b v h w) = y (ix3 b (pos h w) v) :=
  (transpose_apply _ _ _ _ (ix4 b h w v) fun a => match a with
    | ⟨0, _⟩ => rfl | ⟨1, _⟩ => rfl | ⟨2, _⟩ => rfl | ⟨3, _⟩ => rfl).trans
    (shapeCast_apply y _ _ _ (by
      rw [Shape.rowMajor_val_three, Shape.rowMajor_val_four]
      show (b.val * 4096 + (64 * h.val + w.val)) * 512 + v.val = ((b.val * 64 + h.val) * 64 + w.val) * 512 + v.val
      omega))

end Layout

section Pointwise
variable {s : Shape}

/-- The host's pointwise operations at the exact instance, at an index. -/
theorem hdivf_apply (a b : FVec Ideal s .f32) (i : s.Idx) : Host.divf a b i = Ideal.div (a i) (b i) := rfl
theorem hrsqrt_apply (a : FVec Ideal s .f32) (i : s.Idx) : Host.rsqrt a i = Ideal.rsqrt (a i) := rfl
theorem hsqrt_apply (a : FVec Ideal s .f32) (i : s.Idx) : Host.sqrt a i = Ideal.sqrt (a i) := rfl
theorem hexp_apply (a : FVec Ideal s .f32) (i : s.Idx) : Host.exp a i = Ideal.exp (a i) := rfl

end Pointwise

/-- The named layout functions at an index. -/
theorem flat_apply (y : FVec Ideal S4x512x64x64 .f32) (b : Fin 4) (c : Fin 512) (p : Fin 4096) :
    flat y (ix3 b c p) = y (ix4 b c (hh p) (ww p)) := shapeCast_flat_apply y b c p

theorem flatT_apply (y : FVec Ideal S4x512x64x64 .f32) (b : Fin 4) (p : Fin 4096) (c : Fin 512) :
    flatT y (ix3 b p c) = y (ix4 b c (hh p) (ww p)) := transpose_flat_apply y b p c

theorem unflatT_apply (y : FVec Ideal S4x4096x512 .f32) (b : Fin 4) (v : Fin 512) (h w : Fin 64) :
    unflatT y (ix4 b v h w) = y (ix3 b (pos h w) v) := unflat_apply y b v h w

theorem spread_apply (r : FVec Ideal S4x4096 .f32) (b : Fin 4) (q k : Fin 4096) :
    spread r (ix3 b q k) = r (ix2 b q) := spread_bc_apply r b q k

end Cert.ReferenceIdeal.RefValue

end
-- ==== Proof.RefReadNrm.lean ====
/-
  The instance normalisation read at an index. The spatial mean and variance live on [4, 512, 1, 1]; read at
  (b, c, 0, 0) they are the specification's mean and variance of (b, c), and the normalised array at (b, c, h, w) is
  the specification's `nrm`. One chain, generic in the array, used for each of the three normalised arguments.
-/
import proofs.«125215_j25984552141369_2_alg».proof.Proof.RefReadLib

noncomputable section

namespace Cert.ReferenceIdeal.RefValue

open Cert.ReferenceIdeal Idealize.ShloMosaic Idealize.ShloMosaic.ValueIdx
open Facts₀

open Cert.Attn (hh ww pos)

/-- The shape fact of the sums over the two spatial axes, as the program states it. -/
abbrev hred : S4x512x64x64.ReducesTo [2, 3] S4x512 := reducesTo_S4x512x64x64_S4x512_d2_3

/-- The host's sum over the two spatial axes from the zero word, at (b, c): the specification's sum. -/
theorem ssum_apply (x : FVec Ideal S4x512x64x64 .f32) (b : Fin 4) (c : Fin 512) :
    Host.reduceAdd x (constant S_ .f32 0x00000000#32) reducesTo_S4x512x64x64_S4x512_d2_3 h_S_ (ix2 b c)
      = Cert.Attn.ssum hred x b c := rfl

/-- The mean on [4, 512, 1, 1] at (b, c, ·, ·): the specification's mean. -/
theorem meanOf_apply (x : FVec Ideal S4x512x64x64 .f32) (b : Fin 4) (c : Fin 512) (h0 w0 : Fin 1) :
    meanOf x (ix4 b c h0 w0) = Cert.Attn.mean hred x b c := by
  unfold meanOf
  rw [hdivf_apply, bc2_apply, bc0_apply, ssum_apply]
  rfl

/-- The deviation from the mean at an index. -/
theorem devOf_apply (x : FVec Ideal S4x512x64x64 .f32) (i : S4x512x64x64.Idx) :
    devOf x i = x i - Cert.Attn.mean hred x (i 0) (i 1) := by
  unfold devOf
  rw [subf_apply, bc4_apply']
  exact congrArg (fun t => x i - t) (meanOf_apply x (i 0) (i 1) 0 0)

/-- The squared deviation is the specification's. -/
theorem sqdev_eq (x : FVec Ideal S4x512x64x64 .f32) :
    mulf (devOf x) (devOf x) = Cert.Attn.sqdev hred x := by
  funext i
  rw [mulf_apply, devOf_apply]
  rfl

/-- The count at the zero correction is the specification's. -/
theorem cntOf_apply : cntOf (F := Ideal) (constantI S_ 32 0#32) ix0 = Cert.Attn.cnt := rfl

/-- The variance on [4, 512, 1, 1] at the zero correction, at (b, c, ·, ·): the specification's variance. -/
theorem varOf_apply (x : FVec Ideal S4x512x64x64 .f32) (b : Fin 4) (c : Fin 512) (h0 w0 : Fin 1) :
    varOf x (constantI S_ 32 0#32) (ix4 b c h0 w0) = Cert.Attn.var hred x b c := by
  unfold varOf
  rw [select_apply, bc0_apply, hdivf_apply, bc2_apply, bc0_apply, bc0_apply, sqdev_eq, ssum_apply, cmpf_apply, cntOf_apply]
  rfl

/-- An array normalised by a mean and variance on [4, 512, 1, 1], at (b, c, h, w). -/
theorem nrmOf_apply (x : FVec Ideal S4x512x64x64 .f32) (mu va : FVec Ideal S4x512x1x1 .f32) (b : Fin 4) (c : Fin 512)
    (h w : Fin 64) :
    nrmOf x mu va (ix4 b c h w)
      = (x (ix4 b c h w) - mu (ix4 b c (0 : Fin 1) (0 : Fin 1)))
          * Ideal.rsqrt (va (ix4 b c (0 : Fin 1) (0 : Fin 1)) + Cert.Attn.eps5) := by
  unfold nrmOf
  rw [mulf_apply, subf_apply, bc4_apply, bc4_apply, hrsqrt_apply, addf_apply, bc0_apply]
  rfl

/-- The instance normalisation at (b, c, h, w): the specification's. -/
theorem nrmB_apply (x : FVec Ideal S4x512x64x64 .f32) (b : Fin 4) (c : Fin 512) (h w : Fin 64) :
    nrmB x (ix4 b c h w) = Cert.Attn.nrm hred x b c h w := by
  unfold nrmB
  rw [nrmOf_apply, meanOf_apply, varOf_apply]
  rfl

end Cert.ReferenceIdeal.RefValue

end
-- ==== Proof.RefReadAttn.lean ====
/-
  The attention stage of the reference read at an index, at the exact instance: a score is the sum over the 512
  channels of the products of a query entry and a key entry; the row maximum is the running maximum over the 4096
  keys from -∞, once more against -∞; an exponential is that of the score less its row maximum; a softmax weight
  is the exponential over the row sum of exponentials (from the zero word); and a weighted sum of values is the sum
  over the 4096 keys of weight times value.
-/
import proofs.«125215_j25984552141369_2_alg».proof.Proof.RefVal
import proofs.«125215_j25984552141369_2_alg».proof.Proof.RefReadLib
import proofs.«125215_j25984552141369_2_alg».proof.Proof.Spec
import Idealize.ShloMosaic.Lib.StackMember
import Idealize.ShloMosaic.Lib.IdealHost
import Idealize.ShloMosaic.PureOps.Ideal.Laws

noncomputable section

namespace Cert.ReferenceIdeal.RefValue

open Cert.ReferenceIdeal Idealize.ShloMosaic Idealize.ShloMosaic.ValueIdx
open Facts₀

/-- The key axis of [4, 4096, 4096] reduces to [4, 4096]. -/
theorem reduces_key : S4x4096x4096.Reduces [2] S4x4096 := by decide

/-- The row index (b, q) with the key coordinate put back is (b, q, k). -/
theorem lift_key (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  fin_cases c <;> rfl

/-- A score is the sum over the channels of query entry times key entry. -/
theorem scoreOf_apply (Q : FVec Ideal S4x4096x512 .f32) (K : FVec Ideal S4x512x4096 .f32) (b : Fin 4) (q k : Fin 4096) :
    scoreOf Q K (ix3 b q k) = ∑ c : Fin 512, Q (ix3 b q c) * K (ix3 b c k) := by
  unfold scoreOf
  exact Idealize.ShloMosaic.StackMember.dotGeneral_stack_apply
    dot_S4x4096x512_S4x512x4096_S4x4096x4096_2_1_1_2_0_0_wf none Q K b q k

/-- The row maximum: the running maximum over the keys from -∞, once more against -∞. -/
theorem mxOf_apply (S : FVec Ideal S4x4096x4096 .f32) (b : Fin 4) (q : Fin 4096) :
    mxOf S (ix2 b q)
      = max Cert.Attn.negInfW ((Finset.univ : Finset (Fin 4096)).fold max Cert.Attn.negInfW (fun k => S (ix3 b q k))) := by
  unfold mxOf
  rw [maximumf_apply, bc0q_apply]
  refine congrArg₂ (fun (a b : EReal) => max a b) rfl ?_
  refine (Host.reduce_eq_fold_single FloatOps.maximumf S _ reducesTo_S4x4096x4096_S4x4096_d2 reduces_key h_S_
    (ix2 b q)).trans ?_
  have hf : (S ∘ reduces_key.lift (ix2 b q)) = fun k : Fin 4096 => S (ix3 b q k) :=
    funext fun k => congrArg S (lift_key _ b q k)
  exact congrArg (fun f => Finset.fold max Cert.Attn.negInfW f (Finset.univ : Finset (Fin 4096))) hf

/-- An exponential: of the score less its row maximum. -/
theorem pexpOf_apply (S : FVec Ideal S4x4096x4096 .f32) (b : Fin 4) (q k : Fin 4096) :
    pexpOf S (ix3 b q k) = Ideal.exp (S (ix3 b q k) - mxOf S (ix2 b q)) := by
  unfold pexpOf
  rw [hexp_apply, subf_apply, spread_apply]

/-- A softmax weight: the exponential over the row sum of exponentials, the sum started from the zero word. -/
theorem wgtOf_apply (S : FVec Ideal S4x4096x4096 .f32) (b : Fin 4) (q k : Fin 4096) :
    wgtOf S (ix3 b q k)
      = Ideal.div (pexpOf S (ix3 b q k)) (Cert.Attn.zeroW + ∑ k' : Fin 4096, pexpOf S (ix3 b q k')) := by
  unfold wgtOf
  rw [hdivf_apply, spread_apply, hostReduceAdd_apply]
  refine congrArg (Ideal.div _) ?_
  refine (Ideal.hostReduceAdd_single reducesTo_S4x4096x4096_S4x4096_d2 reduces_key _ _ (ix2 b q)).trans ?_
  refine congrArg₂ (fun (a b : EReal) => a + b) rfl ?_
  exact Finset.sum_congr rfl fun k' _ => congrArg (pexpOf S) (lift_key _ b q k')

/-- A weighted sum of values: the sum over the keys of weight times value. -/
theorem avgOf_apply (W : FVec Ideal S4x4096x4096 .f32) (V : FVec Ideal S4x4096x512 .f32) (b : Fin 4) (q : Fin 4096)
    (v : Fin 512) : avgOf W V (ix3 b q v) = ∑ k : Fin 4096, W (ix3 b q k) * V (ix3 b k v) := by
  unfold avgOf
  exact Idealize.ShloMosaic.StackMember.dotGeneral_stack_apply
    dot_S4x4096x4096_S4x4096x512_S4x4096x512_2_1_1_2_0_0_wf none W V b q v

end Cert.ReferenceIdeal.RefValue

end
-- ==== Proof.RefOps.lean ====
/-
  The idealized reference's @main as lists of its host operations, one list per stretch: a stretch of @main's own
  lines, then the lines of a call (the callee's operations over that call's buffers, a call nested in it inlined),
  and so on; @main is the straight line of their concatenation, each operation touches TensorCore references only,
  and each determines its results.
-/
import proofs.«125215_j25984552141369_2_alg».proof.Proof.Gen.ReferenceIdeal
import Idealize.ShloMosaic.Lib.StableHlo.Run
import Idealize.ShloMosaic.Lib.Pipeline.Regions

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

/-- @main's lines before the first variance call: the spatial sum and mean of the third argument, and the zero correction. (7 operations) -/
def opsA0 : List (HloOp τ sig (Elt F)) :=
  [ StableHlo.nullary main_cst (constant S_ .f32 0x00000000#32),
    StableHlo.binary main_arg2 main_cst main_v0 ((fun x v => Host.reduceAdd x v reducesTo_S4x512x64x64_S4x512_d2_3 h_S_) : (⟨S4x512x64x64, .f32⟩ : BufTy).Contents (Elt F) → (⟨S_, .f32⟩ : BufTy).Contents (Elt F) → (⟨S4x512, .f32⟩ : BufTy).Contents (Elt F)),
    StableHlo.unary main_v0 main_v1 (broadcastInDim S4x512x1x1 ![0, 1] bcast_S4x512_S4x512x1x1_0_1 : (⟨S4x512, .f32⟩ : BufTy).Contents (Elt F) → (⟨S4x512x1x1, .f32⟩ : BufTy).Contents (Elt F)),
    StableHlo.nullary main_cst_0 (constant S_ .f32 0x45800000#32),
    StableHlo.unary main_cst_0 main_v2 (broadcastInDim S4x512x1x1 ![] bcast_S_S4x512x1x1 : (⟨S_, .f32⟩ : BufTy).Contents (Elt F) → (⟨S4x512x1x1, .f32⟩ : BufTy).Contents (Elt F)),
    StableHlo.binary main_v1 main_v2 main_v3 (Host.divf : (⟨S4x512x1x1, .f32⟩ : BufTy).Contents (Elt F) → (⟨S4x512x1x1, .f32⟩ : BufTy).Contents (Elt F) → (⟨S4x512x1x1, .f32⟩ : BufTy).Contents (Elt F)),
    StableHlo.nullary main_c (constantI S_ 32 0#32) ]

/-- The first variance call's lines (over the third argument), the select of its guard inlined. (23 operations) -/
def opsV0 : List (HloOp τ sig (Elt F)) :=
  [ StableHlo.TRef.nullary (.of main_call0_cst : StableHlo.TRef sig ⟨S_, .f32⟩) (constant S_ .f32 0x00000000#32),
    StableHlo.TRef.binary (.of main_arg2 : StableHlo.TRef sig ⟨S4x512x64x64, .f32⟩) (.of main_call0_cst : StableHlo.TRef sig ⟨S_, .f32⟩) (.of main_call0_v0 : StableHlo.TRef sig ⟨S4x512, .f32⟩) (fun x v => Host.reduceAdd x v reducesTo_S4x512x64x64_S4x512_d2_3 h_S_),
    StableHlo.TRef.unary (.of main_call0_v0 : StableHlo.TRef sig ⟨S4x512, .f32⟩) (.of main_call0_v1 : StableHlo.TRef sig ⟨S4x512x1x1, .f32⟩) (broadcastInDim S4x512x1x1 ![0, 1] bcast_S4x512_S4x512x1x1_0_1),
    StableHlo.TRef.nullary (.of main_call0_cst_0 : StableHlo.TRef sig ⟨S_, .f32⟩) (constant S_ .f32 0x45800000#32),
    StableHlo.TRef.unary (.of main_call0_cst_0 : StableHlo.TRef sig ⟨S_, .f32⟩) (.of main_call0_v2 : StableHlo.TRef sig ⟨S4x512x1x1, .f32⟩) (broadcastInDim S4x512x1x1 ![] bcast_S_S4x512x1x1),
    StableHlo.TRef.binary (.of main_call0_v1 : StableHlo.TRef sig ⟨S4x512x1x1, .f32⟩) (.of main_call0_v2 : StableHlo.TRef sig ⟨S4x512x1x1, .f32⟩) (.of main_call0_v3 : StableHlo.TRef sig ⟨S4x512x1x1, .f32⟩) Host.divf,
    StableHlo.TRef.unary (.of main_call0_v3 : StableHlo.TRef sig ⟨S4x512x1x1, .f32⟩) (.of main_call0_v4 : StableHlo.TRef sig ⟨S4x512x64x64, .f32⟩) (broadcastInDim S4x512x64x64 ![0, 1, 2, 3] bcast_S4x512x1x1_S4x512x64x64_0_1_2_3),
    StableHlo.TRef.binary (.of main_arg2 : StableHlo.TRef sig ⟨S4x512x64x64, .f32⟩) (.of main_call0_v4 : StableHlo.TRef sig ⟨S4x512x64x64, .f32⟩) (.of main_call0_v5 : StableHlo.TRef sig ⟨S4x512x64x64, .f32⟩) subf,
    StableHlo.TRef.binary (.of main_call0_v5 : StableHlo.TRef sig ⟨S4x512x64x64, .f32⟩) (.of main_call0_v5 : StableHlo.TRef sig ⟨S4x512x64x64, .f32⟩) (.of main_call0_v6 : StableHlo.TRef sig ⟨S4x512x64x64, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x45800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S4x512x64x64, .f32⟩) (.of main_call0_cst_2 : StableHlo.TRef sig ⟨S_, .f32⟩) (.of main_call0_v9 : StableHlo.TRef sig ⟨S4x512, .f32⟩) (fun x v => Host.reduceAdd x v reducesTo_S4x512x64x64_S4x512_d2_3 h_S_),
    StableHlo.TRef.unary (.of main_call0_v9 : StableHlo.TRef sig ⟨S4x512, .f32⟩) (.of main_call0_v10 : StableHlo.TRef sig ⟨S4x512x1x1, .f32⟩) (broadcastInDim S4x512x1x1 ![0, 1] bcast_S4x512_S4x512x1x1_0_1),
    StableHlo.TRef.unary (.of main_call0_v8 : StableHlo.TRef sig ⟨S_, .f32⟩) (.of main_call0_v11 : StableHlo.TRef sig ⟨S4x512x1x1, .f32⟩) (broadcastInDim S4x512x1x1 ![] bcast_S_S4x512x1x1),
    StableHlo.TRef.binary (.of main_call0_v10 : StableHlo.TRef sig ⟨S4x512x1x1, .f32⟩) (.of main_call0_v11 : StableHlo.TRef sig ⟨S4x512x1x1, .f32⟩) (.of main_call0_v12 : StableHlo.TRef sig ⟨S4x512x1x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S4x512x1x1, .f32⟩) (broadcastInDim S4x512x1x1 ![] bcast_S_S4x512x1x1),
    StableHlo.TRef.ternary (.of main_call0_v13 : StableHlo.TRef sig ⟨S_, .i1⟩) (.of main_call0_v12 : StableHlo.TRef sig ⟨S4x512x1x1, .f32⟩) (.of main_call0_call0_v1 : StableHlo.TRef sig ⟨S4x512x1x1, .f32⟩) (.of main_v4 : StableHlo.TRef sig ⟨S4x512x1x1, .f32⟩) (fun p a b => select (broadcastInDim S4x512x1x1 ![] bcast_S_S4x512x1x1 p) a b) ]

/-- @main's lines up to the second variance call: the third argument normalised, flattened and transposed; the spatial mean of the fourth argument. (17 operations) -/
def opsA1 : List (HloOp τ sig (Elt F)) :=
  [ StableHlo.unary main_v3 main_v5 (broadcastInDim S4x512x64x64 ![0, 1, 2, 3] bcast_S4x512x1x1_S4x512x64x64_0_1_2_3 : (⟨S4x512x1x1, .f32⟩ : BufTy).Contents (Elt F) → (⟨S4x512x64x64, .f32⟩ : BufTy).Contents (Elt F)),
    StableHlo.binary main_arg2 main_v5 main_v6 (subf : (⟨S4x512x64x64, .f32⟩ : BufTy).Contents (Elt F) → (⟨S4x512x64x64, .f32⟩ : BufTy).Contents (Elt F) → (⟨S4x512x64x64, .f32⟩ : BufTy).Contents (Elt F)),
    StableHlo.nullary main_cst_1 (constant S_ .f32 0x3727C5AC#32),
    StableHlo.unary main_cst_1 main_v7 (broadcastInDim S4x512x1x1 ![] bcast_S_S4x512x1x1 : (⟨S_, .f32⟩ : BufTy).Contents (Elt F) → (⟨S4x512x1x1, .f32⟩ : BufTy).Contents (Elt F)),
    StableHlo.binary main_v4 main_v7 main_v8 (addf : (⟨S4x512x1x1, .f32⟩ : BufTy).Contents (Elt F) → (⟨S4x512x1x1, .f32⟩ : BufTy).Contents (Elt F) → (⟨S4x512x1x1, .f32⟩ : BufTy).Contents (Elt F)),
    StableHlo.unary main_v8 main_v9 (Host.rsqrt : (⟨S4x512x1x1, .f32⟩ : BufTy).Contents (Elt F) → (⟨S4x512x1x1, .f32⟩ : BufTy).Contents (Elt F)),
    StableHlo.unary main_v9 main_v10 (broadcastInDim S4x512x64x64 ![0, 1, 2, 3] bcast_S4x512x1x1_S4x512x64x64_0_1_2_3 : (⟨S4x512x1x1, .f32⟩ : BufTy).Contents (Elt F) → (⟨S4x512x64x64, .f32⟩ : BufTy).Contents (Elt F)),
    StableHlo.binary main_v6 main_v10 main_v11 (mulf : (⟨S4x512x64x64, .f32⟩ : BufTy).Contents (Elt F) → (⟨S4x512x64x64, .f32⟩ : BufTy).Contents (Elt F) → (⟨S4x512x64x64, .f32⟩ : BufTy).Contents (Elt F)),
    StableHlo.reshape main_v11 main_v12 rfl shapeCasts_S4x512x64x64_S4x512x4096,
    StableHlo.unary main_v12 main_v13 ((transpose S4x4096x512 [0, 2, 1] · transposes_S4x512x4096_S4x4096x512_0_2_1) : (⟨S4x512x4096, .f32⟩ : BufTy).Contents (Elt F) → (⟨S4x4096x512, .f32⟩ : BufTy).Contents (Elt F)),
    StableHlo.nullary main_cst_2 (constant S_ .f32 0x00000000#32),
    StableHlo.binary main_arg3 main_cst_2 main_v14 ((fun x v => Host.reduceAdd x v reducesTo_S4x512x64x64_S4x512_d2_3 h_S_) : (⟨S4x512x64x64, .f32⟩ : BufTy).Contents (Elt F) → (⟨S_, .f32⟩ : BufTy).Contents (Elt F) → (⟨S4x512, .f32⟩ : BufTy).Contents (Elt F)),
    StableHlo.unary main_v14 main_v15 (broadcastInDim S4x512x1x1 ![0, 1] bcast_S4x512_S4x512x1x1_0_1 : (⟨S4x512, .f32⟩ : BufTy).Contents (Elt F) → (⟨S4x512x1x1, .f32⟩ : BufTy).Contents (Elt F)),
    StableHlo.nullary main_cst_3 (constant S_ .f32 0x45800000#32),
    StableHlo.unary main_cst_3 main_v16 (broadcastInDim S4x512x1x1 ![] bcast_S_S4x512x1x1 : (⟨S_, .f32⟩ : BufTy).Contents (Elt F) → (⟨S4x512x1x1, .f32⟩ : BufTy).Contents (Elt F)),
    StableHlo.binary main_v15 main_v16 main_v17 (Host.divf : (⟨S4x512x1x1, .f32⟩ : BufTy).Contents (Elt F) → (⟨S4x512x1x1, .f32⟩ : BufTy).Contents (Elt F) → (⟨S4x512x1x1, .f32⟩ : BufTy).Contents (Elt F)),
    StableHlo.nullary main_c_4 (constantI S_ 32 0#32) ]

/-- The second variance call's lines (over the fourth argument). (23 operations) -/
def opsV1 : List (HloOp τ sig (Elt F)) :=
  [ StableHlo.TRef.nullary (.of main_call1_cst : StableHlo.TRef sig ⟨S_, .f32⟩) (constant S_ .f32 0x00000000#32),
    StableHlo.TRef.binary (.of main_arg3 : StableHlo.TRef sig ⟨S4x512x64x64, .f32⟩) (.of main_call1_cst : StableHlo.TRef sig ⟨S_, .f32⟩) (.of main_call1_v0 : StableHlo.TRef sig ⟨S4x512, .f32⟩) (fun x v => Host.reduceAdd x v reducesTo_S4x512x64x64_S4x512_d2_3 h_S_),
    StableHlo.TRef.unary (.of main_call1_v0 : StableHlo.TRef sig ⟨S4x512, .f32⟩) (.of main_call1_v1 : StableHlo.TRef sig ⟨S4x512x1x1, .f32⟩) (broadcastInDim S4x512x1x1 ![0, 1] bcast_S4x512_S4x512x1x1_0_1),
    StableHlo.TRef.nullary (.of main_call1_cst_0 : StableHlo.TRef sig ⟨S_, .f32⟩) (constant S_ .f32 0x45800000#32),
    StableHlo.TRef.unary (.of main_call1_cst_0 : StableHlo.TRef sig ⟨S_, .f32⟩) (.of main_call1_v2 : StableHlo.TRef sig ⟨S4x512x1x1, .f32⟩) (broadcastInDim S4x512x1x1 ![] bcast_S_S4x512x1x1),
    StableHlo.TRef.binary (.of main_call1_v1 : StableHlo.TRef sig ⟨S4x512x1x1, .f32⟩) (.of main_call1_v2 : StableHlo.TRef sig ⟨S4x512x1x1, .f32⟩) (.of main_call1_v3 : StableHlo.TRef sig ⟨S4x512x1x1, .f32⟩) Host.divf,
    StableHlo.TRef.unary (.of main_call1_v3 : StableHlo.TRef sig ⟨S4x512x1x1, .f32⟩) (.of main_call1_v4 : StableHlo.TRef sig ⟨S4x512x64x64, .f32⟩) (broadcastInDim S4x512x64x64 ![0, 1, 2, 3] bcast_S4x512x1x1_S4x512x64x64_0_1_2_3),
    StableHlo.TRef.binary (.of main_arg3 : StableHlo.TRef sig ⟨S4x512x64x64, .f32⟩) (.of main_call1_v4 : StableHlo.TRef sig ⟨S4x512x64x64, .f32⟩) (.of main_call1_v5 : StableHlo.TRef sig ⟨S4x512x64x64, .f32⟩) subf,
    StableHlo.TRef.binary (.of main_call1_v5 : StableHlo.TRef sig ⟨S4x512x64x64, .f32⟩) (.of main_call1_v5 : StableHlo.TRef sig ⟨S4x512x64x64, .f32⟩) (.of main_call1_v6 : StableHlo.TRef sig ⟨S4x512x64x64, .f32⟩) mulf,
    StableHlo.TRef.unary (.of main_c_4 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x45800000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S4x512x64x64, .f32⟩) (.of main_call1_cst_2 : StableHlo.TRef sig ⟨S_, .f32⟩) (.of main_call1_v9 : StableHlo.TRef sig ⟨S4x512, .f32⟩) (fun x v => Host.reduceAdd x v reducesTo_S4x512x64x64_S4x512_d2_3 h_S_),
    StableHlo.TRef.unary (.of main_call1_v9 : StableHlo.TRef sig ⟨S4x512, .f32⟩) (.of main_call1_v10 : StableHlo.TRef sig ⟨S4x512x1x1, .f32⟩) (broadcastInDim S4x512x1x1 ![0, 1] bcast_S4x512_S4x512x1x1_0_1),
    StableHlo.TRef.unary (.of main_call1_v8 : StableHlo.TRef sig ⟨S_, .f32⟩) (.of main_call1_v11 : StableHlo.TRef sig ⟨S4x512x1x1, .f32⟩) (broadcastInDim S4x512x1x1 ![] bcast_S_S4x512x1x1),
    StableHlo.TRef.binary (.of main_call1_v10 : StableHlo.TRef sig ⟨S4x512x1x1, .f32⟩) (.of main_call1_v11 : StableHlo.TRef sig ⟨S4x512x1x1, .f32⟩) (.of main_call1_v12 : StableHlo.TRef sig ⟨S4x512x1x1, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S4x512x1x1, .f32⟩) (broadcastInDim S4x512x1x1 ![] bcast_S_S4x512x1x1),
    StableHlo.TRef.ternary (.of main_call1_v13 : StableHlo.TRef sig ⟨S_, .i1⟩) (.of main_call1_v12 : StableHlo.TRef sig ⟨S4x512x1x1, .f32⟩) (.of main_call1_call0_v1 : StableHlo.TRef sig ⟨S4x512x1x1, .f32⟩) (.of main_v18 : StableHlo.TRef sig ⟨S4x512x1x1, .f32⟩) (fun p a b => select (broadcastInDim S4x512x1x1 ![] bcast_S_S4x512x1x1 p) a b) ]

/-- @main's lines up to the clip: the fourth argument normalised and flattened, the second argument flattened and transposed, the scores, their softmax, the weighted mean and mean of squares, their difference, the floor constant. (32 operations) -/
def opsA2 : List (HloOp τ sig (Elt F)) :=
  [ StableHlo.unary main_v17 main_v19 (broadcastInDim S4x512x64x64 ![0, 1, 2, 3] bcast_S4x512x1x1_S4x512x64x64_0_1_2_3 : (⟨S4x512x1x1, .f32⟩ : BufTy).Contents (Elt F) → (⟨S4x512x64x64, .f32⟩ : BufTy).Contents (Elt F)),
    StableHlo.binary main_arg3 main_v19 main_v20 (subf : (⟨S4x512x64x64, .f32⟩ : BufTy).Contents (Elt F) → (⟨S4x512x64x64, .f32⟩ : BufTy).Contents (Elt F) → (⟨S4x512x64x64, .f32⟩ : BufTy).Contents (Elt F)),
    StableHlo.nullary main_cst_5 (constant S_ .f32 0x3727C5AC#32),
    StableHlo.unary main_cst_5 main_v21 (broadcastInDim S4x512x1x1 ![] bcast_S_S4x512x1x1 : (⟨S_, .f32⟩ : BufTy).Contents (Elt F) → (⟨S4x512x1x1, .f32⟩ : BufTy).Contents (Elt F)),
    StableHlo.binary main_v18 main_v21 main_v22 (addf : (⟨S4x512x1x1, .f32⟩ : BufTy).Contents (Elt F) → (⟨S4x512x1x1, .f32⟩ : BufTy).Contents (Elt F) → (⟨S4x512x1x1, .f32⟩ : BufTy).Contents (Elt F)),
    StableHlo.unary main_v22 main_v23 (Host.rsqrt : (⟨S4x512x1x1, .f32⟩ : BufTy).Contents (Elt F) → (⟨S4x512x1x1, .f32⟩ : BufTy).Contents (Elt F)),
    StableHlo.unary main_v23 main_v24 (broadcastInDim S4x512x64x64 ![0, 1, 2, 3] bcast_S4x512x1x1_S4x512x64x64_0_1_2_3 : (⟨S4x512x1x1, .f32⟩ : BufTy).Contents (Elt F) → (⟨S4x512x64x64, .f32⟩ : BufTy).Contents (Elt F)),
    StableHlo.binary main_v20 main_v24 main_v25 (mulf : (⟨S4x512x64x64, .f32⟩ : BufTy).Contents (Elt F) → (⟨S4x512x64x64, .f32⟩ : BufTy).Contents (Elt F) → (⟨S4x512x64x64, .f32⟩ : BufTy).Contents (Elt F)),
    StableHlo.reshape main_v25 main_v26 rfl shapeCasts_S4x512x64x64_S4x512x4096,
    StableHlo.reshape main_arg1 main_v27 rfl shapeCasts_S4x512x64x64_S4x512x4096,
    StableHlo.unary main_v27 main_v28 ((transpose S4x4096x512 [0, 2, 1] · transposes_S4x512x4096_S4x4096x512_0_2_1) : (⟨S4x512x4096, .f32⟩ : BufTy).Contents (Elt F) → (⟨S4x4096x512, .f32⟩ : BufTy).Contents (Elt F)),
    StableHlo.binary main_v13 main_v26 main_v29 ((fun l r => Host.dotGeneral dot_S4x4096x512_S4x512x4096_S4x4096x4096_2_1_1_2_0_0 none l r) : (⟨S4x4096x512, .f32⟩ : BufTy).Contents (Elt F) → (⟨S4x512x4096, .f32⟩ : BufTy).Contents (Elt F) → (⟨S4x4096x4096, .f32⟩ : BufTy).Contents (Elt F)),
    StableHlo.nullary main_cst_6 (constant S_ .f32 0xFF800000#32),
    StableHlo.binary main_v29 main_cst_6 main_v30 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_cst_7 (constant S_ .f32 0xFF800000#32),
    StableHlo.unary main_cst_7 main_v31 (broadcastInDim S4x4096 ![] bcast_S_S4x4096 : (⟨S_, .f32⟩ : BufTy).Contents (Elt F) → (⟨S4x4096, .f32⟩ : BufTy).Contents (Elt F)),
    StableHlo.binary main_v31 main_v30 main_v32 (maximumf : (⟨S4x4096, .f32⟩ : BufTy).Contents (Elt F) → (⟨S4x4096, .f32⟩ : BufTy).Contents (Elt F) → (⟨S4x4096, .f32⟩ : BufTy).Contents (Elt F)),
    StableHlo.unary main_v32 main_v33 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v33 main_v34 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.binary main_v29 main_v34 main_v35 (subf : (⟨S4x4096x4096, .f32⟩ : BufTy).Contents (Elt F) → (⟨S4x4096x4096, .f32⟩ : BufTy).Contents (Elt F) → (⟨S4x4096x4096, .f32⟩ : BufTy).Contents (Elt F)),
    StableHlo.unary main_v35 main_v36 (Host.exp : (⟨S4x4096x4096, .f32⟩ : BufTy).Contents (Elt F) → (⟨S4x4096x4096, .f32⟩ : BufTy).Contents (Elt F)),
    StableHlo.nullary main_cst_8 (constant S_ .f32 0x00000000#32),
    StableHlo.binary main_v36 main_cst_8 main_v37 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.unary main_v37 main_v38 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v38 main_v39 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.binary main_v36 main_v39 main_v40 (Host.divf : (⟨S4x4096x4096, .f32⟩ : BufTy).Contents (Elt F) → (⟨S4x4096x4096, .f32⟩ : BufTy).Contents (Elt F) → (⟨S4x4096x4096, .f32⟩ : BufTy).Contents (Elt F)),
    StableHlo.binary main_v40 main_v28 main_v41 ((fun l r => Host.dotGeneral dot_S4x4096x4096_S4x4096x512_S4x4096x512_2_1_1_2_0_0 none l r) : (⟨S4x4096x4096, .f32⟩ : BufTy).Contents (Elt F) → (⟨S4x4096x512, .f32⟩ : BufTy).Contents (Elt F) → (⟨S4x4096x512, .f32⟩ : BufTy).Contents (Elt F)),
    StableHlo.binary main_v28 main_v28 main_v42 (mulf : (⟨S4x4096x512, .f32⟩ : BufTy).Contents (Elt F) → (⟨S4x4096x512, .f32⟩ : BufTy).Contents (Elt F) → (⟨S4x4096x512, .f32⟩ : BufTy).Contents (Elt F)),
    StableHlo.binary main_v40 main_v42 main_v43 ((fun l r => Host.dotGeneral dot_S4x4096x4096_S4x4096x512_S4x4096x512_2_1_1_2_0_0 none l r) : (⟨S4x4096x4096, .f32⟩ : BufTy).Contents (Elt F) → (⟨S4x4096x512, .f32⟩ : BufTy).Contents (Elt F) → (⟨S4x4096x512, .f32⟩ : BufTy).Contents (Elt F)),
    StableHlo.binary main_v41 main_v41 main_v44 (mulf : (⟨S4x4096x512, .f32⟩ : BufTy).Contents (Elt F) → (⟨S4x4096x512, .f32⟩ : BufTy).Contents (Elt F) → (⟨S4x4096x512, .f32⟩ : BufTy).Contents (Elt F)),
    StableHlo.binary main_v43 main_v44 main_v45 (subf : (⟨S4x4096x512, .f32⟩ : BufTy).Contents (Elt F) → (⟨S4x4096x512, .f32⟩ : BufTy).Contents (Elt F) → (⟨S4x4096x512, .f32⟩ : BufTy).Contents (Elt F)),
    StableHlo.nullary main_cst_9 (constant S_ .f32 0x358637BD#32) ]

/-- The clip's lines: the floor broadcast, the maximum. (3 operations) -/
def opsC2 : List (HloOp τ sig (Elt F)) :=
  [ StableHlo.TRef.unary (.of main_cst_9 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S4x4096x512, .f32⟩) (broadcastInDim S4x4096x512 ![] bcast_S_S4x4096x512),
    StableHlo.TRef.binary (.of main_call2_v1 : StableHlo.TRef sig ⟨S4x4096x512, .f32⟩) (.of main_v45 : StableHlo.TRef sig ⟨S4x4096x512, .f32⟩) (.of main_v46 : StableHlo.TRef sig ⟨S4x4096x512, .f32⟩) maximumf ]

/-- The square root of the clipped variance. (1 operations) -/
def opsA3 : List (HloOp τ sig (Elt F)) :=
  [ StableHlo.unary main_v46 main_v47 (Host.sqrt : (⟨S4x4096x512, .f32⟩ : BufTy).Contents (Elt F) → (⟨S4x4096x512, .f32⟩ : BufTy).Contents (Elt F)) ]

/-- @main's lines up to the third variance call: the weighted mean and deviation back in the arguments' layout; the spatial mean of the first argument. (11 operations) -/
def opsA4 : List (HloOp τ sig (Elt F)) :=
  [ StableHlo.reshape main_v41 main_v48 rfl shapeCasts_S4x4096x512_S4x64x64x512,
    StableHlo.unary main_v48 main_v49 ((transpose S4x512x64x64 [0, 3, 1, 2] · transposes_S4x64x64x512_S4x512x64x64_0_3_1_2) : (⟨S4x64x64x512, .f32⟩ : BufTy).Contents (Elt F) → (⟨S4x512x64x64, .f32⟩ : BufTy).Contents (Elt F)),
    StableHlo.reshape main_v47 main_v50 rfl shapeCasts_S4x4096x512_S4x64x64x512,
    StableHlo.unary main_v50 main_v51 ((transpose S4x512x64x64 [0, 3, 1, 2] · transposes_S4x64x64x512_S4x512x64x64_0_3_1_2) : (⟨S4x64x64x512, .f32⟩ : BufTy).Contents (Elt F) → (⟨S4x512x64x64, .f32⟩ : BufTy).Contents (Elt F)),
    StableHlo.nullary main_cst_10 (constant S_ .f32 0x00000000#32),
    StableHlo.binary main_arg0 main_cst_10 main_v52 ((fun x v => Host.reduceAdd x v reducesTo_S4x512x64x64_S4x512_d2_3 h_S_) : (⟨S4x512x64x64, .f32⟩ : BufTy).Contents (Elt F) → (⟨S_, .f32⟩ : BufTy).Contents (Elt F) → (⟨S4x512, .f32⟩ : BufTy).Contents (Elt F)),
    StableHlo.unary main_v52 main_v53 (broadcastInDim S4x512x1x1 ![0, 1] bcast_S4x512_S4x512x1x1_0_1 : (⟨S4x512, .f32⟩ : BufTy).Contents (Elt F) → (⟨S4x512x1x1, .f32⟩ : BufTy).Contents (Elt F)),
    StableHlo.nullary main_cst_11 (constant S_ .f32 0x45800000#32),
    StableHlo.unary main_cst_11 main_v54 (broadcastInDim S4x512x1x1 ![] bcast_S_S4x512x1x1 : (⟨S_, .f32⟩ : BufTy).Contents (Elt F) → (⟨S4x512x1x1, .f32⟩ : BufTy).Contents (Elt F)),
    StableHlo.binary main_v53 main_v54 main_v55 (Host.divf : (⟨S4x512x1x1, .f32⟩ : BufTy).Contents (Elt F) → (⟨S4x512x1x1, .f32⟩ : BufTy).Contents (Elt F) → (⟨S4x512x1x1, .f32⟩ : BufTy).Contents (Elt F)),
    StableHlo.nullary main_c_12 (constantI S_ 32 0#32) ]

/-- The third variance call's lines (over the first argument). (23 operations) -/
def opsV3 : List (HloOp τ sig (Elt F)) :=
  [ StableHlo.TRef.nullary (.of main_call3_cst : StableHlo.TRef sig ⟨S_, .f32⟩) (constant S_ .f32 0x00000000#32),
    StableHlo.TRef.binary (.of main_arg0 : StableHlo.TRef sig ⟨S4x512x64x64, .f32⟩) (.of main_call3_cst : StableHlo.TRef sig ⟨S_, .f32⟩) (.of main_call3_v0 : StableHlo.TRef sig ⟨S4x512, .f32⟩) (fun x v => Host.reduceAdd x v reducesTo_S4x512x64x64_S4x512_d2_3 h_S_),
    StableHlo.TRef.unary (.of main_call3_v0 : StableHlo.TRef sig ⟨S4x512, .f32⟩) (.of main_call3_v1 : StableHlo.TRef sig ⟨S4x512x1x1, .f32⟩) (broadcastInDim S4x512x1x1 ![0, 1] bcast_S4x512_S4x512x1x1_0_1),
    StableHlo.TRef.nullary (.of main_call3_cst_0 : StableHlo.TRef sig ⟨S_, .f32⟩) (constant S_ .f32 0x45800000#32),
    StableHlo.TRef.unary (.of main_call3_cst_0 : StableHlo.TRef sig ⟨S_, .f32⟩) (.of main_call3_v2 : StableHlo.TRef sig ⟨S4x512x1x1, .f32⟩) (broadcastInDim S4x512x1x1 ![] bcast_S_S4x512x1x1),
    StableHlo.TRef.binary (.of main_call3_v1 : StableHlo.TRef sig ⟨S4x512x1x1, .f32⟩) (.of main_call3_v2 : StableHlo.TRef sig ⟨S4x512x1x1, .f32⟩) (.of main_call3_v3 : StableHlo.TRef sig ⟨S4x512x1x1, .f32⟩) Host.divf,
    StableHlo.TRef.unary (.of main_call3_v3 : StableHlo.TRef sig ⟨S4x512x1x1, .f32⟩) (.of main_call3_v4 : StableHlo.TRef sig ⟨S4x512x64x64, .f32⟩) (broadcastInDim S4x512x64x64 ![0, 1, 2, 3] bcast_S4x512x1x1_S4x512x64x64_0_1_2_3),
    StableHlo.TRef.binary (.of main_arg0 : StableHlo.TRef sig ⟨S4x512x64x64, .f32⟩) (.of main_call3_v4 : StableHlo.TRef sig ⟨S4x512x64x64, .f32⟩) (.of main_call3_v5 : StableHlo.TRef sig ⟨S4x512x64x64, .f32⟩) subf,
    StableHlo.TRef.binary (.of main_call3_v5 : StableHlo.TRef sig ⟨S4x512x64x64, .f32⟩) (.of main_call3_v5 : StableHlo.TRef sig ⟨S4x512x64x64, .f32⟩) (.of main_call3_v6 : StableHlo.TRef sig ⟨S4x512x64x64, .f32⟩) mulf,
    StableHlo.TRef.unary (.of main_c_12 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x45800000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S4x512x64x64, .f32⟩) (.of main_call3_cst_2 : StableHlo.TRef sig ⟨S_, .f32⟩) (.of main_call3_v9 : StableHlo.TRef sig ⟨S4x512, .f32⟩) (fun x v => Host.reduceAdd x v reducesTo_S4x512x64x64_S4x512_d2_3 h_S_),
    StableHlo.TRef.unary (.of main_call3_v9 : StableHlo.TRef sig ⟨S4x512, .f32⟩) (.of main_call3_v10 : StableHlo.TRef sig ⟨S4x512x1x1, .f32⟩) (broadcastInDim S4x512x1x1 ![0, 1] bcast_S4x512_S4x512x1x1_0_1),
    StableHlo.TRef.unary (.of main_call3_v8 : StableHlo.TRef sig ⟨S_, .f32⟩) (.of main_call3_v11 : StableHlo.TRef sig ⟨S4x512x1x1, .f32⟩) (broadcastInDim S4x512x1x1 ![] bcast_S_S4x512x1x1),
    StableHlo.TRef.binary (.of main_call3_v10 : StableHlo.TRef sig ⟨S4x512x1x1, .f32⟩) (.of main_call3_v11 : StableHlo.TRef sig ⟨S4x512x1x1, .f32⟩) (.of main_call3_v12 : StableHlo.TRef sig ⟨S4x512x1x1, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S4x512x1x1, .f32⟩) (broadcastInDim S4x512x1x1 ![] bcast_S_S4x512x1x1),
    StableHlo.TRef.ternary (.of main_call3_v13 : StableHlo.TRef sig ⟨S_, .i1⟩) (.of main_call3_v12 : StableHlo.TRef sig ⟨S4x512x1x1, .f32⟩) (.of main_call3_call0_v1 : StableHlo.TRef sig ⟨S4x512x1x1, .f32⟩) (.of main_v56 : StableHlo.TRef sig ⟨S4x512x1x1, .f32⟩) (fun p a b => select (broadcastInDim S4x512x1x1 ![] bcast_S_S4x512x1x1 p) a b) ]

/-- @main's last lines: the first argument normalised, scaled by the weighted deviation, shifted by the weighted mean. (10 operations) -/
def opsA5 : List (HloOp τ sig (Elt F)) :=
  [ StableHlo.unary main_v55 main_v57 (broadcastInDim S4x512x64x64 ![0, 1, 2, 3] bcast_S4x512x1x1_S4x512x64x64_0_1_2_3 : (⟨S4x512x1x1, .f32⟩ : BufTy).Contents (Elt F) → (⟨S4x512x64x64, .f32⟩ : BufTy).Contents (Elt F)),
    StableHlo.binary main_arg0 main_v57 main_v58 (subf : (⟨S4x512x64x64, .f32⟩ : BufTy).Contents (Elt F) → (⟨S4x512x64x64, .f32⟩ : BufTy).Contents (Elt F) → (⟨S4x512x64x64, .f32⟩ : BufTy).Contents (Elt F)),
    StableHlo.nullary main_cst_13 (constant S_ .f32 0x3727C5AC#32),
    StableHlo.unary main_cst_13 main_v59 (broadcastInDim S4x512x1x1 ![] bcast_S_S4x512x1x1 : (⟨S_, .f32⟩ : BufTy).Contents (Elt F) → (⟨S4x512x1x1, .f32⟩ : BufTy).Contents (Elt F)),
    StableHlo.binary main_v56 main_v59 main_v60 (addf : (⟨S4x512x1x1, .f32⟩ : BufTy).Contents (Elt F) → (⟨S4x512x1x1, .f32⟩ : BufTy).Contents (Elt F) → (⟨S4x512x1x1, .f32⟩ : BufTy).Contents (Elt F)),
    StableHlo.unary main_v60 main_v61 (Host.rsqrt : (⟨S4x512x1x1, .f32⟩ : BufTy).Contents (Elt F) → (⟨S4x512x1x1, .f32⟩ : BufTy).Contents (Elt F)),
    StableHlo.unary main_v61 main_v62 (broadcastInDim S4x512x64x64 ![0, 1, 2, 3] bcast_S4x512x1x1_S4x512x64x64_0_1_2_3 : (⟨S4x512x1x1, .f32⟩ : BufTy).Contents (Elt F) → (⟨S4x512x64x64, .f32⟩ : BufTy).Contents (Elt F)),
    StableHlo.binary main_v58 main_v62 main_v63 (mulf : (⟨S4x512x64x64, .f32⟩ : BufTy).Contents (Elt F) → (⟨S4x512x64x64, .f32⟩ : BufTy).Contents (Elt F) → (⟨S4x512x64x64, .f32⟩ : BufTy).Contents (Elt F)),
    StableHlo.binary main_v51 main_v63 main_v64 (mulf : (⟨S4x512x64x64, .f32⟩ : BufTy).Contents (Elt F) → (⟨S4x512x64x64, .f32⟩ : BufTy).Contents (Elt F) → (⟨S4x512x64x64, .f32⟩ : BufTy).Contents (Elt F)),
    StableHlo.binary main_v64 main_v49 main_v65 (addf : (⟨S4x512x64x64, .f32⟩ : BufTy).Contents (Elt F) → (⟨S4x512x64x64, .f32⟩ : BufTy).Contents (Elt F) → (⟨S4x512x64x64, .f32⟩ : BufTy).Contents (Elt F)) ]

/-- All of @main's operations, in order. -/
def ops : List (HloOp τ sig (Elt F)) :=
  opsA0 ++ (opsV0 ++ (opsA1 ++ (opsV1 ++ (opsA2 ++ (opsC2 ++ (opsA3 ++ (opsA4 ++ (opsV3 ++ (opsA5 ++ ([]))))))))))

/-- @main is the chain of the stretches. -/
theorem main_chain (c : Dev nD) : main (F := F) c = (Pipeline.chain
  [ StableHlo.seq opsA0,
    StableHlo.seq opsV0,
    StableHlo.seq opsA1,
    StableHlo.seq opsV1,
    StableHlo.seq opsA2,
    StableHlo.seq opsC2,
    StableHlo.seq opsA3,
    StableHlo.seq opsA4,
    StableHlo.seq opsV3,
    StableHlo.seq opsA5 ] : Prog (TpuEff nD τ sig (Elt F) (Pipeline.Sig Λ₀ (Fin 0) fun p => (pcfgs (F := F) p).Adm) .tc) PUnit) := by
  chain_rfl

/-- @main is the straight line of its operations. -/
theorem main_eq (c : Dev nD) : main (F := F) c = seq ops := by
  rw [main_chain c]
  simp only [ops, seq_append, Pipeline.chain_cons, Pipeline.chain_nil]
  rfl

theorem scopedRefs_eq : (Finset.univ.filter fun b : Ref sig .tc => b.isScoped) = ∅ := by decide
theorem scopedSems_eq : (Finset.univ.filter fun sm : SemLoc sig => sm.isScoped .tc) = ∅ := by decide

theorem opsA0_sub : (opsA0 : List (HloOp τ sig (Elt F))).Forall fun op => op.bufs ⊆ tcRefs τ sig := by
  unfold opsA0
  exact ⟨nullary_bufs_sub .., binary_bufs_sub .., unary_bufs_sub .., nullary_bufs_sub .., unary_bufs_sub .., binary_bufs_sub .., nullary_bufs_sub ..⟩

theorem opsV0_sub : (opsV0 : List (HloOp τ sig (Elt F))).Forall fun op => op.bufs ⊆ tcRefs τ sig := by
  unfold opsV0
  exact ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem opsA1_sub : (opsA1 : List (HloOp τ sig (Elt F))).Forall fun op => op.bufs ⊆ tcRefs τ sig := by
  unfold opsA1
  exact ⟨unary_bufs_sub .., binary_bufs_sub .., nullary_bufs_sub .., unary_bufs_sub .., binary_bufs_sub .., unary_bufs_sub .., unary_bufs_sub .., binary_bufs_sub .., reshape_bufs_sub .., unary_bufs_sub .., nullary_bufs_sub .., binary_bufs_sub .., unary_bufs_sub .., nullary_bufs_sub .., unary_bufs_sub .., binary_bufs_sub .., nullary_bufs_sub ..⟩

theorem opsV1_sub : (opsV1 : List (HloOp τ sig (Elt F))).Forall fun op => op.bufs ⊆ tcRefs τ sig := by
  unfold opsV1
  exact ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem opsA2_sub : (opsA2 : List (HloOp τ sig (Elt F))).Forall fun op => op.bufs ⊆ tcRefs τ sig := by
  unfold opsA2
  exact ⟨unary_bufs_sub .., binary_bufs_sub .., nullary_bufs_sub .., unary_bufs_sub .., binary_bufs_sub .., unary_bufs_sub .., unary_bufs_sub .., binary_bufs_sub .., reshape_bufs_sub .., reshape_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., binary_bufs_sub .., nullary_bufs_sub ..⟩

theorem opsC2_sub : (opsC2 : List (HloOp τ sig (Elt F))).Forall fun op => op.bufs ⊆ tcRefs τ sig := by
  unfold opsC2
  exact ⟨unary_bufs_sub .., unary_bufs_sub .., binary_bufs_sub ..⟩

theorem opsA3_sub : (opsA3 : List (HloOp τ sig (Elt F))).Forall fun op => op.bufs ⊆ tcRefs τ sig := by
  unfold opsA3
  exact unary_bufs_sub ..

theorem opsA4_sub : (opsA4 : List (HloOp τ sig (Elt F))).Forall fun op => op.bufs ⊆ tcRefs τ sig := by
  unfold opsA4
  exact ⟨reshape_bufs_sub .., unary_bufs_sub .., reshape_bufs_sub .., unary_bufs_sub .., nullary_bufs_sub .., binary_bufs_sub .., unary_bufs_sub .., nullary_bufs_sub .., unary_bufs_sub .., binary_bufs_sub .., nullary_bufs_sub ..⟩

theorem opsV3_sub : (opsV3 : List (HloOp τ sig (Elt F))).Forall fun op => op.bufs ⊆ tcRefs τ sig := by
  unfold opsV3
  exact ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem opsA5_sub : (opsA5 : List (HloOp τ sig (Elt F))).Forall fun op => op.bufs ⊆ tcRefs τ sig := by
  unfold opsA5
  exact ⟨unary_bufs_sub .., binary_bufs_sub .., nullary_bufs_sub .., unary_bufs_sub .., binary_bufs_sub .., unary_bufs_sub .., unary_bufs_sub .., binary_bufs_sub .., binary_bufs_sub .., binary_bufs_sub ..⟩

theorem ops_sub : (ops : List (HloOp τ sig (Elt F))).Forall fun op => op.bufs ⊆ tcRefs τ sig := by
  unfold ops
  simp only [List.forall_append]
  exact ⟨opsA0_sub, opsV0_sub, opsA1_sub, opsV1_sub, opsA2_sub, opsC2_sub, opsA3_sub, opsA4_sub, opsV3_sub, opsA5_sub, trivial⟩

theorem opsA0_fresh : ∀ op ∈ (opsA0 : List (HloOp τ sig (Elt F))), op.fresh = ∅ := by
  intro _ h; unfold opsA0 at h
  (repeat (cases h with | head => rfl | tail _ h => ?_)); exact nomatch h

theorem opsV0_fresh : ∀ op ∈ (opsV0 : List (HloOp τ sig (Elt F))), op.fresh = ∅ := by
  intro _ h; unfold opsV0 at h
  (repeat (cases h with | head => rfl | tail _ h => ?_)); exact nomatch h

theorem opsA1_fresh : ∀ op ∈ (opsA1 : List (HloOp τ sig (Elt F))), op.fresh = ∅ := by
  intro _ h; unfold opsA1 at h
  (repeat (cases h with | head => rfl | tail _ h => ?_)); exact nomatch h

theorem opsV1_fresh : ∀ op ∈ (opsV1 : List (HloOp τ sig (Elt F))), op.fresh = ∅ := by
  intro _ h; unfold opsV1 at h
  (repeat (cases h with | head => rfl | tail _ h => ?_)); exact nomatch h

theorem opsA2_fresh : ∀ op ∈ (opsA2 : List (HloOp τ sig (Elt F))), op.fresh = ∅ := by
  intro _ h; unfold opsA2 at h
  (repeat (cases h with | head => rfl | tail _ h => ?_)); exact nomatch h

theorem opsC2_fresh : ∀ op ∈ (opsC2 : List (HloOp τ sig (Elt F))), op.fresh = ∅ := by
  intro _ h; unfold opsC2 at h
  (repeat (cases h with | head => rfl | tail _ h => ?_)); exact nomatch h

theorem opsA3_fresh : ∀ op ∈ (opsA3 : List (HloOp τ sig (Elt F))), op.fresh = ∅ := by
  intro _ h; unfold opsA3 at h
  (repeat (cases h with | head => rfl | tail _ h => ?_)); exact nomatch h

theorem opsA4_fresh : ∀ op ∈ (opsA4 : List (HloOp τ sig (Elt F))), op.fresh = ∅ := by
  intro _ h; unfold opsA4 at h
  (repeat (cases h with | head => rfl | tail _ h => ?_)); exact nomatch h

theorem opsV3_fresh : ∀ op ∈ (opsV3 : List (HloOp τ sig (Elt F))), op.fresh = ∅ := by
  intro _ h; unfold opsV3 at h
  (repeat (cases h with | head => rfl | tail _ h => ?_)); exact nomatch h

theorem opsA5_fresh : ∀ op ∈ (opsA5 : List (HloOp τ sig (Elt F))), op.fresh = ∅ := by
  intro _ h; unfold opsA5 at h
  (repeat (cases h with | head => rfl | tail _ h => ?_)); exact nomatch h

theorem ops_fresh : ∀ op ∈ (ops : List (HloOp τ sig (Elt F))), op.fresh = ∅ := by
  intro op h
  unfold ops at h
  simp only [List.mem_append, List.not_mem_nil, or_false] at h
  rcases h with h | h | h | h | h | h | h | h | h | h
  · exact opsA0_fresh op h
  · exact opsV0_fresh op h
  · exact opsA1_fresh op h
  · exact opsV1_fresh op h
  · exact opsA2_fresh op h
  · exact opsC2_fresh op h
  · exact opsA3_fresh op h
  · exact opsA4_fresh op h
  · exact opsV3_fresh op h
  · exact opsA5_fresh op h

end Cert.ReferenceIdeal.RefValue

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefFrame.lean ====
/-
  What a stretch of the reference's operations leaves alone. Each operation writes one buffer; a buffer that is not
  among those a stretch writes holds after the stretch what it held before. Stated per stretch against an arbitrary
  valuation, and for the whole line.
-/
import proofs.«125215_j25984552141369_2_alg».proof.Proof.RefOps
import proofs.«125215_j25984552141369_2_alg».proof.Proof.LibAfterAppend

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

/-- An operation that writes the one buffer `y`, a member of the list `W`, writes inside `W`. -/
theorem writes_sub_of_mem {Val : EltTy → Type} {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers the stretch writes. -/
def wrA0 : List (Ref sig .tc) := [main_cst, main_v0, main_v1, main_cst_0, main_v2, main_v3, main_c]

theorem opsA0_writes : (opsA0 : List (HloOp τ sig (Elt F))).Forall fun op => op.writes ⊆ ((wrA0).map (Proc.devRef (τ := τ) .tc)).toFinset := by
  unfold opsA0
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer the stretch does not write keeps its contents. -/
theorem opsA0_frame {r : Ref sig .tc} (V : Valuation τ sig (Elt F)) (hr : r ∉ wrA0) :
    after opsA0 V (Proc.devRef .tc r) = V (Proc.devRef .tc r) :=
  after_of_writes_sub opsA0 V opsA0_writes hr

/-- The buffers the stretch writes. -/
def wrV0 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v4]

theorem opsV0_writes : (opsV0 : List (HloOp τ sig (Elt F))).Forall fun op => op.writes ⊆ ((wrV0).map (Proc.devRef (τ := τ) .tc)).toFinset := by
  unfold opsV0
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer the stretch does not write keeps its contents. -/
theorem opsV0_frame {r : Ref sig .tc} (V : Valuation τ sig (Elt F)) (hr : r ∉ wrV0) :
    after opsV0 V (Proc.devRef .tc r) = V (Proc.devRef .tc r) :=
  after_of_writes_sub opsV0 V opsV0_writes hr

/-- The buffers the stretch writes. -/
def wrA1 : List (Ref sig .tc) := [main_v5, main_v6, main_cst_1, main_v7, main_v8, main_v9, main_v10, main_v11, main_v12, main_v13, main_cst_2, main_v14, main_v15, main_cst_3, main_v16, main_v17, main_c_4]

theorem opsA1_writes : (opsA1 : List (HloOp τ sig (Elt F))).Forall fun op => op.writes ⊆ ((wrA1).map (Proc.devRef (τ := τ) .tc)).toFinset := by
  unfold opsA1
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer the stretch does not write keeps its contents. -/
theorem opsA1_frame {r : Ref sig .tc} (V : Valuation τ sig (Elt F)) (hr : r ∉ wrA1) :
    after opsA1 V (Proc.devRef .tc r) = V (Proc.devRef .tc r) :=
  after_of_writes_sub opsA1 V opsA1_writes hr

/-- The buffers the stretch writes. -/
def wrV1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v18]

theorem opsV1_writes : (opsV1 : List (HloOp τ sig (Elt F))).Forall fun op => op.writes ⊆ ((wrV1).map (Proc.devRef (τ := τ) .tc)).toFinset := by
  unfold opsV1
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer the stretch does not write keeps its contents. -/
theorem opsV1_frame {r : Ref sig .tc} (V : Valuation τ sig (Elt F)) (hr : r ∉ wrV1) :
    after opsV1 V (Proc.devRef .tc r) = V (Proc.devRef .tc r) :=
  after_of_writes_sub opsV1 V opsV1_writes hr

/-- The buffers the stretch writes. -/
def wrA2 : List (Ref sig .tc) := [main_v19, main_v20, main_cst_5, main_v21, main_v22, main_v23, main_v24, main_v25, main_v26, main_v27, main_v28, main_v29, main_cst_6, main_v30, main_cst_7, main_v31, main_v32, main_v33, main_v34, main_v35, main_v36, main_cst_8, main_v37, main_v38, main_v39, main_v40, main_v41, main_v42, main_v43, main_v44, main_v45, main_cst_9]

theorem opsA2_writes : (opsA2 : List (HloOp τ sig (Elt F))).Forall fun op => op.writes ⊆ ((wrA2).map (Proc.devRef (τ := τ) .tc)).toFinset := by
  unfold opsA2
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer the stretch does not write keeps its contents. -/
theorem opsA2_frame {r : Ref sig .tc} (V : Valuation τ sig (Elt F)) (hr : r ∉ wrA2) :
    after opsA2 V (Proc.devRef .tc r) = V (Proc.devRef .tc r) :=
  after_of_writes_sub opsA2 V opsA2_writes hr

/-- The buffers the stretch writes. -/
def wrC2 : List (Ref sig .tc) := [main_call2_v0, main_call2_v1, main_v46]

theorem opsC2_writes : (opsC2 : List (HloOp τ sig (Elt F))).Forall fun op => op.writes ⊆ ((wrC2).map (Proc.devRef (τ := τ) .tc)).toFinset := by
  unfold opsC2
  exact ⟨writes_sub_of_mem rfl (by decide), writes_sub_of_mem rfl (by decide), writes_sub_of_mem rfl (by decide)⟩

/-- A buffer the stretch does not write keeps its contents. -/
theorem opsC2_frame {r : Ref sig .tc} (V : Valuation τ sig (Elt F)) (hr : r ∉ wrC2) :
    after opsC2 V (Proc.devRef .tc r) = V (Proc.devRef .tc r) :=
  after_of_writes_sub opsC2 V opsC2_writes hr

/-- The buffers the stretch writes. -/
def wrA3 : List (Ref sig .tc) := [main_v47]

theorem opsA3_writes : (opsA3 : List (HloOp τ sig (Elt F))).Forall fun op => op.writes ⊆ ((wrA3).map (Proc.devRef (τ := τ) .tc)).toFinset := by
  unfold opsA3
  exact writes_sub_of_mem rfl (by decide)

/-- A buffer the stretch does not write keeps its contents. -/
theorem opsA3_frame {r : Ref sig .tc} (V : Valuation τ sig (Elt F)) (hr : r ∉ wrA3) :
    after opsA3 V (Proc.devRef .tc r) = V (Proc.devRef .tc r) :=
  after_of_writes_sub opsA3 V opsA3_writes hr

/-- The buffers the stretch writes. -/
def wrA4 : List (Ref sig .tc) := [main_v48, main_v49, main_v50, main_v51, main_cst_10, main_v52, main_v53, main_cst_11, main_v54, main_v55, main_c_12]

theorem opsA4_writes : (opsA4 : List (HloOp τ sig (Elt F))).Forall fun op => op.writes ⊆ ((wrA4).map (Proc.devRef (τ := τ) .tc)).toFinset := by
  unfold opsA4
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer the stretch does not write keeps its contents. -/
theorem opsA4_frame {r : Ref sig .tc} (V : Valuation τ sig (Elt F)) (hr : r ∉ wrA4) :
    after opsA4 V (Proc.devRef .tc r) = V (Proc.devRef .tc r) :=
  after_of_writes_sub opsA4 V opsA4_writes hr

/-- The buffers the stretch writes. -/
def wrV3 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v56]

theorem opsV3_writes : (opsV3 : List (HloOp τ sig (Elt F))).Forall fun op => op.writes ⊆ ((wrV3).map (Proc.devRef (τ := τ) .tc)).toFinset := by
  unfold opsV3
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer the stretch does not write keeps its contents. -/
theorem opsV3_frame {r : Ref sig .tc} (V : Valuation τ sig (Elt F)) (hr : r ∉ wrV3) :
    after opsV3 V (Proc.devRef .tc r) = V (Proc.devRef .tc r) :=
  after_of_writes_sub opsV3 V opsV3_writes hr

/-- The buffers the stretch writes. -/
def wrA5 : List (Ref sig .tc) := [main_v57, main_v58, main_cst_13, main_v59, main_v60, main_v61, main_v62, main_v63, main_v64, main_v65]

theorem opsA5_writes : (opsA5 : List (HloOp τ sig (Elt F))).Forall fun op => op.writes ⊆ ((wrA5).map (Proc.devRef (τ := τ) .tc)).toFinset := by
  unfold opsA5
  exact ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A buffer the stretch does not write keeps its contents. -/
theorem opsA5_frame {r : Ref sig .tc} (V : Valuation τ sig (Elt F)) (hr : r ∉ wrA5) :
    after opsA5 V (Proc.devRef .tc r) = V (Proc.devRef .tc r) :=
  after_of_writes_sub opsA5 V opsA5_writes hr

/-- The whole line read as its stretches in turn. -/
theorem after_ops (V : Valuation τ sig (Elt F)) :
    after ops V = after opsA5 (after opsV3 (after opsA4 (after opsA3 (after opsC2 (after opsA2 (after opsV1 (after opsA1 (after opsV0 (after opsA0 (V)))))))))) := by
  simp only [ops, after_append, after_nil]

/-- A buffer no stretch writes keeps its contents through the whole line. -/
theorem ops_frame {r : Ref sig .tc} (V : Valuation τ sig (Elt F))
    (hr : r ∉ wrA0 ++ (wrV0 ++ (wrA1 ++ (wrV1 ++ (wrA2 ++ (wrC2 ++ (wrA3 ++ (wrA4 ++ (wrV3 ++ (wrA5 ++ ([]))))))))))) :
    after ops V (Proc.devRef .tc r) = V (Proc.devRef .tc r) := by
  simp only [List.mem_append, List.not_mem_nil, or_false, not_or] at hr
  obtain ⟨h0, h1, h2, h3, h4, h5, h6, h7, h8, h9⟩ := hr
  rw [after_ops, opsA5_frame _ h9, opsV3_frame _ h8, opsA4_frame _ h7, opsA3_frame _ h6, opsC2_frame _ h5, opsA2_frame _ h4, opsV1_frame _ h3, opsA1_frame _ h2, opsV0_frame _ h1, opsA0_frame _ h0]

end Cert.ReferenceIdeal.RefValue

end
-- ==== Proof.RefEvalA.lean ====
/-
  What the first stretches of the reference's line leave in the buffers later stretches read, as the named functions
  of the contents before the stretch: the lines before the first variance call, and each variance call.
-/
import proofs.«125215_j25984552141369_2_alg».proof.Proof.RefOps
import proofs.«125215_j25984552141369_2_alg».proof.Proof.RefVal

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

theorem opsA0_v3 (V : Valuation τ sig (Elt F)) :
    after opsA0 V (Proc.devRef .tc main_v3) = meanOf (V (Proc.devRef .tc main_arg2)) := by
  unfold opsA0
  after_results_simp
  all_goals rfl

theorem opsA0_c (V : Valuation τ sig (Elt F)) :
    after opsA0 V (Proc.devRef .tc main_c) = constantI S_ 32 0#32 := by
  unfold opsA0
  after_results_simp
  all_goals rfl

theorem opsV0_v4 (V : Valuation τ sig (Elt F)) :
    after opsV0 V (Proc.devRef .tc main_v4) = varOf (V (Proc.devRef .tc main_arg2)) (V (Proc.devRef .tc main_c)) := by
  unfold opsV0
  after_results_simp
  all_goals rfl

theorem opsV1_v18 (V : Valuation τ sig (Elt F)) :
    after opsV1 V (Proc.devRef .tc main_v18) = varOf (V (Proc.devRef .tc main_arg3)) (V (Proc.devRef .tc main_c_4)) := by
  unfold opsV1
  after_results_simp
  all_goals rfl

theorem opsV3_v56 (V : Valuation τ sig (Elt F)) :
    after opsV3 V (Proc.devRef .tc main_v56) = varOf (V (Proc.devRef .tc main_arg0)) (V (Proc.devRef .tc main_c_12)) := by
  unfold opsV3
  after_results_simp
  all_goals rfl

end Cert.ReferenceIdeal.RefValue

end
-- ==== Proof.RefEvalB.lean ====
/-
  What the later stretches of the reference's line leave in the buffers the following stretches read, as the named
  functions of the contents before the stretch: the lines between the first two variance calls, the clip, the square root, the change of layout, and the last lines.
-/
import proofs.«125215_j25984552141369_2_alg».proof.Proof.RefOps
import proofs.«125215_j25984552141369_2_alg».proof.Proof.RefVal

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

theorem opsA1_v13 (V : Valuation τ sig (Elt F)) :
    after opsA1 V (Proc.devRef .tc main_v13) = flatT (nrmOf (V (Proc.devRef .tc main_arg2)) (V (Proc.devRef .tc main_v3)) (V (Proc.devRef .tc main_v4))) := by
  unfold opsA1
  after_results_simp
  all_goals rfl

theorem opsA1_v17 (V : Valuation τ sig (Elt F)) :
    after opsA1 V (Proc.devRef .tc main_v17) = meanOf (V (Proc.devRef .tc main_arg3)) := by
  unfold opsA1
  after_results_simp
  all_goals rfl

theorem opsA1_c_4 (V : Valuation τ sig (Elt F)) :
    after opsA1 V (Proc.devRef .tc main_c_4) = constantI S_ 32 0#32 := by
  unfold opsA1
  after_results_simp
  all_goals rfl

theorem opsC2_v46 (V : Valuation τ sig (Elt F)) :
    after opsC2 V (Proc.devRef .tc main_v46) = clipOf (V (Proc.devRef .tc main_v45)) (V (Proc.devRef .tc main_cst_9)) := by
  unfold opsC2
  after_results_simp
  all_goals rfl

theorem opsA3_v47 (V : Valuation τ sig (Elt F)) :
    after opsA3 V (Proc.devRef .tc main_v47) = Host.sqrt (V (Proc.devRef .tc main_v46)) := by
  unfold opsA3
  after_results_simp
  all_goals rfl

theorem opsA4_v49 (V : Valuation τ sig (Elt F)) :
    after opsA4 V (Proc.devRef .tc main_v49) = unflatT (V (Proc.devRef .tc main_v41)) := by
  unfold opsA4
  after_results_simp
  all_goals rfl

theorem opsA4_v51 (V : Valuation τ sig (Elt F)) :
    after opsA4 V (Proc.devRef .tc main_v51) = unflatT (V (Proc.devRef .tc main_v47)) := by
  unfold opsA4
  after_results_simp
  all_goals rfl

theorem opsA4_v55 (V : Valuation τ sig (Elt F)) :
    after opsA4 V (Proc.devRef .tc main_v55) = meanOf (V (Proc.devRef .tc main_arg0)) := by
  unfold opsA4
  after_results_simp
  all_goals rfl

theorem opsA4_c_12 (V : Valuation τ sig (Elt F)) :
    after opsA4 V (Proc.devRef .tc main_c_12) = constantI S_ 32 0#32 := by
  unfold opsA4
  after_results_simp
  all_goals rfl

theorem opsA5_v65 (V : Valuation τ sig (Elt F)) :
    after opsA5 V (Proc.devRef .tc main_v65) = addf (mulf (V (Proc.devRef .tc main_v51)) (nrmOf (V (Proc.devRef .tc main_arg0)) (V (Proc.devRef .tc main_v55)) (V (Proc.devRef .tc main_v56)))) (V (Proc.devRef .tc main_v49)) := by
  unfold opsA5
  after_results_simp
  all_goals rfl

end Cert.ReferenceIdeal.RefValue

end
-- ==== Proof.RefEvalC.lean ====
/-
  What the attention stretch of the reference's line leaves in the buffers the following stretches read: the weighted
  mean of the values, their weighted variance, and the floor word, as the named functions of the contents before it.
-/
import proofs.«125215_j25984552141369_2_alg».proof.Proof.RefOps
import proofs.«125215_j25984552141369_2_alg».proof.Proof.RefVal

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

theorem opsA2_v41 (V : Valuation τ sig (Elt F)) :
    after opsA2 V (Proc.devRef .tc main_v41) = avgOf (wgtOf (scoreOf (V (Proc.devRef .tc main_v13)) (flat (nrmOf (V (Proc.devRef .tc main_arg3)) (V (Proc.devRef .tc main_v17)) (V (Proc.devRef .tc main_v18)))))) (flatT (V (Proc.devRef .tc main_arg1))) := by
  unfold opsA2
  after_results_simp
  all_goals rfl

theorem opsA2_v45 (V : Valuation τ sig (Elt F)) :
    after opsA2 V (Proc.devRef .tc main_v45) = wvarOf (wgtOf (scoreOf (V (Proc.devRef .tc main_v13)) (flat (nrmOf (V (Proc.devRef .tc main_arg3)) (V (Proc.devRef .tc main_v17)) (V (Proc.devRef .tc main_v18)))))) (flatT (V (Proc.devRef .tc main_arg1))) := by
  unfold opsA2
  after_results_simp
  all_goals rfl

theorem opsA2_cst_9 (V : Valuation τ sig (Elt F)) :
    after opsA2 V (Proc.devRef .tc main_cst_9) = constant S_ .f32 0x358637BD#32 := by
  unfold opsA2
  after_results_simp
  all_goals rfl

end Cert.ReferenceIdeal.RefValue

end
-- ==== Proof.RefEval.lean ====
/-
  The whole line read at the result buffer: the stretches in turn, each stretch's results the named functions of the
  contents before it and every other buffer untouched, compose to `outOf` of the four arguments' contents.
-/
import proofs.«125215_j25984552141369_2_alg».proof.Proof.RefFrame
import proofs.«125215_j25984552141369_2_alg».proof.Proof.RefEvalA
import proofs.«125215_j25984552141369_2_alg».proof.Proof.RefEvalB
import proofs.«125215_j25984552141369_2_alg».proof.Proof.RefEvalC

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F]

/-- After the whole line the result buffer holds `outOf` of the arguments' contents before it. -/
theorem ops_v65 (V : Valuation τ sig (Elt F)) :
    after ops V (Proc.devRef .tc main_v65)
      = outOf (V (Proc.devRef .tc main_arg0)) (V (Proc.devRef .tc main_arg1)) (V (Proc.devRef .tc main_arg2))
          (V (Proc.devRef .tc main_arg3)) := by
  rw [after_ops]
  rw [opsA5_v65]
  rw [opsV3_frame (r := main_v51) _ (by decide),
    opsV3_frame (r := main_arg0) _ (by decide),
    opsV3_frame (r := main_v55) _ (by decide),
    opsV3_v56,
    opsV3_frame (r := main_v49) _ (by decide)]
  rw [opsA4_v51,
    opsA4_v55,
    opsA4_c_12,
    opsA4_v49,
    opsA4_frame (r := main_arg0) _ (by decide)]
  rw [opsA3_v47,
    opsA3_frame (r := main_arg0) _ (by decide),
    opsA3_frame (r := main_v41) _ (by decide)]
  rw [opsC2_v46,
    opsC2_frame (r := main_arg0) _ (by decide),
    opsC2_frame (r := main_v41) _ (by decide)]
  rw [opsA2_v45,
    opsA2_cst_9,
    opsA2_v41,
    opsA2_frame (r := main_arg0) _ (by decide)]
  rw [opsV1_v18,
    opsV1_frame (r := main_v13) _ (by decide),
    opsV1_frame (r := main_arg3) _ (by decide),
    opsV1_frame (r := main_v17) _ (by decide),
    opsV1_frame (r := main_arg1) _ (by decide),
    opsV1_frame (r := main_arg0) _ (by decide)]
  rw [opsA1_c_4,
    opsA1_v13,
    opsA1_v17,
    opsA1_frame (r := main_arg3) _ (by decide),
    opsA1_frame (r := main_arg1) _ (by decide),
    opsA1_frame (r := main_arg0) _ (by decide)]
  rw [opsV0_v4,
    opsV0_frame (r := main_arg2) _ (by decide),
    opsV0_frame (r := main_v3) _ (by decide),
    opsV0_frame (r := main_arg3) _ (by decide),
    opsV0_frame (r := main_arg1) _ (by decide),
    opsV0_frame (r := main_arg0) _ (by decide)]
  rw [opsA0_c,
    opsA0_v3,
    opsA0_frame (r := main_arg2) _ (by decide),
    opsA0_frame (r := main_arg3) _ (by decide),
    opsA0_frame (r := main_arg1) _ (by decide),
    opsA0_frame (r := main_arg0) _ (by decide)]
  rfl

end Cert.ReferenceIdeal.RefValue

end
-- ==== Proof.RefRun.lean ====
/-
  The run of the idealized reference. From any memory with zero counters every weakly fair execution of @main
  terminates; the result buffer then holds `res`, the contents the operations leave there from the launch contents,
  and the four arguments are unchanged.
-/
import proofs.«125215_j25984552141369_2_alg».proof.Proof.RefFrame
import Idealize.ShloMosaic.PureOps.Ideal

noncomputable section

namespace Cert.ReferenceIdeal.RefValue

open Cert.ReferenceIdeal Idealize.ShloMosaic Idealize.ShloMosaic.TcCoe Idealize.SL.Sem Idealize.ShloMosaic.StableHlo
open Facts₀

/-- The result: what the operations, run in order from the launch contents of device `c`, leave in the result buffer. -/
def res (m : (ℓ : Loc nD τ sig) → Buf (Elt Ideal) ℓ) (c : Dev nD) : (⟨S4x512x64x64, .f32⟩ : BufTy).Contents (Elt Ideal) :=
  after (ops (F := Ideal)) (launchContents m c) (Proc.devRef .tc main_v65)

/-- On every device, from any memory with zero counters: every weakly fair execution of @main terminates with the
    result buffer at `res` and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v65) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h c main_v65,
      (h c main_arg0).trans (ops_frame (F := Ideal) (r := main_arg0) (launchContents m c) (by decide)),
      (h c main_arg1).trans (ops_frame (F := Ideal) (r := main_arg1) (launchContents m c) (by decide)),
      (h c main_arg2).trans (ops_frame (F := Ideal) (r := main_arg2) (launchContents m c) (by decide)),
      (h c main_arg3).trans (ops_frame (F := Ideal) (r := main_arg3) (launchContents m c) (by decide))⟩)
    (run_seq scopedRefs_eq scopedSems_eq (defs (F := Ideal)) (main (F := Ideal)) (fun _ => ops (F := Ideal)) main_eq
      (fun _ => ops_sub) m ρ (fun _ => ops_fresh))

end Cert.ReferenceIdeal.RefValue

end
-- ==== Proof.RefRead.lean ====
/-
  The reference's result read at an index. With the instance normalisation read as the specification's `nrm`, the
  queries, keys and values at flat positions are the specification's; the scores, their row maximum, the exponentials,
  the softmax weights, the weighted mean and mean of squares, the floored deviation follow stage by stage, and the
  result of the run at (b, v, h, w) is the specification's `out` of the four arguments' launch contents.
-/
import proofs.«125215_j25984552141369_2_alg».proof.Proof.RefReadNrm
import proofs.«125215_j25984552141369_2_alg».proof.Proof.RefReadAttn
import proofs.«125215_j25984552141369_2_alg».proof.Proof.RefEval
import proofs.«125215_j25984552141369_2_alg».proof.Proof.RefRun

noncomputable section

namespace Cert.ReferenceIdeal.RefValue

open Cert.ReferenceIdeal Idealize.ShloMosaic Idealize.ShloMosaic.ValueIdx Idealize.ShloMosaic.TcCoe Idealize.SL.Sem
open Idealize.ShloMosaic.StableHlo (after launchContents)
open Facts₀

open Cert.Attn (hh ww pos)
variable (cx sx c1x s1x : FVec Ideal S4x512x64x64 .f32)

/-- Queries, keys and values at flat positions are the specification's. -/
theorem qry_apply (b : Fin 4) (q : Fin 4096) (c : Fin 512) :
    flatT (nrmB c1x) (ix3 b q c) = Cert.Attn.qry hred c1x b c q := by
  rw [flatT_apply, nrmB_apply]; rfl

theorem key_apply (b : Fin 4) (c : Fin 512) (k : Fin 4096) :
    flat (nrmB s1x) (ix3 b c k) = Cert.Attn.key hred s1x b c k := by
  rw [flat_apply, nrmB_apply]; rfl

theorem val_apply (b : Fin 4) (k : Fin 4096) (v : Fin 512) :
    flatT sx (ix3 b k v) = Cert.Attn.val sx b v k := by
  rw [flatT_apply]; rfl

/-- The scores. -/
theorem scoreB_apply (b : Fin 4) (q k : Fin 4096) :
    scoreOf (flatT (nrmB c1x)) (flat (nrmB s1x)) (ix3 b q k) = Cert.Attn.score hred c1x s1x b q k := by
  rw [scoreOf_apply]
  exact Finset.sum_congr rfl fun c _ => by rw [qry_apply, key_apply]

/-- The row maximum. -/
theorem mxB_apply (b : Fin 4) (q : Fin 4096) :
    mxOf (scoreOf (flatT (nrmB c1x)) (flat (nrmB s1x))) (ix2 b q) = Cert.Attn.mx hred c1x s1x b q := by
  rw [mxOf_apply, show (fun k => scoreOf (flatT (nrmB c1x)) (flat (nrmB s1x)) (ix3 b q k))
    = fun k => Cert.Attn.score hred c1x s1x b q k from funext fun k => scoreB_apply c1x s1x b q k]
  rfl

/-- The exponentials. -/
theorem pexpB_apply (b : Fin 4) (q k : Fin 4096) :
    pexpOf (scoreOf (flatT (nrmB c1x)) (flat (nrmB s1x))) (ix3 b q k) = Cert.Attn.pexp hred c1x s1x b q k := by
  rw [pexpOf_apply, scoreB_apply, mxB_apply]
  rfl

/-- The softmax weights. -/
theorem wgtB_apply (b : Fin 4) (q k : Fin 4096) :
    wgtB c1x s1x (ix3 b q k) = Cert.Attn.wgt hred c1x s1x b q k := by
  unfold wgtB
  rw [wgtOf_apply, pexpB_apply, show (∑ k' : Fin 4096, pexpOf (scoreOf (flatT (nrmB c1x)) (flat (nrmB s1x))) (ix3 b q k'))
    = ∑ k' : Fin 4096, Cert.Attn.pexp hred c1x s1x b q k' from Finset.sum_congr rfl fun k' _ => pexpB_apply c1x s1x b q k']
  rfl

/-- The weighted mean of the values. -/
theorem avgB_apply (b : Fin 4) (q : Fin 4096) (v : Fin 512) :
    avgOf (wgtB c1x s1x) (flatT sx) (ix3 b q v) = Cert.Attn.avg hred sx c1x s1x b q v := by
  rw [avgOf_apply]
  exact Finset.sum_congr rfl fun k _ => by rw [wgtB_apply, val_apply]

/-- The weighted mean of the squared values. -/
theorem avg2B_apply (b : Fin 4) (q : Fin 4096) (v : Fin 512) :
    avgOf (wgtB c1x s1x) (mulf (flatT sx) (flatT sx)) (ix3 b q v) = Cert.Attn.avg2 hred sx c1x s1x b q v := by
  rw [avgOf_apply]
  exact Finset.sum_congr rfl fun k _ => by rw [wgtB_apply, mulf_apply, val_apply]

/-- The floored weighted deviation. -/
theorem devB_apply (b : Fin 4) (q : Fin 4096) (v : Fin 512) :
    Host.sqrt (clipOf (wvarOf (wgtB c1x s1x) (flatT sx)) (constant S_ .f32 0x358637BD#32)) (ix3 b q v)
      = Cert.Attn.dev hred sx c1x s1x b q v := by
  unfold clipOf wvarOf
  rw [hsqrt_apply, maximumf_apply, bc0v_apply, subf_apply, mulf_apply, avg2B_apply, avgB_apply]
  rfl

/-- The whole computation at (b, v, h, w): the specification's result. -/
theorem outOf_apply (b : Fin 4) (v : Fin 512) (h w : Fin 64) :
    outOf cx sx c1x s1x (ix4 b v h w) = Cert.Attn.out hred cx sx c1x s1x b v h w := by
  unfold outOf
  rw [addf_apply, mulf_apply, unflatT_apply, unflatT_apply, devB_apply, nrmB_apply, avgB_apply]
  rfl

/-- The result of the run, index by index: the specification's result of the four arguments' launch contents. -/
theorem res_eq_out (m : (ℓ : Loc nD τ sig) → Buf (Elt Ideal) ℓ) (c : Dev nD) :
    (res m c : S4x512x64x64.Idx → EReal)
      = fun i => Cert.Attn.out Facts₀.reducesTo_S4x512x64x64_S4x512_d2_3
          (m ((c.tc : Thread nD τ).loc main_arg0)) (m ((c.tc : Thread nD τ).loc main_arg1))
          (m ((c.tc : Thread nD τ).loc main_arg2)) (m ((c.tc : Thread nD τ).loc main_arg3)) (i 0) (i 1) (i 2) (i 3) := by
  funext i
  obtain ⟨b, v, h, w, rfl⟩ : ∃ (b : Fin 4) (v : Fin 512) (h w : Fin 64), i = ix4 b v h w := ⟨i 0, i 1, i 2, i 3, eq_ix4 i⟩
  unfold res
  rw [ops_v65]
  exact outOf_apply _ _ _ _ b v h w

end Cert.ReferenceIdeal.RefValue

end
-- ==== Proof.PreReal.lean ====
/-
  The precondition makes the four argument arrays everywhere real.

  The precondition is the conjunction, over the four arrays, of "every entry x has |x| < +∞", each conjunct a
  reduction by "and" over the whole array of the entrywise comparison. A reduction by "and" that is 1 met only
  1s, so every entry has max x (-x) < ⊤; of the three kinds of extended real, -∞ and +∞ both have
  max x (-x) = ⊤, so x is a real number.
-/
import proofs.«125215_j25984552141369_2_alg».proof.Defs
import proofs.«125215_j25984552141369_2_alg».proof.Proof.Gen.Pre_finite_inputs
import proofs.«125215_j25984552141369_2_alg».proof.Proof.SpecReal
import Idealize.ShloMosaic.Lib.ReduceAll
import Idealize.ShloMosaic.Lib.IdealHost

noncomputable section

namespace Cert.Proof.PreReal

open Idealize.ShloMosaic Idealize.ShloMosaic.ValueIdx Idealize.SL.Sem

/-- The scalar shape has one index. -/
instance : Subsingleton Cert.Pre_finite_inputs.S_.Idx := ⟨fun a b => funext fun d => d.elim0⟩

/-- The word 0x7F800000 denotes +∞. -/
theorem ofBits_pos_inf : Ideal.ofBits .f32 0x7F800000#32 = (⊤ : EReal) := by
  simp [Ideal.ofBits, Ideal.ieee]

/-- An extended real whose absolute value max x (-x) is below +∞ is a real number. -/
theorem real_of_abs_lt_inf (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

open Cert.Pre_finite_inputs in
/-- One conjunct of the precondition: if the "and" over the whole array of |x| < +∞ is 1, the array is real. -/
theorem isReal_of_all (x : FVec Ideal S4x512x64x64 .f32) (init : IVec S_ 1)
    (e : Host.reduce IntOp.andi
          (cmpf .olt (Host.absf x)
            (broadcastInDim S4x512x64x64 ![] Facts.bcast_S_S4x512x64x64 (constant (F := Ideal) S_ .f32 0x7F800000#32)))
          init Facts.reducesTo_S4x512x64x64_S_d0_1_2_3 Facts.h_S_ ix0 = 1#1) :
    Cert.Attn.IsReal x := by
  intro i
  have hi := Host.reduce_andi_all _ init Facts.reducesTo_S4x512x64x64_S_d0_1_2_3 Facts.h_S_ ix0 e i
  rw [cmpf_apply, broadcastInDim_scalar_apply, constant_apply] at hi
  exact real_of_abs_lt_inf (x i) hi

/-- Under the precondition, on every device, each of the four argument arrays is everywhere real. -/
theorem real_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Attn.IsReal (m ((c.tc : Thread Cert.KernelIdeal.nD Cert.KernelIdeal.τ).loc Cert.KernelIdeal.main_arg0))
    ∧ Cert.Attn.IsReal (m ((c.tc : Thread Cert.KernelIdeal.nD Cert.KernelIdeal.τ).loc Cert.KernelIdeal.main_arg1))
    ∧ Cert.Attn.IsReal (m ((c.tc : Thread Cert.KernelIdeal.nD Cert.KernelIdeal.τ).loc Cert.KernelIdeal.main_arg2))
    ∧ Cert.Attn.IsReal (m ((c.tc : Thread Cert.KernelIdeal.nD Cert.KernelIdeal.τ).loc Cert.KernelIdeal.main_arg3)) := by
  have h := congrFun (hpre c) ix0
  dsimp only [Cert.Pre_finite_inputs.fn, Cert.Pre_finite_inputs.fn_part1] at h
  obtain ⟨h012, h3⟩ := IntOp.andi_eq_one.1 h
  obtain ⟨h01, h2⟩ := IntOp.andi_eq_one.1 h012
  obtain ⟨h0, h1⟩ := IntOp.andi_eq_one.1 h01
  exact ⟨isReal_of_all _ _ h0, isReal_of_all _ _ h1, isReal_of_all _ _ h2, isReal_of_all _ _ h3⟩

end Cert.Proof.PreReal

end
-- ==== Proof.lean ====
/-
  The kernel computes, per batch and value channel, the attention-weighted mean M and deviation S of the style
  values over all 4096 key positions and returns S * (normalised content) + M; the reference computes the same with
  a one-pass softmax. Both are the one function Cert.Attn.out of the four argument arrays:
  the statistics are the same chains of operations on both sides; the scores differ only in the order of the two
  factors of each product; the kernel's tile-by-tile softmax with a running maximum and rescaled running sums ends,
  after the eighth tile, at the one-pass weighted sums because the scores and the values are real numbers, which the
  precondition (every input finite) gives. The kernel's result array is read off its frame run block by block, the
  reference's off its run operation by operation.
-/
import proofs.«125215_j25984552141369_2_alg».proof.Defs
import proofs.«125215_j25984552141369_2_alg».proof.Proof.Gen.Kernel
import proofs.«125215_j25984552141369_2_alg».proof.Proof.Gen.Kernel.Frame
import proofs.«125215_j25984552141369_2_alg».proof.Proof.Gen.KernelIdeal
import proofs.«125215_j25984552141369_2_alg».proof.Proof.Gen.KernelIdeal.Frame
import proofs.«125215_j25984552141369_2_alg».proof.Proof.Gen.ReferenceIdeal
import proofs.«125215_j25984552141369_2_alg».proof.Proof.Gen.Pre_finite_inputs
import proofs.«125215_j25984552141369_2_alg».proof.Proof.KerArray
import proofs.«125215_j25984552141369_2_alg».proof.Proof.KerPoint
import proofs.«125215_j25984552141369_2_alg».proof.Proof.RefRead
import proofs.«125215_j25984552141369_2_alg».proof.Proof.PreReal
import Idealize.ShloMosaic.Adequacy
import Idealize.ShloMosaic.Init

noncomputable section

namespace Cert.Proof

open Idealize.ShloMosaic Idealize.ShloMosaic.ValueIdx Idealize.SL.Sem

/-- The three frames: the two kernel programs' are the generated frame certificates; the reference's is its run
    with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- The array the kernel's region leaves, over flat positions: the specification's result at row p / 64, column p % 64. -/
def kerG (m : (ℓ : Loc Cert.KernelIdeal.nD Cert.KernelIdeal.τ Cert.KernelIdeal.sig) → Buf (Elt Ideal) ℓ)
    (c : Dev Cert.KernelIdeal.nD) (i : Cert.KernelIdeal.S4x512x4096.Idx) : EReal :=
  Cert.Attn.out (Cert.KernelIdeal.Facts₀.reducesTo_S4x512x64x64_S4x512_d2_3 : Cert.Attn.SX.ReducesTo [2, 3] Cert.Attn.SBC)
    (Cert.KernelIdeal.HostVal.A0 m c) (Cert.KernelIdeal.HostVal.A1 m c) (Cert.KernelIdeal.HostVal.A2 m c)
    (Cert.KernelIdeal.HostVal.A3 m c) (i 0) (i 1) (Cert.Attn.hh (i 2)) (Cert.Attn.ww (i 2))

/-- Both idealized programs end with their result at Cert.Attn.out of the (agreeing) argument arrays. -/
theorem algebraic : Cert.algebraic_KernelIdeal_ReferenceIdeal := by
  intro m ρ m' ρ' hpre hagree
  refine ⟨fun c => (fun i : Cert.KernelIdeal.S4x512x64x64.Idx =>
      Cert.Attn.out (Cert.KernelIdeal.Facts₀.reducesTo_S4x512x64x64_S4x512_d2_3 : Cert.Attn.SX.ReducesTo [2, 3] Cert.Attn.SBC)
        (Cert.KernelIdeal.HostVal.A0 m c) (Cert.KernelIdeal.HostVal.A1 m c) (Cert.KernelIdeal.HostVal.A2 m c)
        (Cert.KernelIdeal.HostVal.A3 m c) (i 0) (i 1) (i 2) (i 3)), ?_, ?_⟩
  · -- the kernel: every block is the specification's restriction, by the precondition's realness
    have hG : ∀ (c : Dev Cert.KernelIdeal.nD) (t : Fin Cert.KernelIdeal.cfg0.N) (v j : Fin 512),
        (Cert.KernelIdeal.Gen.outsAt0 m c t : Cert.KernelIdeal.S1x512x512.Idx → EReal) (ix3 (0 : Fin 1) v j)
          = kerG m c
              (ix3 (Cert.KernelIdeal.HostVal.bOf t) v (Cert.KernelIdeal.HostVal.qpos (Cert.KernelIdeal.HostVal.qiOf t) j)) := by
      intro c t v j
      obtain ⟨-, h1, h2, h3⟩ := Cert.Proof.PreReal.real_of_pre m hpre c
      exact Cert.KernelIdeal.Body.outsAt0_spec m c h1 h2 h3 t v j
    refine (θ_run Cert.KernelIdeal.defs _ _).mono (fun r h c => ⟨(h c).1.trans ?_, (h c).2⟩)
      (Cert.KernelIdeal.ArrVal.run_of_blocks m ρ (kerG m) hG)
    funext i
    unfold kerG
    show Cert.Attn.out _ _ _ _ _ _ _ (Cert.Attn.hh (Cert.Attn.pos _ _)) (Cert.Attn.ww (Cert.Attn.pos _ _)) = _
    rw [Cert.Attn.hh_pos, Cert.Attn.ww_pos]
    rfl
  · -- the reference: its run's result read at an index, the arguments agreeing
    refine (θ_run Cert.ReferenceIdeal.defs _ _).mono (fun r h c => ⟨(h c).1.trans ?_, (h c).2⟩)
      (Cert.ReferenceIdeal.RefValue.run m' ρ')
    rw [Cert.ReferenceIdeal.RefValue.res_eq_out, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
